-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S64 .f32) (main_arg10 : FVec F S64 .f32) (main_arg11 : FVec F S64x2 .f32) (main_arg12 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg11
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x2 .f32) (main_arg12 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x2 .f32) (main_arg12 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S1600000x64 : Shape := ⟨2, ![1600000, 64]⟩
abbrev S5000x64 : Shape := ⟨2, ![5000, 64]⟩
abbrev S1x2 : Shape := ⟨2, ![1, 2]⟩

abbrev nBuf : Space → Nat
  | .hbm => 113
  | .vmem => 31
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x2, .f32⟩
  | .hbm, ⟨12, _⟩ => ⟨S2, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000, .f32⟩
  | .hbm, ⟨34, _⟩ => ⟨S100000x1, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S1x64, .f32⟩
  | .hbm, ⟨61, _⟩ => ⟨S_, .f32⟩
  | .hbm, ⟨62, _⟩ => ⟨S1x64, .f32⟩
  | .hbm, ⟨63, _⟩ => ⟨S1x64, .f32⟩
  | .hbm, ⟨64, _⟩ => ⟨S_, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S_, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S1x64, .f32⟩
  | .hbm, ⟨94, _⟩ => ⟨S_, .f32⟩
  | .hbm, ⟨95, _⟩ => ⟨S1x64, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S_, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S_, .f32⟩
  | .hbm, ⟨108, _⟩ => ⟨S1x64, .f32⟩
  | .hbm, ⟨109, _⟩ => ⟨S1x64, .f32⟩
  | .hbm, ⟨110, _⟩ => ⟨S1x2, .f32⟩
  | .hbm, ⟨111, _⟩ => ⟨S1x2, .f32⟩
  | .hbm, ⟨112, _⟩ => ⟨S1x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33_0 : Ref sig .tc := ⟨.hbm, 58, rfl⟩
abbrev main_v33_1 : Ref sig .tc := ⟨.hbm, 59, rfl⟩
abbrev main_v33_2 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58_0 : Ref sig .tc := ⟨.hbm, 91, rfl⟩
abbrev main_v58_1 : Ref sig .tc := ⟨.hbm, 92, rfl⟩
abbrev main_v58_2 : Ref sig .tc := ⟨.hbm, 93, rfl⟩
abbrev main_cst_12 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S64_S1x64 : S64.ShapeCasts S1x64
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  bcast_S2_S1x2_1 : S2.BroadcastsInDim S1x2 (![1] : Fin 1 → Fin S1x2.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S1x64_S64x2_S1x2_1_0_0_1_n_n_wf : DotDims.WF S1x64 S64x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x64_S64x2_S1x2_1_0_0_1_n_n : DotDims S1x64 S64x2 S1x2 where
  lhsContracting := [1]
  rhsContracting := [0]
  lhsNonContracting := [0]
  rhsNonContracting := [1]
  lhsBatch := []
  rhsBatch := []
  wf := dot_S1x64_S64x2_S1x2_1_0_0_1_n_n_wf

abbrev win0_0 : Pipeline.Window sig grid0 :=
  Pipeline.Window.ofSpec (Memref.whole main_v32) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v58_1) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58_2) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S1x2 : Shape := ⟨2, ![1, 2]⟩

abbrev nBuf : Space → Nat
  | .hbm => 202
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x2, .f32⟩
  | 12 => ⟨S2, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S100000x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000, .f32⟩
  | 49 => ⟨S100000x1, .f32⟩
  | 50 => ⟨S100000x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S64, .f32⟩
  | 58 => ⟨S_, .f32⟩
  | 59 => ⟨S64, .f32⟩
  | 60 => ⟨S64, .f32⟩
  | 61 => ⟨S_, .i32⟩
  | 62 => ⟨S_, .f32⟩
  | 63 => ⟨S64, .f32⟩
  | 64 => ⟨S1x64, .f32⟩
  | 65 => ⟨S_, .f32⟩
  | 66 => ⟨S1x64, .f32⟩
  | 67 => ⟨S1x64, .f32⟩
  | 68 => ⟨S100000x64, .f32⟩
  | 69 => ⟨S100000x64, .f32⟩
  | 70 => ⟨S100000x64, .f32⟩
  | 71 => ⟨S_, .f32⟩
  | 72 => ⟨S_, .f32⟩
  | 73 => ⟨S_, .f32⟩
  | 74 => ⟨S_, .f32⟩
  | 75 => ⟨S64, .f32⟩
  | 76 => ⟨S64, .f32⟩
  | 77 => ⟨S64, .f32⟩
  | 78 => ⟨S_, .f32⟩
  | 79 => ⟨S_, .i1⟩
  | 80 => ⟨S_, .f32⟩
  | 81 => ⟨S_, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S_, .f32⟩
  | 88 => ⟨S64, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .f32⟩
  | 104 => ⟨S1600000, .f32⟩
  | 105 => ⟨S_, .f32⟩
  | 106 => ⟨S100000, .f32⟩
  | 107 => ⟨S1600000x1, .i32⟩
  | 108 => ⟨S100000, .f32⟩
  | 109 => ⟨S_, .f32⟩
  | 110 => ⟨S_, .f32⟩
  | 111 => ⟨S100000, .f32⟩
  | 112 => ⟨S100000, .f32⟩
  | 113 => ⟨S_, .f32⟩
  | 114 => ⟨S100000, .f32⟩
  | 115 => ⟨S1600000x1, .i32⟩
  | 116 => ⟨S100000, .f32⟩
  | 117 => ⟨S_, .f32⟩
  | 118 => ⟨S_, .f32⟩
  | 119 => ⟨S100000, .f32⟩
  | 120 => ⟨S100000, .f32⟩
  | 121 => ⟨S100000, .f32⟩
  | 122 => ⟨S100000x1, .f32⟩
  | 123 => ⟨S100000x64, .f32⟩
  | 124 => ⟨S100000x64, .f32⟩
  | 125 => ⟨S_, .i32⟩
  | 126 => ⟨S1600000, .i32⟩
  | 127 => ⟨S1600000, .i1⟩
  | _ => ⟨S100000x64, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S100000, .f32⟩
  | 11 => ⟨S100000x1, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S64, .f32⟩
  | 20 => ⟨S_, .f32⟩
  | 21 => ⟨S64, .f32⟩
  | 22 => ⟨S64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S100000x64, .f32⟩
  | 31 => ⟨S100000x64, .f32⟩
  | 32 => ⟨S100000x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S1x64, .f32⟩
  | 47 => ⟨S100000x64, .f32⟩
  | 48 => ⟨S100000x64, .f32⟩
  | 49 => ⟨S_, .f32⟩
  | 50 => ⟨S64, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S_, .f32⟩
  | 66 => ⟨S64, .f32⟩
  | 67 => ⟨S1x64, .f32⟩
  | 68 => ⟨S_, .f32⟩
  | 69 => ⟨S1x64, .f32⟩
  | 70 => ⟨S1x64, .f32⟩
  | 71 => ⟨S1x2, .f32⟩
  | 72 => ⟨S1x2, .f32⟩
  | 73 => ⟨S1x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_4 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_5 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_cst_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_cst_1 : Ref sig .tc := ⟨.hbm, 72, rfl⟩
abbrev main_call2_v8 : Ref sig .tc := ⟨.hbm, 73, rfl⟩
abbrev main_call2_cst_2 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_cst_3 : Ref sig .tc := ⟨.hbm, 78, rfl⟩
abbrev main_call2_v12 : Ref sig .tc := ⟨.hbm, 79, rfl⟩
abbrev main_call2_cst_4 : Ref sig .tc := ⟨.hbm, 80, rfl⟩
abbrev main_call2_call0_v0 : Ref sig .tc := ⟨.hbm, 81, rfl⟩
abbrev main_call2_call0_v1 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_9 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_call3_cst : Ref sig .tc := ⟨.hbm, 100, rfl⟩
abbrev main_call3_v0 : Ref sig .tc := ⟨.hbm, 101, rfl⟩
abbrev main_v50 : Ref sig .tc := ⟨.hbm, 102, rfl⟩
abbrev main_cst_10 : Ref sig .tc := ⟨.hbm, 103, rfl⟩
abbrev main_v51 : Ref sig .tc := ⟨.hbm, 104, rfl⟩
abbrev main_cst_11 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_cst_12 : Ref sig .tc := ⟨.hbm, 109, rfl⟩
abbrev main_call4_v0 : Ref sig .tc := ⟨.hbm, 110, rfl⟩
abbrev main_call4_v1 : Ref sig .tc := ⟨.hbm, 111, rfl⟩
abbrev main_v55 : Ref sig .tc := ⟨.hbm, 112, rfl⟩
abbrev main_cst_13 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_14 : Ref sig .tc := ⟨.hbm, 117, rfl⟩
abbrev main_call5_v0 : Ref sig .tc := ⟨.hbm, 118, rfl⟩
abbrev main_call5_v1 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_c_15 : Ref sig .tc := ⟨.hbm, 125, rfl⟩
abbrev main_v64 : Ref sig .tc := ⟨.hbm, 126, rfl⟩
abbrev main_v65 : Ref sig .tc := ⟨.hbm, 127, rfl⟩
abbrev main_c_16 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_cst_17 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_cst_18 : Ref sig .tc := ⟨.hbm, 146, rfl⟩
abbrev main_v82 : Ref sig .tc := ⟨.hbm, 147, rfl⟩
abbrev main_cst_19 : Ref sig .tc := ⟨.hbm, 148, rfl⟩
abbrev main_v83 : Ref sig .tc := ⟨.hbm, 149, rfl⟩
abbrev main_v84 : Ref sig .tc := ⟨.hbm, 150, rfl⟩
abbrev main_c_20 : Ref sig .tc := ⟨.hbm, 151, rfl⟩
abbrev main_call6_cst : Ref sig .tc := ⟨.hbm, 152, rfl⟩
abbrev main_call6_v0 : Ref sig .tc := ⟨.hbm, 153, rfl⟩
abbrev main_call6_v1 : Ref sig .tc := ⟨.hbm, 154, rfl⟩
abbrev main_call6_cst_0 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_v6 : Ref sig .tc := ⟨.hbm, 160, rfl⟩
abbrev main_call6_v7 : Ref sig .tc := ⟨.hbm, 161, rfl⟩
abbrev main_call6_cst_1 : Ref sig .tc := ⟨.hbm, 162, rfl⟩
abbrev main_call6_v8 : Ref sig .tc := ⟨.hbm, 163, rfl⟩
abbrev main_call6_cst_2 : Ref sig .tc := ⟨.hbm, 164, rfl⟩
abbrev main_call6_v9 : Ref sig .tc := ⟨.hbm, 165, rfl⟩
abbrev main_call6_v10 : Ref sig .tc := ⟨.hbm, 166, rfl⟩
abbrev main_call6_v11 : Ref sig .tc := ⟨.hbm, 167, rfl⟩
abbrev main_call6_cst_3 : Ref sig .tc := ⟨.hbm, 168, rfl⟩
abbrev main_call6_v12 : Ref sig .tc := ⟨.hbm, 169, rfl⟩
abbrev main_call6_cst_4 : Ref sig .tc := ⟨.hbm, 170, rfl⟩
abbrev main_call6_call0_v0 : Ref sig .tc := ⟨.hbm, 171, rfl⟩
abbrev main_call6_call0_v1 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_cst_21 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_call7_cst : Ref sig .tc := ⟨.hbm, 190, rfl⟩
abbrev main_call7_v0 : Ref sig .tc := ⟨.hbm, 191, rfl⟩
abbrev main_v101 : Ref sig .tc := ⟨.hbm, 192, rfl⟩
abbrev main_cst_22 : Ref sig .tc := ⟨.hbm, 193, rfl⟩
abbrev main_v102 : Ref sig .tc := ⟨.hbm, 194, rfl⟩
abbrev main_v103 : Ref sig .tc := ⟨.hbm, 195, rfl⟩
abbrev main_cst_23 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S2_S1x2_1 : S2.BroadcastsInDim S1x2 (![1] : Fin 1 → Fin S1x2.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S1x64_S64x2_S1x2_1_0_0_1_n_n_wf : DotDims.WF S1x64 S64x2 S1x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1x64_S64x2_S1x2_1_0_0_1_n_n : DotDims S1x64 S64x2 S1x2 where
  lhsContracting := [1]
  rhsContracting := [0]
  lhsNonContracting := [0]
  rhsNonContracting := [1]
  lhsBatch := []
  rhsBatch := []
  wf := dot_S1x64_S64x2_S1x2_1_0_0_1_n_n_wf

class Facts : Prop extends Facts₀ where

variable [Facts]
-- ==== Proof.KRun.lean ====
/-
  The idealized kernel's run with its result named.

  The program is thirteen segments: host operations, then each of the four kernel launches with the host operations that
  follow it. The contents of the device's buffers at each segment boundary are a fold from the launch memory; at the last
  boundary they are `Gen.W13`. Every weakly fair execution terminates without a fault in a state whose unscoped buffers hold
  exactly those contents: so the result buffer holds `W13` at its reference, and each argument array holds what it was launched with.
-/
import proofs.«133934_j19997367730796_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters, every weakly fair execution of the program terminates, nothing faulting; the
    result buffer ends at the last boundary's contents and the thirteen argument arrays end as launched. -/
theorem run_value : θ_run defs (onTc (τ := τ) (main (F := F))) ⟨m, fun _ => 0, ρ⟩ (fun r => ∀ c : Dev nD,
      r.2.mem ((c.tc : Thread nD τ).loc main_v73) = W13 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v73 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.KRun

end
-- ==== Proof.KAgg.lean ====
/-
  The sparse aggregation between the layers, as the kernel's host operations compute it: every node's feature row is scaled by the
  reciprocal square root of its (clamped) out-degree, the rows are gathered along the edges' sources and summed at the edges'
  destinations, and the sums are scaled by the reciprocal square root of the (clamped) in-degree.
-/
import proofs.«133934_j19997367730796_1_alg».proof.Proof.Gen.KernelIdeal
import Idealize.ShloMosaic.PureOps.Ideal

noncomputable section

namespace Cert.KernelIdeal.KChase

open Idealize.ShloMosaic
open Cert.KernelIdeal Cert.KernelIdeal.Gen

/-- The reciprocal square root of every node's degree clamped below at one, as a column: the degree is the number of edges whose
    end-point (read off `idx`) is the node, counted by a scatter-add of ones. -/
def degCol (idx : IVec S1600000 32) : FVec Ideal S100000x1 .f32 :=
  broadcastInDim S100000x1 ![0] bcast_S100000_S100000x1_0
    (Host.rsqrt (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32)))))

/-- The sparse aggregation: scale each row by the source-side column `ro`, gather the rows at the (wrapped) source of every edge,
    scatter-add them at the edge's destination, scale each row by the destination-side column `ri`. -/
def aggCore (h : FVec Ideal S100000x64 .f32) (ro ri : FVec Ideal S100000x1 .f32) (src dst : IVec S1600000 32) :
    FVec Ideal S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164
        (mulf h (broadcastInDim S100000x64 ![0, 1] bcast_S100000x1_S100000x64_0_1 ro))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1 ri)

/-- The aggregation of a feature matrix along the graph given by the edge lists `src`, `dst`. -/
def aggK (src dst : IVec S1600000 32) (h : FVec Ideal S100000x64 .f32) : FVec Ideal S100000x64 .f32 :=
  aggCore h (degCol src) (degCol dst) src dst

end Cert.KernelIdeal.KChase

end
-- ==== Proof.RefOps.lean ====
/- The reference program's @main as lists of its host operations, in order, cut into consecutive segments; the operations of
   an outlined function stand at its call, over that call's buffers, spelt with the plain builders at the buffers' types
   (a typed reference built from a literal buffer carries the identity casts). With each segment: the list of the buffers it
   writes, and that every operation touches TensorCore references only. -/
import proofs.«133934_j19997367730796_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Statements 1 … 14 of @main: 18 operations. -/
abbrev seg1 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_call0_v0 ((id) : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    binary main_call0_v1 main_v3 main_v4 ((maximumf) : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v5 (broadcastInDim S100000 ![] bcast_S_S100000 : (⟨S_, .f32⟩ : BufTy).Contents (Elt F) → (⟨S100000, .f32⟩ : BufTy).Contents (Elt F)),
    unary main_arg2 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v0 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_call1_v0 ((id) : (⟨S_, .f32⟩ : BufTy).Contents (Elt F) → (⟨S_, .f32⟩ : BufTy).Contents (Elt F)),
    unary main_call1_v0 main_call1_v1 ((broadcastInDim S100000 ![] bcast_S_S100000) : (⟨S_, .f32⟩ : BufTy).Contents (Elt F) → (⟨S100000, .f32⟩ : BufTy).Contents (Elt F)),
    binary main_call1_v1 main_v7 main_v8 ((maximumf) : (⟨S100000, .f32⟩ : BufTy).Contents (Elt F) → (⟨S100000, .f32⟩ : BufTy).Contents (Elt F) → (⟨S100000, .f32⟩ : BufTy).Contents (Elt F)) ]

/-- The buffers the operations of seg1 write, in order. -/
abbrev seg1_W : List (Ref sig .tc) := [main_cst, main_v0, main_cst_0, main_v1, main_v2, main_v3, main_cst_1, main_call0_v0, main_call0_v1, main_v4, main_cst_2, main_v5, main_v6, main_v7, main_cst_3, main_call1_v0, main_call1_v1, main_v8]

theorem seg1_sub : (seg1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

/-- Statements 15 … 35 of @main: 21 operations. -/
abbrev seg2 : List (HloOp τ sig (Elt F)) :=
  [ unary main_v4 main_v9 (Host.rsqrt : (⟨S100000, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    unary main_v10 main_v11 (broadcastInDim S100000x64 ![0, 1] bcast_S100000x1_S100000x64_0_1 : (⟨S100000x1, .f32⟩ : BufTy).Contents (Elt F) → (⟨S100000x64, .f32⟩ : BufTy).Contents (Elt F)),
    binary main_arg0 main_v11 main_v12 (mulf : (⟨S100000x64, .f32⟩ : BufTy).Contents (Elt F) → (⟨S100000x64, .f32⟩ : BufTy).Contents (Elt F) → (⟨S100000x64, .f32⟩ : BufTy).Contents (Elt F)),
    nullary main_c (constantI S_ 32 0#32),
    unary main_c main_v13 (broadcastInDim S1600000 ![] bcast_S_S1600000 : (⟨S_, .i32⟩ : BufTy).Contents (Elt F) → (⟨S1600000, .i32⟩ : BufTy).Contents (Elt F)),
    binary main_arg1 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v15 (broadcastInDim S1600000 ![] bcast_S_S1600000 : (⟨S_, .i32⟩ : BufTy).Contents (Elt F) → (⟨S1600000, .i32⟩ : BufTy).Contents (Elt F)),
    binary main_arg1 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_arg1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_v12 main_v18 main_v19 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_5 (constant S_ .f32 0x00000000#32),
    unary main_cst_5 main_v20 (broadcastInDim S100000x64 ![] bcast_S_S100000x64 : (⟨S_, .f32⟩ : BufTy).Contents (Elt F) → (⟨S100000x64, .f32⟩ : BufTy).Contents (Elt F)),
    unary main_arg2 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v8 main_v23 (Host.rsqrt : (⟨S100000, .f32⟩ : BufTy).Contents (Elt F) → (⟨S100000, .f32⟩ : BufTy).Contents (Elt F)),
    unary main_v23 main_v24 (broadcastInDim S100000x1 ![0] bcast_S100000_S100000x1_0 : (⟨S100000, .f32⟩ : BufTy).Contents (Elt F) → (⟨S100000x1, .f32⟩ : BufTy).Contents (Elt F)),
    unary main_v24 main_v25 (broadcastInDim S100000x64 ![0, 1] bcast_S100000x1_S100000x64_0_1 : (⟨S100000x1, .f32⟩ : BufTy).Contents (Elt F) → (⟨S100000x64, .f32⟩ : BufTy).Contents (Elt F)),
    binary main_v22 main_v25 main_v26 (mulf : (⟨S100000x64, .f32⟩ : BufTy).Contents (Elt F) → (⟨S100000x64, .f32⟩ : BufTy).Contents (Elt F) → (⟨S100000x64, .f32⟩ : BufTy).Contents (Elt F)) ]

/-- The buffers the operations of seg2 write, in order. -/
abbrev seg2_W : List (Ref sig .tc) := [main_v9, main_v10, main_v11, main_v12, main_c, main_v13, main_v14, main_c_4, main_v15, main_v16, main_v17, main_v18, main_v19, main_cst_5, main_v20, main_v21, main_v22, main_v23, main_v24, main_v25, main_v26]

theorem seg2_sub : (seg2 : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub ..⟩

/-- Statements 36 … 39 of @main: 4 operations. -/
abbrev seg3 : List (HloOp τ sig (Elt F)) :=
  [ binary main_v26 main_arg3 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v27 main_v29 main_v30 (addf : (⟨S100000x64, .f32⟩ : BufTy).Contents (Elt F) → (⟨S100000x64, .f32⟩ : BufTy).Contents (Elt F) → (⟨S100000x64, .f32⟩ : BufTy).Contents (Elt F)) ]

/-- The buffers the operations of seg3 write, in order. -/
abbrev seg3_W : List (Ref sig .tc) := [main_v27, main_v28, main_v29, main_v30]

theorem seg3_sub : (seg3 : List (HloOp τ sig (Elt F))).Forall fun op => op.bufs ⊆ tcRefs τ sig :=
  ⟨binary_bufs_sub .., unary_bufs_sub .., unary_bufs_sub .., binary_bufs_sub ..⟩

/-- Statements 40 … 44 of @main: 5 operations. -/
abbrev seg4 : List (HloOp τ sig (Elt F)) :=
  [ nullary main_cst_6 (constant S_ .f32 0x00000000#32),
    binary main_v30 main_cst_6 main_v31 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_7 (constant S_ .f32 0x47C35000#32),
    unary main_cst_7 main_v32 (broadcastInDim S64 ![] bcast_S_S64 : (⟨S_, .f32⟩ : BufTy).Contents (Elt F) → (⟨S64, .f32⟩ : BufTy).Contents (Elt F)),
    binary main_v31 main_v32 main_v33 (Host.divf : (⟨S64, .f32⟩ : BufTy).Contents (Elt F) → (⟨S64, .f32⟩ : BufTy).Contents (Elt F) → (⟨S64, .f32⟩ : BufTy).Contents (Elt F)) ]

/-- The buffers the operations of seg4 write, in order. -/
abbrev seg4_W : List (Ref sig .tc) := [main_cst_6, main_v31, main_cst_7, main_v32, main_v33]

theorem seg4_sub : (seg4 : List (HloOp τ sig (Elt F))).Forall fun op => op.bufs ⊆ tcRefs τ sig :=
  ⟨nullary_bufs_sub .., binary_bufs_sub .., nullary_bufs_sub .., unary_bufs_sub .., binary_bufs_sub ..⟩

/-- Statements 45 … 46 of @main: 23 operations. -/
abbrev seg5 : List (HloOp τ sig (Elt F)) :=
  [ nullary main_c_8 (constantI S_ 32 0#32),
    nullary main_call2_cst (constant S_ .f32 0x00000000#32),
    binary main_v30 main_call2_cst main_call2_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_call2_v0 main_call2_v1 ((broadcastInDim S1x64 ![1] bcast_S64_S1x64_1) : (⟨S64, .f32⟩ : BufTy).Contents (Elt F) → (⟨S1x64, .f32⟩ : BufTy).Contents (Elt F)),
    nullary main_call2_cst_0 (constant S_ .f32 0x47C35000#32),
    unary main_call2_cst_0 main_call2_v2 ((broadcastInDim S1x64 ![] bcast_S_S1x64) : (⟨S_, .f32⟩ : BufTy).Contents (Elt F) → (⟨S1x64, .f32⟩ : BufTy).Contents (Elt F)),
    binary main_call2_v1 main_call2_v2 main_call2_v3 ((Host.divf) : (⟨S1x64, .f32⟩ : BufTy).Contents (Elt F) → (⟨S1x64, .f32⟩ : BufTy).Contents (Elt F) → (⟨S1x64, .f32⟩ : BufTy).Contents (Elt F)),
    unary main_call2_v3 main_call2_v4 ((broadcastInDim S100000x64 ![0, 1] bcast_S1x64_S100000x64_0_1) : (⟨S1x64, .f32⟩ : BufTy).Contents (Elt F) → (⟨S100000x64, .f32⟩ : BufTy).Contents (Elt F)),
    binary main_v30 main_call2_v4 main_call2_v5 ((subf) : (⟨S100000x64, .f32⟩ : BufTy).Contents (Elt F) → (⟨S100000x64, .f32⟩ : BufTy).Contents (Elt F) → (⟨S100000x64, .f32⟩ : BufTy).Contents (Elt F)),
    binary main_call2_v5 main_call2_v5 main_call2_v6 ((mulf) : (⟨S100000x64, .f32⟩ : BufTy).Contents (Elt F) → (⟨S100000x64, .f32⟩ : BufTy).Contents (Elt F) → (⟨S100000x64, .f32⟩ : BufTy).Contents (Elt F)),
    unary main_c_8 main_call2_v7 ((sitofp .f32) : (⟨S_, .i32⟩ : BufTy).Contents (Elt F) → (⟨S_, .f32⟩ : BufTy).Contents (Elt F)),
    nullary main_call2_cst_1 (constant S_ .f32 0x47C35000#32),
    binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_call2_v8 main_call2_v10 ((broadcastInDim S64 ![] bcast_S_S64) : (⟨S_, .f32⟩ : BufTy).Contents (Elt F) → (⟨S64, .f32⟩ : BufTy).Contents (Elt F)),
    binary main_call2_v9 main_call2_v10 main_call2_v11 ((Host.divf) : (⟨S64, .f32⟩ : BufTy).Contents (Elt F) → (⟨S64, .f32⟩ : BufTy).Contents (Elt F) → (⟨S64, .f32⟩ : BufTy).Contents (Elt F)),
    nullary main_call2_cst_3 (constant S_ .f32 0x00000000#32),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 ((id) : (⟨S_, .f32⟩ : BufTy).Contents (Elt F) → (⟨S_, .f32⟩ : BufTy).Contents (Elt F)),
    unary main_call2_call0_v0 main_call2_call0_v1 ((broadcastInDim S64 ![] bcast_S_S64) : (⟨S_, .f32⟩ : BufTy).Contents (Elt F) → (⟨S64, .f32⟩ : BufTy).Contents (Elt F)),
    ternary main_call2_v12 main_call2_v11 main_call2_call0_v1 main_v34 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- The buffers the operations of seg5 write, in order. -/
abbrev seg5_W : List (Ref sig .tc) := [main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v34]

theorem seg5_sub : (seg5 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Statements 47 … 63 of @main: 19 operations. -/
abbrev seg6 : List (HloOp τ sig (Elt F)) :=
  [ unary main_v33 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v30 main_v36 main_v37 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3727C5AC#32),
    unary main_cst_9 main_v38 (broadcastInDim S64 ![] bcast_S_S64 : (⟨S_, .f32⟩ : BufTy).Contents (Elt F) → (⟨S64, .f32⟩ : BufTy).Contents (Elt F)),
    binary main_v34 main_v38 main_v39 (addf : (⟨S64, .f32⟩ : BufTy).Contents (Elt F) → (⟨S64, .f32⟩ : BufTy).Contents (Elt F) → (⟨S64, .f32⟩ : BufTy).Contents (Elt F)),
    unary main_v39 main_v40 (Host.rsqrt : (⟨S64, .f32⟩ : BufTy).Contents (Elt F) → (⟨S64, .f32⟩ : BufTy).Contents (Elt F)),
    unary main_v40 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v37 main_v42 main_v43 (mulf : (⟨S100000x64, .f32⟩ : BufTy).Contents (Elt F) → (⟨S100000x64, .f32⟩ : BufTy).Contents (Elt F) → (⟨S100000x64, .f32⟩ : BufTy).Contents (Elt F)),
    unary main_arg5 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (mulf : (⟨S100000x64, .f32⟩ : BufTy).Contents (Elt F) → (⟨S100000x64, .f32⟩ : BufTy).Contents (Elt F) → (⟨S100000x64, .f32⟩ : BufTy).Contents (Elt F)),
    unary main_arg6 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    nullary main_call3_cst (constant S_ .f32 0x00000000#32),
    unary main_call3_cst main_call3_v0 ((broadcastInDim S100000x64 ![] bcast_S_S100000x64) : (⟨S_, .f32⟩ : BufTy).Contents (Elt F) → (⟨S100000x64, .f32⟩ : BufTy).Contents (Elt F)),
    binary main_v49 main_call3_v0 main_v50 ((maximumf) : (⟨S100000x64, .f32⟩ : BufTy).Contents (Elt F) → (⟨S100000x64, .f32⟩ : BufTy).Contents (Elt F) → (⟨S100000x64, .f32⟩ : BufTy).Contents (Elt F)) ]

/-- The buffers the operations of seg6 write, in order. -/
abbrev seg6_W : List (Ref sig .tc) := [main_v35, main_v36, main_v37, main_cst_9, main_v38, main_v39, main_v40, main_v41, main_v42, main_v43, main_v44, main_v45, main_v46, main_v47, main_v48, main_v49, main_call3_cst, main_call3_v0, main_v50]

theorem seg6_sub : (seg6 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Statements 64 … 77 of @main: 18 operations. -/
abbrev seg7 : List (HloOp τ sig (Elt F)) :=
  [ nullary main_cst_10 (constant S_ .f32 0x3F800000#32),
    unary main_cst_10 main_v51 (broadcastInDim S1600000 ![] bcast_S_S1600000 : (⟨S_, .f32⟩ : BufTy).Contents (Elt F) → (⟨S1600000, .f32⟩ : BufTy).Contents (Elt F)),
    nullary main_cst_11 (constant S_ .f32 0x00000000#32),
    unary main_cst_11 main_v52 (broadcastInDim S100000 ![] bcast_S_S100000 : (⟨S_, .f32⟩ : BufTy).Contents (Elt F) → (⟨S100000, .f32⟩ : BufTy).Contents (Elt F)),
    unary main_arg1 main_v53 (broadcastInDim S1600000x1 ![0] bcast_S1600000_S1600000x1_0 : (⟨S1600000, .i32⟩ : BufTy).Contents (Elt F) → (⟨S1600000x1, .i32⟩ : BufTy).Contents (Elt F)),
    ternary main_v52 main_v53 main_v51 main_v54 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_12 (constant S_ .f32 0x3F800000#32),
    unary main_cst_12 main_call4_v0 ((id) : (⟨S_, .f32⟩ : BufTy).Contents (Elt F) → (⟨S_, .f32⟩ : BufTy).Contents (Elt F)),
    unary main_call4_v0 main_call4_v1 ((broadcastInDim S100000 ![] bcast_S_S100000) : (⟨S_, .f32⟩ : BufTy).Contents (Elt F) → (⟨S100000, .f32⟩ : BufTy).Contents (Elt F)),
    binary main_call4_v1 main_v54 main_v55 ((maximumf) : (⟨S100000, .f32⟩ : BufTy).Contents (Elt F) → (⟨S100000, .f32⟩ : BufTy).Contents (Elt F) → (⟨S100000, .f32⟩ : BufTy).Contents (Elt F)),
    nullary main_cst_13 (constant S_ .f32 0x00000000#32),
    unary main_cst_13 main_v56 (broadcastInDim S100000 ![] bcast_S_S100000 : (⟨S_, .f32⟩ : BufTy).Contents (Elt F) → (⟨S100000, .f32⟩ : BufTy).Contents (Elt F)),
    unary main_arg2 main_v57 (broadcastInDim S1600000x1 ![0] bcast_S1600000_S1600000x1_0 : (⟨S1600000, .i32⟩ : BufTy).Contents (Elt F) → (⟨S1600000x1, .i32⟩ : BufTy).Contents (Elt F)),
    ternary main_v56 main_v57 main_v51 main_v58 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_call5_v0 ((id) : (⟨S_, .f32⟩ : BufTy).Contents (Elt F) → (⟨S_, .f32⟩ : BufTy).Contents (Elt F)),
    unary main_call5_v0 main_call5_v1 ((broadcastInDim S100000 ![] bcast_S_S100000) : (⟨S_, .f32⟩ : BufTy).Contents (Elt F) → (⟨S100000, .f32⟩ : BufTy).Contents (Elt F)),
    binary main_call5_v1 main_v58 main_v59 ((maximumf) : (⟨S100000, .f32⟩ : BufTy).Contents (Elt F) → (⟨S100000, .f32⟩ : BufTy).Contents (Elt F) → (⟨S100000, .f32⟩ : BufTy).Contents (Elt F)) ]

/-- The buffers the operations of seg7 write, in order. -/
abbrev seg7_W : List (Ref sig .tc) := [main_cst_10, main_v51, main_cst_11, main_v52, main_v53, main_v54, main_cst_12, main_call4_v0, main_call4_v1, main_v55, main_cst_13, main_v56, main_v57, main_v58, main_cst_14, main_call5_v0, main_call5_v1, main_v59]

theorem seg7_sub : (seg7 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

/-- Statements 78 … 98 of @main: 21 operations. -/
abbrev seg8 : List (HloOp τ sig (Elt F)) :=
  [ unary main_v55 main_v60 (Host.rsqrt : (⟨S100000, .f32⟩ : BufTy).Contents (Elt F) → (⟨S100000, .f32⟩ : BufTy).Contents (Elt F)),
    unary main_v60 main_v61 (broadcastInDim S100000x1 ![0] bcast_S100000_S100000x1_0 : (⟨S100000, .f32⟩ : BufTy).Contents (Elt F) → (⟨S100000x1, .f32⟩ : BufTy).Contents (Elt F)),
    unary main_v61 main_v62 (broadcastInDim S100000x64 ![0, 1] bcast_S100000x1_S100000x64_0_1 : (⟨S100000x1, .f32⟩ : BufTy).Contents (Elt F) → (⟨S100000x64, .f32⟩ : BufTy).Contents (Elt F)),
    binary main_v50 main_v62 main_v63 (mulf : (⟨S100000x64, .f32⟩ : BufTy).Contents (Elt F) → (⟨S100000x64, .f32⟩ : BufTy).Contents (Elt F) → (⟨S100000x64, .f32⟩ : BufTy).Contents (Elt F)),
    nullary main_c_15 (constantI S_ 32 0#32),
    unary main_c_15 main_v64 (broadcastInDim S1600000 ![] bcast_S_S1600000 : (⟨S_, .i32⟩ : BufTy).Contents (Elt F) → (⟨S1600000, .i32⟩ : BufTy).Contents (Elt F)),
    binary main_arg1 main_v64 main_v65 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v66 (broadcastInDim S1600000 ![] bcast_S_S1600000 : (⟨S_, .i32⟩ : BufTy).Contents (Elt F) → (⟨S1600000, .i32⟩ : BufTy).Contents (Elt F)),
    binary main_arg1 main_v66 main_v67 (addi : (⟨S1600000, .i32⟩ : BufTy).Contents (Elt F) → (⟨S1600000, .i32⟩ : BufTy).Contents (Elt F) → (⟨S1600000, .i32⟩ : BufTy).Contents (Elt F)),
    ternary main_v65 main_v67 main_arg1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v68 main_v69 (broadcastInDim S1600000x1 ![0] bcast_S1600000_S1600000x1_0 : (⟨S1600000, .i32⟩ : BufTy).Contents (Elt F) → (⟨S1600000x1, .i32⟩ : BufTy).Contents (Elt F)),
    binary main_v63 main_v69 main_v70 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_17 (constant S_ .f32 0x00000000#32),
    unary main_cst_17 main_v71 (broadcastInDim S100000x64 ![] bcast_S_S100000x64 : (⟨S_, .f32⟩ : BufTy).Contents (Elt F) → (⟨S100000x64, .f32⟩ : BufTy).Contents (Elt F)),
    unary main_arg2 main_v72 (broadcastInDim S1600000x1 ![0] bcast_S1600000_S1600000x1_0 : (⟨S1600000, .i32⟩ : BufTy).Contents (Elt F) → (⟨S1600000x1, .i32⟩ : BufTy).Contents (Elt F)),
    ternary main_v71 main_v72 main_v70 main_v73 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v59 main_v74 (Host.rsqrt : (⟨S100000, .f32⟩ : BufTy).Contents (Elt F) → (⟨S100000, .f32⟩ : BufTy).Contents (Elt F)),
    unary main_v74 main_v75 (broadcastInDim S100000x1 ![0] bcast_S100000_S100000x1_0 : (⟨S100000, .f32⟩ : BufTy).Contents (Elt F) → (⟨S100000x1, .f32⟩ : BufTy).Contents (Elt F)),
    unary main_v75 main_v76 (broadcastInDim S100000x64 ![0, 1] bcast_S100000x1_S100000x64_0_1 : (⟨S100000x1, .f32⟩ : BufTy).Contents (Elt F) → (⟨S100000x64, .f32⟩ : BufTy).Contents (Elt F)),
    binary main_v73 main_v76 main_v77 (mulf : (⟨S100000x64, .f32⟩ : BufTy).Contents (Elt F) → (⟨S100000x64, .f32⟩ : BufTy).Contents (Elt F) → (⟨S100000x64, .f32⟩ : BufTy).Contents (Elt F)) ]

/-- The buffers the operations of seg8 write, in order. -/
abbrev seg8_W : List (Ref sig .tc) := [main_v60, main_v61, main_v62, main_v63, main_c_15, main_v64, main_v65, main_c_16, main_v66, main_v67, main_v68, main_v69, main_v70, main_cst_17, main_v71, main_v72, main_v73, main_v74, main_v75, main_v76, main_v77]

theorem seg8_sub : (seg8 : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub ..⟩

/-- Statements 99 … 102 of @main: 4 operations. -/
abbrev seg9 : List (HloOp τ sig (Elt F)) :=
  [ binary main_v77 main_arg7 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)) ]

/-- The buffers the operations of seg9 write, in order. -/
abbrev seg9_W : List (Ref sig .tc) := [main_v78, main_v79, main_v80, main_v81]

theorem seg9_sub : (seg9 : List (HloOp τ sig (Elt F))).Forall fun op => op.bufs ⊆ tcRefs τ sig :=
  ⟨binary_bufs_sub .., unary_bufs_sub .., unary_bufs_sub .., binary_bufs_sub ..⟩

/-- Statements 103 … 107 of @main: 5 operations. -/
abbrev seg10 : List (HloOp τ sig (Elt F)) :=
  [ nullary main_cst_18 (constant S_ .f32 0x00000000#32),
    binary main_v81 main_cst_18 main_v82 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_19 (constant S_ .f32 0x47C35000#32),
    unary main_cst_19 main_v83 (broadcastInDim S64 ![] bcast_S_S64 : (⟨S_, .f32⟩ : BufTy).Contents (Elt F) → (⟨S64, .f32⟩ : BufTy).Contents (Elt F)),
    binary main_v82 main_v83 main_v84 (Host.divf : (⟨S64, .f32⟩ : BufTy).Contents (Elt F) → (⟨S64, .f32⟩ : BufTy).Contents (Elt F) → (⟨S64, .f32⟩ : BufTy).Contents (Elt F)) ]

/-- The buffers the operations of seg10 write, in order. -/
abbrev seg10_W : List (Ref sig .tc) := [main_cst_18, main_v82, main_cst_19, main_v83, main_v84]

theorem seg10_sub : (seg10 : List (HloOp τ sig (Elt F))).Forall fun op => op.bufs ⊆ tcRefs τ sig :=
  ⟨nullary_bufs_sub .., binary_bufs_sub .., nullary_bufs_sub .., unary_bufs_sub .., binary_bufs_sub ..⟩

/-- Statements 108 … 109 of @main: 23 operations. -/
abbrev seg11 : List (HloOp τ sig (Elt F)) :=
  [ nullary main_c_20 (constantI S_ 32 0#32),
    nullary main_call6_cst (constant S_ .f32 0x00000000#32),
    binary main_v81 main_call6_cst main_call6_v0 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_call6_v0 main_call6_v1 ((broadcastInDim S1x64 ![1] bcast_S64_S1x64_1) : (⟨S64, .f32⟩ : BufTy).Contents (Elt F) → (⟨S1x64, .f32⟩ : BufTy).Contents (Elt F)),
    nullary main_call6_cst_0 (constant S_ .f32 0x47C35000#32),
    unary main_call6_cst_0 main_call6_v2 ((broadcastInDim S1x64 ![] bcast_S_S1x64) : (⟨S_, .f32⟩ : BufTy).Contents (Elt F) → (⟨S1x64, .f32⟩ : BufTy).Contents (Elt F)),
    binary main_call6_v1 main_call6_v2 main_call6_v3 ((Host.divf) : (⟨S1x64, .f32⟩ : BufTy).Contents (Elt F) → (⟨S1x64, .f32⟩ : BufTy).Contents (Elt F) → (⟨S1x64, .f32⟩ : BufTy).Contents (Elt F)),
    unary main_call6_v3 main_call6_v4 ((broadcastInDim S100000x64 ![0, 1] bcast_S1x64_S100000x64_0_1) : (⟨S1x64, .f32⟩ : BufTy).Contents (Elt F) → (⟨S100000x64, .f32⟩ : BufTy).Contents (Elt F)),
    binary main_v81 main_call6_v4 main_call6_v5 ((subf) : (⟨S100000x64, .f32⟩ : BufTy).Contents (Elt F) → (⟨S100000x64, .f32⟩ : BufTy).Contents (Elt F) → (⟨S100000x64, .f32⟩ : BufTy).Contents (Elt F)),
    binary main_call6_v5 main_call6_v5 main_call6_v6 ((mulf) : (⟨S100000x64, .f32⟩ : BufTy).Contents (Elt F) → (⟨S100000x64, .f32⟩ : BufTy).Contents (Elt F) → (⟨S100000x64, .f32⟩ : BufTy).Contents (Elt F)),
    unary main_c_20 main_call6_v7 ((sitofp .f32) : (⟨S_, .i32⟩ : BufTy).Contents (Elt F) → (⟨S_, .f32⟩ : BufTy).Contents (Elt F)),
    nullary main_call6_cst_1 (constant S_ .f32 0x47C35000#32),
    binary main_call6_cst_1 main_call6_v7 main_call6_v8 ((subf) : (⟨S_, .f32⟩ : BufTy).Contents (Elt F) → (⟨S_, .f32⟩ : BufTy).Contents (Elt F) → (⟨S_, .f32⟩ : BufTy).Contents (Elt F)),
    nullary main_call6_cst_2 (constant S_ .f32 0x00000000#32),
    binary main_call6_v6 main_call6_cst_2 main_call6_v9 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_call6_v8 main_call6_v10 ((broadcastInDim S64 ![] bcast_S_S64) : (⟨S_, .f32⟩ : BufTy).Contents (Elt F) → (⟨S64, .f32⟩ : BufTy).Contents (Elt F)),
    binary main_call6_v9 main_call6_v10 main_call6_v11 ((Host.divf) : (⟨S64, .f32⟩ : BufTy).Contents (Elt F) → (⟨S64, .f32⟩ : BufTy).Contents (Elt F) → (⟨S64, .f32⟩ : BufTy).Contents (Elt F)),
    nullary main_call6_cst_3 (constant S_ .f32 0x00000000#32),
    binary main_call6_v8 main_call6_cst_3 main_call6_v12 ((cmpf .ogt) : (⟨S_, .f32⟩ : BufTy).Contents (Elt F) → (⟨S_, .f32⟩ : BufTy).Contents (Elt F) → (⟨S_, .i1⟩ : BufTy).Contents (Elt F)),
    nullary main_call6_cst_4 (constant S_ .f32 0x7FC00000#32),
    unary main_call6_cst_4 main_call6_call0_v0 ((id) : (⟨S_, .f32⟩ : BufTy).Contents (Elt F) → (⟨S_, .f32⟩ : BufTy).Contents (Elt F)),
    unary main_call6_call0_v0 main_call6_call0_v1 ((broadcastInDim S64 ![] bcast_S_S64) : (⟨S_, .f32⟩ : BufTy).Contents (Elt F) → (⟨S64, .f32⟩ : BufTy).Contents (Elt F)),
    ternary main_call6_v12 main_call6_v11 main_call6_call0_v1 main_v85 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- The buffers the operations of seg11 write, in order. -/
abbrev seg11_W : List (Ref sig .tc) := [main_c_20, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v85]

theorem seg11_sub : (seg11 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Statements 110 … 126 of @main: 19 operations. -/
abbrev seg12 : List (HloOp τ sig (Elt F)) :=
  [ unary main_v84 main_v86 (broadcastInDim S1x64 ![1] bcast_S64_S1x64_1 : (⟨S64, .f32⟩ : BufTy).Contents (Elt F) → (⟨S1x64, .f32⟩ : BufTy).Contents (Elt F)),
    unary main_v86 main_v87 (broadcastInDim S100000x64 ![0, 1] bcast_S1x64_S100000x64_0_1 : (⟨S1x64, .f32⟩ : BufTy).Contents (Elt F) → (⟨S100000x64, .f32⟩ : BufTy).Contents (Elt F)),
    binary main_v81 main_v87 main_v88 (subf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3727C5AC#32),
    unary main_cst_21 main_v89 (broadcastInDim S64 ![] bcast_S_S64 : (⟨S_, .f32⟩ : BufTy).Contents (Elt F) → (⟨S64, .f32⟩ : BufTy).Contents (Elt F)),
    binary main_v85 main_v89 main_v90 (addf : (⟨S64, .f32⟩ : BufTy).Contents (Elt F) → (⟨S64, .f32⟩ : BufTy).Contents (Elt F) → (⟨S64, .f32⟩ : BufTy).Contents (Elt F)),
    unary main_v90 main_v91 (Host.rsqrt : (⟨S64, .f32⟩ : BufTy).Contents (Elt F) → (⟨S64, .f32⟩ : BufTy).Contents (Elt F)),
    unary main_v91 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v88 main_v93 main_v94 (mulf : (⟨S100000x64, .f32⟩ : BufTy).Contents (Elt F) → (⟨S100000x64, .f32⟩ : BufTy).Contents (Elt F) → (⟨S100000x64, .f32⟩ : BufTy).Contents (Elt F)),
    unary main_arg9 main_v95 (broadcastInDim S1x64 ![1] bcast_S64_S1x64_1 : (⟨S64, .f32⟩ : BufTy).Contents (Elt F) → (⟨S1x64, .f32⟩ : BufTy).Contents (Elt F)),
    unary main_v95 main_v96 (broadcastInDim S100000x64 ![0, 1] bcast_S1x64_S100000x64_0_1 : (⟨S1x64, .f32⟩ : BufTy).Contents (Elt F) → (⟨S100000x64, .f32⟩ : BufTy).Contents (Elt F)),
    binary main_v94 main_v96 main_v97 (mulf : (⟨S100000x64, .f32⟩ : BufTy).Contents (Elt F) → (⟨S100000x64, .f32⟩ : BufTy).Contents (Elt F) → (⟨S100000x64, .f32⟩ : BufTy).Contents (Elt F)),
    unary main_arg10 main_v98 (broadcastInDim S1x64 ![1] bcast_S64_S1x64_1 : (⟨S64, .f32⟩ : BufTy).Contents (Elt F) → (⟨S1x64, .f32⟩ : BufTy).Contents (Elt F)),
    unary main_v98 main_v99 (broadcastInDim S100000x64 ![0, 1] bcast_S1x64_S100000x64_0_1 : (⟨S1x64, .f32⟩ : BufTy).Contents (Elt F) → (⟨S100000x64, .f32⟩ : BufTy).Contents (Elt F)),
    binary main_v97 main_v99 main_v100 (addf : (⟨S100000x64, .f32⟩ : BufTy).Contents (Elt F) → (⟨S100000x64, .f32⟩ : BufTy).Contents (Elt F) → (⟨S100000x64, .f32⟩ : BufTy).Contents (Elt F)),
    nullary main_call7_cst (constant S_ .f32 0x00000000#32),
    unary main_call7_cst main_call7_v0 ((broadcastInDim S100000x64 ![] bcast_S_S100000x64) : (⟨S_, .f32⟩ : BufTy).Contents (Elt F) → (⟨S100000x64, .f32⟩ : BufTy).Contents (Elt F)),
    binary main_v100 main_call7_v0 main_v101 ((maximumf) : (⟨S100000x64, .f32⟩ : BufTy).Contents (Elt F) → (⟨S100000x64, .f32⟩ : BufTy).Contents (Elt F) → (⟨S100000x64, .f32⟩ : BufTy).Contents (Elt F)) ]

/-- The buffers the operations of seg12 write, in order. -/
abbrev seg12_W : List (Ref sig .tc) := [main_v86, main_v87, main_v88, main_cst_21, main_v89, main_v90, main_v91, main_v92, main_v93, main_v94, main_v95, main_v96, main_v97, main_v98, main_v99, main_v100, main_call7_cst, main_call7_v0, main_v101]

theorem seg12_sub : (seg12 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Statements 127 … 135 of @main: 9 operations. -/
abbrev seg13 : List (HloOp τ sig (Elt F)) :=
  [ nullary main_cst_22 (constant S_ .f32 0x00000000#32),
    binary main_v101 main_cst_22 main_v102 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_v102 main_v103 (broadcastInDim S1x64 ![1] bcast_S64_S1x64_1 : (⟨S64, .f32⟩ : BufTy).Contents (Elt F) → (⟨S1x64, .f32⟩ : BufTy).Contents (Elt F)),
    nullary main_cst_23 (constant S_ .f32 0x47C35000#32),
    unary main_cst_23 main_v104 (broadcastInDim S1x64 ![] bcast_S_S1x64 : (⟨S_, .f32⟩ : BufTy).Contents (Elt F) → (⟨S1x64, .f32⟩ : BufTy).Contents (Elt F)),
    binary main_v103 main_v104 main_v105 (Host.divf : (⟨S1x64, .f32⟩ : BufTy).Contents (Elt F) → (⟨S1x64, .f32⟩ : BufTy).Contents (Elt F) → (⟨S1x64, .f32⟩ : BufTy).Contents (Elt F)),
    binary main_v105 main_arg11 main_v106 ((fun l r => Host.dotGeneral dot_S1x64_S64x2_S1x2_1_0_0_1_n_n none l r) : (⟨S1x64, .f32⟩ : BufTy).Contents (Elt F) → (⟨S64x2, .f32⟩ : BufTy).Contents (Elt F) → (⟨S1x2, .f32⟩ : BufTy).Contents (Elt F)),
    unary main_arg12 main_v107 (broadcastInDim S1x2 ![1] bcast_S2_S1x2_1 : (⟨S2, .f32⟩ : BufTy).Contents (Elt F) → (⟨S1x2, .f32⟩ : BufTy).Contents (Elt F)),
    binary main_v106 main_v107 main_v108 (addf : (⟨S1x2, .f32⟩ : BufTy).Contents (Elt F) → (⟨S1x2, .f32⟩ : BufTy).Contents (Elt F) → (⟨S1x2, .f32⟩ : BufTy).Contents (Elt F)) ]

/-- The buffers the operations of seg13 write, in order. -/
abbrev seg13_W : List (Ref sig .tc) := [main_cst_22, main_v102, main_v103, main_cst_23, main_v104, main_v105, main_v106, main_v107, main_v108]

theorem seg13_sub : (seg13 : List (HloOp τ sig (Elt F))).Forall fun op => op.bufs ⊆ tcRefs τ sig :=
  ⟨nullary_bufs_sub .., binary_bufs_sub .., unary_bufs_sub .., nullary_bufs_sub .., unary_bufs_sub .., binary_bufs_sub .., binary_bufs_sub .., unary_bufs_sub .., binary_bufs_sub ..⟩

/-- @main's 189 operations, in order: the segments one after the other. -/
abbrev ops : List (HloOp τ sig (Elt F)) :=
  seg1 ++ (seg2 ++ (seg3 ++ (seg4 ++ (seg5 ++ (seg6 ++ (seg7 ++ (seg8 ++ (seg9 ++ (seg10 ++ (seg11 ++ (seg12 ++ (seg13))))))))))))

end Cert.ReferenceIdeal.RefValue

end
-- ==== Proof.RefRun.lean ====
/-
  The reference program's run, read back as a pure function of its arguments.

  The program is a straight line of host operations (the three windows of its main function in order, each outlined
  function's operations standing at its call). The line is cut into thirteen consecutive segments, one per stage of the
  computation: the two clipped degree vectors, the normalized aggregation over the edges, the linear layer, the mean
  over the nodes, the variance over the nodes, batch normalization followed by the maximum with zero — these six twice,
  once per layer — and the head. For each segment, from ANY contents of the buffers: the one or two buffers it is run for
  hold the stage's function of the buffers it reads, and every buffer outside the list of those it writes is unchanged.
  Threading the thirteen facts through the line gives the result buffer as `refOut` of the thirteen arguments and
  the arguments unchanged; the run theorem of a straight line then states it of every weakly fair execution.
-/
import proofs.«133934_j19997367730796_1_alg».proof.Proof.RefOps
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A TensorCore reference as the device buffer it names. -/
local notation "dv(" r ")" => Proc.devRef Proc.tc r

/-! ## The program is the line -/

set_option maxRecDepth 8192 in
set_option maxHeartbeats 4000000 in
/-- The main function is the line of its operations: its windows and the outlined functions unfold to the same chain
    of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only: segment by segment. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp seg1_sub op h, List.forall_iff_forall_mem.mp seg2_sub op h,
      List.forall_iff_forall_mem.mp seg3_sub op h, List.forall_iff_forall_mem.mp seg4_sub op h,
      List.forall_iff_forall_mem.mp seg5_sub op h, List.forall_iff_forall_mem.mp seg6_sub op h,
      List.forall_iff_forall_mem.mp seg7_sub op h, List.forall_iff_forall_mem.mp seg8_sub op h,
      List.forall_iff_forall_mem.mp seg9_sub op h, List.forall_iff_forall_mem.mp seg10_sub op h,
      List.forall_iff_forall_mem.mp seg11_sub op h, List.forall_iff_forall_mem.mp seg12_sub op h,
      List.forall_iff_forall_mem.mp seg13_sub op h]

/-! ## The stages

The reference's result as a composition of named pure functions of its thirteen arguments: what each stretch of
@main computes, spelt with the operations the program prints. -/

/-- For each node, the number of edges that name it in `idx`, and at least one: ones scatter-added into zeros at
    `idx`, then the maximum with one. -/
def degC (idx : IVec S1600000 32) : FVec F S100000 .f32 :=
  maximumf (broadcastInDim S100000 ![] bcast_S_S100000 (id (constant S_ .f32 0x3F800000#32)))
    (Host.scatterAdd scatter_S100000_S1600000x1_S1600000_n_0_0_1
      (broadcastInDim S100000 ![] bcast_S_S100000 (constant S_ .f32 0x00000000#32))
      (broadcastInDim S1600000x1 ![0] bcast_S1600000_S1600000x1_0 idx)
      (broadcastInDim S1600000 ![] bcast_S_S1600000 (constant S_ .f32 0x3F800000#32)))

/-- The reciprocal square root of the clipped degree. -/
def degRs (idx : IVec S1600000 32) : FVec F S100000 .f32 := Host.rsqrt (degC (F := F) idx)

/-- A node index below zero counts from the end: `idx + 100000` where `idx < 0`, else `idx`. -/
def wrapIdx (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- A value per node as a [100000, 64] array constant along each row. -/
def rows (r : FVec F S100000 .f32) : FVec F S100000x64 .f32 :=
  broadcastInDim S100000x64 ![0, 1] bcast_S100000x1_S100000x64_0_1 (broadcastInDim S100000x1 ![0] bcast_S100000_S100000x1_0 r)

/-- A value per feature as a [100000, 64] array constant along each column. -/
def cols (v : FVec F S64 .f32) : FVec F S100000x64 .f32 :=
  broadcastInDim S100000x64 ![0, 1] bcast_S1x64_S100000x64_0_1 (broadcastInDim S1x64 ![1] bcast_S64_S1x64_1 v)

/-- The aggregation with the two scalings given: the rows of `h` scaled by `r1`, gathered at the wrapped `src`,
    scatter-added into zeros at `dst`, the rows of the sum scaled by `r2`. -/
def aggOf (h : FVec F S100000x64 .f32) (r1 r2 : FVec F S100000 .f32) (src dst : IVec S1600000 32) : FVec F S100000x64 .f32 :=
  mulf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 (mulf h (rows r1))
        (broadcastInDim S1600000x1 ![0] bcast_S1600000_S1600000x1_0 (wrapIdx src))))
    (rows r2)

/-- The normalized aggregation over the edges `src → dst`. -/
def agg (h : FVec F S100000x64 .f32) (src dst : IVec S1600000 32) : FVec F S100000x64 .f32 :=
  aggOf h (degRs src) (degRs dst) src dst

/-- The linear layer: `m · W + b`, the bias along the columns. -/
def affine (m : FVec F S100000x64 .f32) (W : FVec F S64x64 .f32) (b : FVec F S64 .f32) : FVec F S100000x64 .f32 :=
  addf (Host.dotGeneral dot_S100000x64_S64x64_S100000x64_1_0_0_1_n_n none m W) (cols b)

/-- The sum over the nodes, per feature. -/
def colSum (y : FVec F S100000x64 .f32) : FVec F S64 .f32 :=
  Host.reduceAdd y (constant S_ .f32 0x00000000#32) reducesTo_S100000x64_S64_d0 h_S_

/-- The mean over the nodes, per feature. -/
def meanv (y : FVec F S100000x64 .f32) : FVec F S64 .f32 :=
  Host.divf (colSum y) (broadcastInDim S64 ![] bcast_S_S64 (constant S_ .f32 0x47C35000#32))

/-- The squared deviation from the mean over the nodes (the mean computed through a [1, 64] row). -/
def sqDev (y : FVec F S100000x64 .f32) : FVec F S100000x64 .f32 :=
  mulf
    (subf y (broadcastInDim S100000x64 ![0, 1] bcast_S1x64_S100000x64_0_1
      (Host.divf (broadcastInDim S1x64 ![1] bcast_S64_S1x64_1 (colSum y)) (broadcastInDim S1x64 ![] bcast_S_S1x64 (constant S_ .f32 0x47C35000#32)))))
    (subf y (broadcastInDim S100000x64 ![0, 1] bcast_S1x64_S100000x64_0_1
      (Host.divf (broadcastInDim S1x64 ![1] bcast_S64_S1x64_1 (colSum y)) (broadcastInDim S1x64 ![] bcast_S_S1x64 (constant S_ .f32 0x47C35000#32)))))

/-- The divisor of the variance: the number of nodes less the correction `0`. -/
def varDen : FVec F S_ .f32 := subf (constant S_ .f32 0x47C35000#32) (sitofp .f32 (constantI S_ 32 0#32))

/-- The variance over the nodes, per feature: the mean of the squared deviations where the divisor is positive,
    else the not-a-number pattern. -/
def varv (y : FVec F S100000x64 .f32) : FVec F S64 .f32 :=
  select (broadcastInDim S64 ![] bcast_S_S64 (cmpf .ogt (varDen (F := F)) (constant S_ .f32 0x00000000#32)))
    (Host.divf (colSum (sqDev y)) (broadcastInDim S64 ![] bcast_S_S64 (varDen (F := F))))
    (broadcastInDim S64 ![] bcast_S_S64 (id (constant S_ .f32 0x7FC00000#32)))

/-- Batch normalization with the given statistics, then the maximum with zero. -/
def bnrelu (y : FVec F S100000x64 .f32) (mu var g be : FVec F S64 .f32) : FVec F S100000x64 .f32 :=
  maximumf
    (addf (mulf (mulf (subf y (cols mu))
        (cols (Host.rsqrt (addf var (broadcastInDim S64 ![] bcast_S_S64 (constant S_ .f32 0x3727C5AC#32))))))
      (cols g)) (cols be))
    (broadcastInDim S100000x64 ![] bcast_S_S100000x64 (constant S_ .f32 0x00000000#32))

/-- The head: the mean over the nodes as a [1, 64] row, times `Wc`, plus the bias. -/
def headv (h : FVec F S100000x64 .f32) (Wc : FVec F S64x2 .f32) (bc : FVec F S2 .f32) : FVec F S1x2 .f32 :=
  addf (Host.dotGeneral dot_S1x64_S64x2_S1x2_1_0_0_1_n_n none
      (Host.divf (broadcastInDim S1x64 ![1] bcast_S64_S1x64_1 (colSum h)) (broadcastInDim S1x64 ![] bcast_S_S1x64 (constant S_ .f32 0x47C35000#32))) Wc)
    (broadcastInDim S1x2 ![1] bcast_S2_S1x2_1 bc)

/-- One layer: aggregation, linear layer, batch normalization by the layer's own statistics, maximum with zero. -/
def layer (h : FVec F S100000x64 .f32) (src dst : IVec S1600000 32) (W : FVec F S64x64 .f32) (b g be : FVec F S64 .f32) :
    FVec F S100000x64 .f32 :=
  bnrelu (affine (agg h src dst) W b) (meanv (affine (agg h src dst) W b)) (varv (affine (agg h src dst) W b)) g be

/-- The reference's result as a function of its thirteen arguments: two layers, then the head. -/
def refOut (a0 : FVec F S100000x64 .f32) (a1 a2 : IVec S1600000 32) (a3 : FVec F S64x64 .f32) (a4 a5 a6 : FVec F S64 .f32)
    (a7 : FVec F S64x64 .f32) (a8 a9 a10 : FVec F S64 .f32) (a11 : FVec F S64x2 .f32) (a12 : FVec F S2 .f32) : FVec F S1x2 .f32 :=
  headv (layer (layer a0 a1 a2 a3 a4 a5 a6) a1 a2 a7 a8 a9 a10) a11 a12

/-! ## What each segment computes

From any contents `V` of the buffers: the buffer a segment is run for, as the stage's function of the buffers the
segment reads. Each is the fold of the segment's operations read off at that buffer. -/

theorem seg1_v4 (V : Valuation τ sig (Elt F)) : after seg1 V dv(main_v4) = degC (V dv(main_arg1)) := by
  simp only [seg1]
  after_results_simp <;> rfl

theorem seg1_v8 (V : Valuation τ sig (Elt F)) : after seg1 V dv(main_v8) = degC (V dv(main_arg2)) := by
  simp only [seg1]
  after_results_simp <;> rfl

theorem seg2_v26 (V : Valuation τ sig (Elt F)) :
    after seg2 V dv(main_v26)
      = aggOf (V dv(main_arg0)) (Host.rsqrt (V dv(main_v4))) (Host.rsqrt (V dv(main_v8))) (V dv(main_arg1)) (V dv(main_arg2)) := by
  simp only [seg2]
  after_results_simp <;> rfl

theorem seg3_v30 (V : Valuation τ sig (Elt F)) :
    after seg3 V dv(main_v30) = affine (V dv(main_v26)) (V dv(main_arg3)) (V dv(main_arg4)) := by
  simp only [seg3]
  after_results_simp <;> rfl

theorem seg4_v33 (V : Valuation τ sig (Elt F)) : after seg4 V dv(main_v33) = meanv (V dv(main_v30)) := by
  simp only [seg4]
  after_results_simp <;> rfl

theorem seg5_v34 (V : Valuation τ sig (Elt F)) : after seg5 V dv(main_v34) = varv (V dv(main_v30)) := by
  simp only [seg5]
  after_results_simp <;> rfl

theorem seg6_v50 (V : Valuation τ sig (Elt F)) :
    after seg6 V dv(main_v50)
      = bnrelu (V dv(main_v30)) (V dv(main_v33)) (V dv(main_v34)) (V dv(main_arg5)) (V dv(main_arg6)) := by
  simp only [seg6]
  after_results_simp <;> rfl

theorem seg7_v55 (V : Valuation τ sig (Elt F)) : after seg7 V dv(main_v55) = degC (V dv(main_arg1)) := by
  simp only [seg7]
  after_results_simp <;> rfl

theorem seg7_v59 (V : Valuation τ sig (Elt F)) : after seg7 V dv(main_v59) = degC (V dv(main_arg2)) := by
  simp only [seg7]
  after_results_simp <;> rfl

theorem seg8_v77 (V : Valuation τ sig (Elt F)) :
    after seg8 V dv(main_v77)
      = aggOf (V dv(main_v50)) (Host.rsqrt (V dv(main_v55))) (Host.rsqrt (V dv(main_v59))) (V dv(main_arg1)) (V dv(main_arg2)) := by
  simp only [seg8]
  after_results_simp <;> rfl

theorem seg9_v81 (V : Valuation τ sig (Elt F)) :
    after seg9 V dv(main_v81) = affine (V dv(main_v77)) (V dv(main_arg7)) (V dv(main_arg8)) := by
  simp only [seg9]
  after_results_simp <;> rfl

theorem seg10_v84 (V : Valuation τ sig (Elt F)) : after seg10 V dv(main_v84) = meanv (V dv(main_v81)) := by
  simp only [seg10]
  after_results_simp <;> rfl

theorem seg11_v85 (V : Valuation τ sig (Elt F)) : after seg11 V dv(main_v85) = varv (V dv(main_v81)) := by
  simp only [seg11]
  after_results_simp <;> rfl

theorem seg12_v101 (V : Valuation τ sig (Elt F)) :
    after seg12 V dv(main_v101)
      = bnrelu (V dv(main_v81)) (V dv(main_v84)) (V dv(main_v85)) (V dv(main_arg9)) (V dv(main_arg10)) := by
  simp only [seg12]
  after_results_simp <;> rfl

theorem seg13_v108 (V : Valuation τ sig (Elt F)) :
    after seg13 V dv(main_v108) = headv (V dv(main_v101)) (V dv(main_arg11)) (V dv(main_arg12)) := by
  simp only [seg13]
  after_results_simp <;> rfl

/-! ## What each segment leaves alone

A segment writes the buffers of its list and no other, so a buffer outside the list holds after the segment what it
held before; in particular the thirteen arguments, which no segment writes. -/

/-- The buffer one operation writes is in the segment's list. -/
local macro "writes_mem" : tactic =>
  `(tactic| (simp only [nullary_writes, unary_writes, binary_writes, ternary_writes, Finset.singleton_subset_iff,
      List.mem_toFinset]; exact List.mem_map_of_mem (by decide)))

theorem seg1_writes : (seg1 : List (HloOp τ sig (Elt F))).Forall fun op =>
    op.writes ⊆ (seg1_W.map (Proc.devRef (τ := τ) .tc)).toFinset := by
  simp only [seg1, List.Forall]
  repeat' refine And.intro ?_ ?_
  all_goals writes_mem

theorem seg2_writes : (seg2 : List (HloOp τ sig (Elt F))).Forall fun op =>
    op.writes ⊆ (seg2_W.map (Proc.devRef (τ := τ) .tc)).toFinset := by
  simp only [seg2, List.Forall]
  repeat' refine And.intro ?_ ?_
  all_goals writes_mem

theorem seg3_writes : (seg3 : List (HloOp τ sig (Elt F))).Forall fun op =>
    op.writes ⊆ (seg3_W.map (Proc.devRef (τ := τ) .tc)).toFinset := by
  simp only [seg3, List.Forall]
  repeat' refine And.intro ?_ ?_
  all_goals writes_mem

theorem seg4_writes : (seg4 : List (HloOp τ sig (Elt F))).Forall fun op =>
    op.writes ⊆ (seg4_W.map (Proc.devRef (τ := τ) .tc)).toFinset := by
  simp only [seg4, List.Forall]
  repeat' refine And.intro ?_ ?_
  all_goals writes_mem

theorem seg5_writes : (seg5 : List (HloOp τ sig (Elt F))).Forall fun op =>
    op.writes ⊆ (seg5_W.map (Proc.devRef (τ := τ) .tc)).toFinset := by
  simp only [seg5, List.Forall]
  repeat' refine And.intro ?_ ?_
  all_goals writes_mem

theorem seg6_writes : (seg6 : List (HloOp τ sig (Elt F))).Forall fun op =>
    op.writes ⊆ (seg6_W.map (Proc.devRef (τ := τ) .tc)).toFinset := by
  simp only [seg6, List.Forall]
  repeat' refine And.intro ?_ ?_
  all_goals writes_mem

theorem seg7_writes : (seg7 : List (HloOp τ sig (Elt F))).Forall fun op =>
    op.writes ⊆ (seg7_W.map (Proc.devRef (τ := τ) .tc)).toFinset := by
  simp only [seg7, List.Forall]
  repeat' refine And.intro ?_ ?_
  all_goals writes_mem

theorem seg8_writes : (seg8 : List (HloOp τ sig (Elt F))).Forall fun op =>
    op.writes ⊆ (seg8_W.map (Proc.devRef (τ := τ) .tc)).toFinset := by
  simp only [seg8, List.Forall]
  repeat' refine And.intro ?_ ?_
  all_goals writes_mem

theorem seg9_writes : (seg9 : List (HloOp τ sig (Elt F))).Forall fun op =>
    op.writes ⊆ (seg9_W.map (Proc.devRef (τ := τ) .tc)).toFinset := by
  simp only [seg9, List.Forall]
  repeat' refine And.intro ?_ ?_
  all_goals writes_mem

theorem seg10_writes : (seg10 : List (HloOp τ sig (Elt F))).Forall fun op =>
    op.writes ⊆ (seg10_W.map (Proc.devRef (τ := τ) .tc)).toFinset := by
  simp only [seg10, List.Forall]
  repeat' refine And.intro ?_ ?_
  all_goals writes_mem

theorem seg11_writes : (seg11 : List (HloOp τ sig (Elt F))).Forall fun op =>
    op.writes ⊆ (seg11_W.map (Proc.devRef (τ := τ) .tc)).toFinset := by
  simp only [seg11, List.Forall]
  repeat' refine And.intro ?_ ?_
  all_goals writes_mem

theorem seg12_writes : (seg12 : List (HloOp τ sig (Elt F))).Forall fun op =>
    op.writes ⊆ (seg12_W.map (Proc.devRef (τ := τ) .tc)).toFinset := by
  simp only [seg12, List.Forall]
  repeat' refine And.intro ?_ ?_
  all_goals writes_mem

theorem seg13_writes : (seg13 : List (HloOp τ sig (Elt F))).Forall fun op =>
    op.writes ⊆ (seg13_W.map (Proc.devRef (τ := τ) .tc)).toFinset := by
  simp only [seg13, List.Forall]
  repeat' refine And.intro ?_ ?_
  all_goals writes_mem

/-- The thirteen arguments' buffers. -/
abbrev argRefs : List (Ref sig .tc) :=
  [main_arg0, main_arg1, main_arg2, main_arg3, main_arg4, main_arg5, main_arg6, main_arg7, main_arg8, main_arg9, main_arg10,
    main_arg11, main_arg12]

/-- The contents `W` hold at every argument what the contents `V` hold there. -/
def ArgsKept (V W : Valuation τ sig (Elt F)) : Prop := ∀ r ∈ argRefs, W dv(r) = V dv(r)

theorem ArgsKept.trans {V W X : Valuation τ sig (Elt F)} (h₁ : ArgsKept V W) (h₂ : ArgsKept W X) : ArgsKept V X :=
  fun r hr => (h₂ r hr).trans (h₁ r hr)

/-- A line that writes only the buffers of a list containing no argument keeps the arguments. -/
theorem argsKept_of_writes (l : List (HloOp τ sig (Elt F))) (Wl : List (Ref sig .tc))
    (hW : l.Forall fun op => op.writes ⊆ (Wl.map (Proc.devRef (τ := τ) .tc)).toFinset) (hd : ∀ r ∈ argRefs, r ∉ Wl)
    (V : Valuation τ sig (Elt F)) : ArgsKept V (after l V) :=
  fun r hr => after_of_writes_sub l V hW (hd r hr)

theorem seg1_args (V : Valuation τ sig (Elt F)) : ArgsKept V (after seg1 V) := argsKept_of_writes seg1 seg1_W seg1_writes (by decide) V
theorem seg2_args (V : Valuation τ sig (Elt F)) : ArgsKept V (after seg2 V) := argsKept_of_writes seg2 seg2_W seg2_writes (by decide) V
theorem seg3_args (V : Valuation τ sig (Elt F)) : ArgsKept V (after seg3 V) := argsKept_of_writes seg3 seg3_W seg3_writes (by decide) V
theorem seg4_args (V : Valuation τ sig (Elt F)) : ArgsKept V (after seg4 V) := argsKept_of_writes seg4 seg4_W seg4_writes (by decide) V
theorem seg5_args (V : Valuation τ sig (Elt F)) : ArgsKept V (after seg5 V) := argsKept_of_writes seg5 seg5_W seg5_writes (by decide) V
theorem seg6_args (V : Valuation τ sig (Elt F)) : ArgsKept V (after seg6 V) := argsKept_of_writes seg6 seg6_W seg6_writes (by decide) V
theorem seg7_args (V : Valuation τ sig (Elt F)) : ArgsKept V (after seg7 V) := argsKept_of_writes seg7 seg7_W seg7_writes (by decide) V
theorem seg8_args (V : Valuation τ sig (Elt F)) : ArgsKept V (after seg8 V) := argsKept_of_writes seg8 seg8_W seg8_writes (by decide) V
theorem seg9_args (V : Valuation τ sig (Elt F)) : ArgsKept V (after seg9 V) := argsKept_of_writes seg9 seg9_W seg9_writes (by decide) V
theorem seg10_args (V : Valuation τ sig (Elt F)) : ArgsKept V (after seg10 V) := argsKept_of_writes seg10 seg10_W seg10_writes (by decide) V
theorem seg11_args (V : Valuation τ sig (Elt F)) : ArgsKept V (after seg11 V) := argsKept_of_writes seg11 seg11_W seg11_writes (by decide) V
theorem seg12_args (V : Valuation τ sig (Elt F)) : ArgsKept V (after seg12 V) := argsKept_of_writes seg12 seg12_W seg12_writes (by decide) V
theorem seg13_args (V : Valuation τ sig (Elt F)) : ArgsKept V (after seg13 V) := argsKept_of_writes seg13 seg13_W seg13_writes (by decide) V

/-- The whole line keeps the arguments. -/
theorem ops_args (V : Valuation τ sig (Elt F)) : ArgsKept V (after ops V) := by
  simp only [ops, after_append]
  exact (seg1_args V).trans <| (seg2_args _).trans <| (seg3_args _).trans <| (seg4_args _).trans <| (seg5_args _).trans <|
    (seg6_args _).trans <| (seg7_args _).trans <| (seg8_args _).trans <| (seg9_args _).trans <| (seg10_args _).trans <|
    (seg11_args _).trans <| (seg12_args _).trans (seg13_args _)

/-- A buffer outside a segment's list holds after the segment what it held before: for the segments that stand between
    a buffer's computation and a later reading of it. -/
theorem seg4_keep (V : Valuation τ sig (Elt F)) {r : Ref sig .tc} (h : r ∉ seg4_W) : after seg4 V dv(r) = V dv(r) :=
  after_of_writes_sub seg4 V seg4_writes h
theorem seg5_keep (V : Valuation τ sig (Elt F)) {r : Ref sig .tc} (h : r ∉ seg5_W) : after seg5 V dv(r) = V dv(r) :=
  after_of_writes_sub seg5 V seg5_writes h
theorem seg7_keep (V : Valuation τ sig (Elt F)) {r : Ref sig .tc} (h : r ∉ seg7_W) : after seg7 V dv(r) = V dv(r) :=
  after_of_writes_sub seg7 V seg7_writes h
theorem seg10_keep (V : Valuation τ sig (Elt F)) {r : Ref sig .tc} (h : r ∉ seg10_W) : after seg10 V dv(r) = V dv(r) :=
  after_of_writes_sub seg10 V seg10_writes h
theorem seg11_keep (V : Valuation τ sig (Elt F)) {r : Ref sig .tc} (h : r ∉ seg11_W) : after seg11 V dv(r) = V dv(r) :=
  after_of_writes_sub seg11 V seg11_writes h

/-! ## The line, segment by segment

The contents after each segment are named in turn (`V1` after the first, …) and three kinds of fact are carried from
one to the next: the arguments are those of `V` (`k`); the buffer just computed holds its stage of the arguments
(`e‹n›` for the buffer of the value numbered n); and a buffer computed earlier and read later is kept by the segments
in between, which do not write it. -/

theorem out_eq (V : Valuation τ sig (Elt F)) :
    after ops V dv(main_v108)
      = refOut (V dv(main_arg0)) (V dv(main_arg1)) (V dv(main_arg2)) (V dv(main_arg3)) (V dv(main_arg4)) (V dv(main_arg5))
          (V dv(main_arg6)) (V dv(main_arg7)) (V dv(main_arg8)) (V dv(main_arg9)) (V dv(main_arg10)) (V dv(main_arg11))
          (V dv(main_arg12)) := by
  simp only [ops, after_append]
  -- FIRST LAYER. The two clipped degrees.
  have k := seg1_args V
  have e4 := seg1_v4 V
  have e8 := seg1_v8 V
  generalize after seg1 V = V1 at k e4 e8 ⊢
  -- The aggregation of the input features.
  have e26 : after seg2 V1 dv(main_v26) = agg (V dv(main_arg0)) (V dv(main_arg1)) (V dv(main_arg2)) := by
    rw [seg2_v26, e4, e8, k main_arg0 (by decide), k main_arg1 (by decide), k main_arg2 (by decide)]; rfl
  replace k := k.trans (seg2_args V1)
  clear e4 e8
  generalize after seg2 V1 = V2 at k e26 ⊢
  -- The linear layer.
  have e30 : after seg3 V2 dv(main_v30) = affine (agg (V dv(main_arg0)) (V dv(main_arg1)) (V dv(main_arg2))) (V dv(main_arg3)) (V dv(main_arg4)) := by
    rw [seg3_v30, e26, k main_arg3 (by decide), k main_arg4 (by decide)]
  replace k := k.trans (seg3_args V2)
  clear e26
  generalize after seg3 V2 = V3 at k e30 ⊢
  -- Its mean over the nodes; the layer's output is kept.
  have e33 : after seg4 V3 dv(main_v33) = meanv (affine (agg (V dv(main_arg0)) (V dv(main_arg1)) (V dv(main_arg2))) (V dv(main_arg3)) (V dv(main_arg4))) := by
    rw [seg4_v33, e30]
  have e30' : after seg4 V3 dv(main_v30) = affine (agg (V dv(main_arg0)) (V dv(main_arg1)) (V dv(main_arg2))) (V dv(main_arg3)) (V dv(main_arg4)) :=
    (seg4_keep V3 (by decide)).trans e30
  replace k := k.trans (seg4_args V3)
  clear e30
  generalize after seg4 V3 = V4 at k e33 e30' ⊢
  -- Its variance over the nodes; the output and the mean are kept.
  have e34 : after seg5 V4 dv(main_v34) = varv (affine (agg (V dv(main_arg0)) (V dv(main_arg1)) (V dv(main_arg2))) (V dv(main_arg3)) (V dv(main_arg4))) := by
    rw [seg5_v34, e30']
  have e30 : after seg5 V4 dv(main_v30) = affine (agg (V dv(main_arg0)) (V dv(main_arg1)) (V dv(main_arg2))) (V dv(main_arg3)) (V dv(main_arg4)) :=
    (seg5_keep V4 (by decide)).trans e30'
  have e33' : after seg5 V4 dv(main_v33) = meanv (affine (agg (V dv(main_arg0)) (V dv(main_arg1)) (V dv(main_arg2))) (V dv(main_arg3)) (V dv(main_arg4))) :=
    (seg5_keep V4 (by decide)).trans e33
  replace k := k.trans (seg5_args V4)
  clear e30' e33
  generalize after seg5 V4 = V5 at k e34 e30 e33' ⊢
  -- Batch normalization and the maximum with zero: the first layer's output.
  have e50 : after seg6 V5 dv(main_v50) = layer (V dv(main_arg0)) (V dv(main_arg1)) (V dv(main_arg2)) (V dv(main_arg3)) (V dv(main_arg4)) (V dv(main_arg5)) (V dv(main_arg6)) := by
    rw [seg6_v50, e30, e33', e34, k main_arg5 (by decide), k main_arg6 (by decide)]; rfl
  replace k := k.trans (seg6_args V5)
  clear e30 e33' e34
  generalize after seg6 V5 = V6 at k e50 ⊢
  -- SECOND LAYER. The two clipped degrees again; the first layer's output is kept.
  have e55 : after seg7 V6 dv(main_v55) = degC (V dv(main_arg1)) := by
    rw [seg7_v55, k main_arg1 (by decide)]
  have e59 : after seg7 V6 dv(main_v59) = degC (V dv(main_arg2)) := by
    rw [seg7_v59, k main_arg2 (by decide)]
  have e50' : after seg7 V6 dv(main_v50) = layer (V dv(main_arg0)) (V dv(main_arg1)) (V dv(main_arg2)) (V dv(main_arg3)) (V dv(main_arg4)) (V dv(main_arg5)) (V dv(main_arg6)) :=
    (seg7_keep V6 (by decide)).trans e50
  replace k := k.trans (seg7_args V6)
  clear e50
  generalize after seg7 V6 = V7 at k e55 e59 e50' ⊢
  -- The aggregation of the first layer's output.
  have e77 : after seg8 V7 dv(main_v77) = agg (layer (V dv(main_arg0)) (V dv(main_arg1)) (V dv(main_arg2)) (V dv(main_arg3)) (V dv(main_arg4)) (V dv(main_arg5)) (V dv(main_arg6))) (V dv(main_arg1)) (V dv(main_arg2)) := by
    rw [seg8_v77, e50', e55, e59, k main_arg1 (by decide), k main_arg2 (by decide)]; rfl
  replace k := k.trans (seg8_args V7)
  clear e55 e59 e50'
  generalize after seg8 V7 = V8 at k e77 ⊢
  -- The linear layer.
  have e81 : after seg9 V8 dv(main_v81) = affine (agg (layer (V dv(main_arg0)) (V dv(main_arg1)) (V dv(main_arg2)) (V dv(main_arg3)) (V dv(main_arg4)) (V dv(main_arg5)) (V dv(main_arg6))) (V dv(main_arg1)) (V dv(main_arg2))) (V dv(main_arg7)) (V dv(main_arg8)) := by
    rw [seg9_v81, e77, k main_arg7 (by decide), k main_arg8 (by decide)]
  replace k := k.trans (seg9_args V8)
  clear e77
  generalize after seg9 V8 = V9 at k e81 ⊢
  -- Its mean over the nodes; the layer's output is kept.
  have e84 : after seg10 V9 dv(main_v84) = meanv (affine (agg (layer (V dv(main_arg0)) (V dv(main_arg1)) (V dv(main_arg2)) (V dv(main_arg3)) (V dv(main_arg4)) (V dv(main_arg5)) (V dv(main_arg6))) (V dv(main_arg1)) (V dv(main_arg2))) (V dv(main_arg7)) (V dv(main_arg8))) := by
    rw [seg10_v84, e81]
  have e81' : after seg10 V9 dv(main_v81) = affine (agg (layer (V dv(main_arg0)) (V dv(main_arg1)) (V dv(main_arg2)) (V dv(main_arg3)) (V dv(main_arg4)) (V dv(main_arg5)) (V dv(main_arg6))) (V dv(main_arg1)) (V dv(main_arg2))) (V dv(main_arg7)) (V dv(main_arg8)) :=
    (seg10_keep V9 (by decide)).trans e81
  replace k := k.trans (seg10_args V9)
  clear e81
  generalize after seg10 V9 = V10 at k e84 e81' ⊢
  -- Its variance over the nodes; the output and the mean are kept.
  have e85 : after seg11 V10 dv(main_v85) = varv (affine (agg (layer (V dv(main_arg0)) (V dv(main_arg1)) (V dv(main_arg2)) (V dv(main_arg3)) (V dv(main_arg4)) (V dv(main_arg5)) (V dv(main_arg6))) (V dv(main_arg1)) (V dv(main_arg2))) (V dv(main_arg7)) (V dv(main_arg8))) := by
    rw [seg11_v85, e81']
  have e81 : after seg11 V10 dv(main_v81) = affine (agg (layer (V dv(main_arg0)) (V dv(main_arg1)) (V dv(main_arg2)) (V dv(main_arg3)) (V dv(main_arg4)) (V dv(main_arg5)) (V dv(main_arg6))) (V dv(main_arg1)) (V dv(main_arg2))) (V dv(main_arg7)) (V dv(main_arg8)) :=
    (seg11_keep V10 (by decide)).trans e81'
  have e84' : after seg11 V10 dv(main_v84) = meanv (affine (agg (layer (V dv(main_arg0)) (V dv(main_arg1)) (V dv(main_arg2)) (V dv(main_arg3)) (V dv(main_arg4)) (V dv(main_arg5)) (V dv(main_arg6))) (V dv(main_arg1)) (V dv(main_arg2))) (V dv(main_arg7)) (V dv(main_arg8))) :=
    (seg11_keep V10 (by decide)).trans e84
  replace k := k.trans (seg11_args V10)
  clear e81' e84
  generalize after seg11 V10 = V11 at k e85 e81 e84' ⊢
  -- Batch normalization and the maximum with zero: the second layer's output.
  have e101 : after seg12 V11 dv(main_v101) = layer (layer (V dv(main_arg0)) (V dv(main_arg1)) (V dv(main_arg2)) (V dv(main_arg3)) (V dv(main_arg4)) (V dv(main_arg5)) (V dv(main_arg6))) (V dv(main_arg1)) (V dv(main_arg2)) (V dv(main_arg7)) (V dv(main_arg8)) (V dv(main_arg9)) (V dv(main_arg10)) := by
    rw [seg12_v101, e81, e84', e85, k main_arg9 (by decide), k main_arg10 (by decide)]; rfl
  replace k := k.trans (seg12_args V11)
  clear e81 e84' e85
  generalize after seg12 V11 = V12 at k e101 ⊢
  -- THE HEAD.
  rw [seg13_v108, e101, k main_arg11 (by decide), k main_arg12 (by decide)]
  rfl

/-! ## The run -/

/-- On every device, for any float values, from any memory with zero counters: every weakly fair execution of the main
    function terminates with the result buffer at `refOut` of the thirteen arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h c main_v108).trans (out_eq (launchContents m c)),
        (h c main_arg0).trans (ops_args (launchContents m c) main_arg0 (by decide)),
        (h c main_arg1).trans (ops_args (launchContents m c) main_arg1 (by decide)),
        (h c main_arg2).trans (ops_args (launchContents m c) main_arg2 (by decide)),
        (h c main_arg3).trans (ops_args (launchContents m c) main_arg3 (by decide)),
        (h c main_arg4).trans (ops_args (launchContents m c) main_arg4 (by decide)),
        (h c main_arg5).trans (ops_args (launchContents m c) main_arg5 (by decide)),
        (h c main_arg6).trans (ops_args (launchContents m c) main_arg6 (by decide)),
        (h c main_arg7).trans (ops_args (launchContents m c) main_arg7 (by decide)),
        (h c main_arg8).trans (ops_args (launchContents m c) main_arg8 (by decide)),
        (h c main_arg9).trans (ops_args (launchContents m c) main_arg9 (by decide)),
        (h c main_arg10).trans (ops_args (launchContents m c) main_arg10 (by decide)),
        (h c main_arg11).trans (ops_args (launchContents m c) main_arg11 (by decide)),
        (h c main_arg12).trans (ops_args (launchContents m c) main_arg12 (by decide))⟩)
    (run_seq scopedRefs_eq scopedSems_eq defs main (fun _ => ops) main_eq (fun _ => ops_sub) m ρ)

end Cert.ReferenceIdeal.RefValue

end
-- ==== Proof.PreFinite.lean ====
import proofs.«133934_j19997367730796_1_alg».proof.Pre_finite_inputs
import proofs.«133934_j19997367730796_1_alg».proof.Proof.Gen.Pre_finite_inputs
import Idealize.ShloMosaic.Lib.ReduceAll
import Idealize.ShloMosaic.Lib.ValueIdx

/-!
  The precondition, read back.  The printed predicate is, for each of the eleven float inputs a, the conjunction over
  all entries of "|a i| < +∞", where |x| is max(x, -x) and the comparison is the strict order of the extended reals;
  the per-input results are and-ed into one bit.  If that bit is 1 then every conjunct is 1, so every entry of every
  float input has an absolute value strictly below +∞.  An extended real with that property is neither +∞ nor -∞
  (both have absolute value +∞), hence a real number.
-/

noncomputable section

namespace Cert.PreFinite

open Idealize.ShloMosaic Cert.Pre_finite_inputs

/-- The f32 word 0x7F800000 is +∞. -/
theorem ofBits_inf : Ideal.ofBits .f32 0x7F800000#32 = (⊤ : EReal) := by
  simp [Ideal.ofBits, Ideal.ieee]

/-- An extended real x with max(x, -x) < +∞ is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => simp [Ideal.cmp] at h'
  | coe r => exact ⟨r, rfl⟩
  | top => simp [Ideal.cmp] at h'

/-- The rank-zero shape has exactly one index. -/
instance : Subsingleton S_.Idx := ⟨fun a b => funext fun d => d.elim0⟩

/-- One input's block of the predicate: if the conjunction over all entries of "|a i| < +∞" is 1, every entry of a is real. -/
theorem finite_of_all {s : Shape} {axes : List (Fin s.rank)} (a : FVec Ideal s .f32)
    (hb : S_.BroadcastsInDim s (![] : Fin S_.rank → Fin s.rank)) (hr : s.ReducesTo axes S_) (hu : 0 < S_.numel) (j : S_.Idx)
    (e : Host.reduce IntOp.andi (cmpf .olt (Host.absf a) (broadcastInDim s ![] hb (constant (F := Ideal) S_ .f32 0x7F800000#32)))
          (constantI S_ 1 1#1) hr hu j = 1#1) :
    ∀ i, ∃ r : ℝ, a i = (r : EReal) :=
  fun i => real_of_abs_lt_inf (a i) (Host.reduce_andi_all _ _ hr hu j e i)

/-- The and of two rank-zero bits, at the one index. -/
theorem andi_at (x y : IVec S_ 1) (i : S_.Idx) : andi x y i = IntOp.andi (x i) (y i) := rfl

/-- If the precondition holds of the thirteen arguments, every entry of each of the eleven float arguments is a real number. -/
theorem finite_args [Facts] (a0 : FVec Ideal S100000x64 .f32) (a1 a2 : IVec S1600000 32) (a3 : FVec Ideal S64x64 .f32)
    (a4 a5 a6 : FVec Ideal S64 .f32) (a7 : FVec Ideal S64x64 .f32) (a8 a9 a10 : FVec Ideal S64 .f32)
    (a11 : FVec Ideal S64x2 .f32) (a12 : FVec Ideal S2 .f32)
    (H : fn (F := Ideal) a0 a1 a2 a3 a4 a5 a6 a7 a8 a9 a10 a11 a12 = fun _ => 1#1) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal))
    ∧ (∀ i, ∃ r : ℝ, a11 i = (r : EReal)) ∧ (∀ i, ∃ r : ℝ, a12 i = (r : EReal)) := by
  have H0 := congrFun H ValueIdx.ix0
  dsimp only [fn, fn_part1, fn_part2, fn_part3] at H0
  simp only [andi_at, IntOp.andi_eq_one] at H0
  obtain ⟨⟨⟨⟨⟨⟨⟨⟨⟨⟨h0, h3⟩, h4⟩, h5⟩, h6⟩, h7⟩, h8⟩, h9⟩, h10⟩, h11⟩, h12⟩ := H0
  exact ⟨finite_of_all a0 _ _ _ _ h0, finite_of_all a3 _ _ _ _ h3, finite_of_all a4 _ _ _ _ h4,
    finite_of_all a5 _ _ _ _ h5, finite_of_all a6 _ _ _ _ h6, finite_of_all a7 _ _ _ _ h7,
    finite_of_all a8 _ _ _ _ h8, finite_of_all a9 _ _ _ _ h9, finite_of_all a10 _ _ _ _ h10,
    finite_of_all a11 _ _ _ _ h11, finite_of_all a12 _ _ _ _ h12⟩

end Cert.PreFinite

end
-- ==== Proof.Spec.lean ====
/-
  The specification both programs are read into, index by index, over the extended reals.

  A node-feature matrix is a function of a row (one of 100000 nodes) and a column (one of 64 channels). One layer is: a
  linear map with bias (`lin`), the per-channel mean over the nodes (`mean`), a per-channel variance — the
  mean of the squared deviations (`varDev`) or the mean of the squares minus the squared mean (`varSq`); the two agree on finite
  data, and that is the one algebraic law of this certificate —, the reciprocal standard deviation with the stabilising ε
  (`invStd`), and the normalise-scale-shift-clamp map (`bnRelu`). The readout is the per-channel sum over the nodes (`colSum`)
  divided by the number of nodes, times the classifier matrix, plus its bias (`head`).
  The sparse aggregation between the layers (gather by source, scatter-add by destination, degree scalings) is the SAME term in both
  programs and is not restated here; only that it maps finite data to finite data is used.
-/
import Idealize.ShloMosaic.PureOps.Ideal

noncomputable section

namespace Cert.Spec

open Idealize.ShloMosaic

/-- A matrix of node features: 100000 rows, 64 channels. -/
abbrev Mat := Fin 100000 → Fin 64 → EReal
/-- One value per channel. -/
abbrev Row := Fin 64 → EReal

/-- The number of nodes, as the f32 word the programs divide by (1.0e5). -/
def nE : EReal := Ideal.ofBits .f32 0x47C35000#32
/-- The ε added to a variance, as the f32 word both programs add. -/
def epsE : EReal := Ideal.ofBits .f32 0x3727C5AC#32

/-- Every entry is a real number. -/
def FiniteMat (Y : Mat) : Prop := ∀ r c, ∃ x : ℝ, Y r c = (x : EReal)
/-- Every entry is a real number. -/
def FiniteRow (v : Row) : Prop := ∀ c, ∃ x : ℝ, v c = (x : EReal)

/-- `M · W + b`, row by row. -/
def lin (M : Mat) (W : Fin 64 → Fin 64 → EReal) (b : Row) : Mat := fun r c => (∑ k : Fin 64, M r k * W k c) + b c
/-- The sum of a channel over all nodes. -/
def colSum (Y : Mat) : Row := fun c => ∑ r : Fin 100000, Y r c
/-- The mean of a channel over all nodes. -/
def mean (Y : Mat) : Row := fun c => Ideal.div (colSum Y c) nE
/-- The variance as the mean of the squares minus the square of the mean. -/
def varSq (Y : Mat) : Row := fun c => Ideal.div (∑ r : Fin 100000, Y r c * Y r c) nE - mean Y c * mean Y c
/-- The variance as the mean of the squared deviations from the mean. -/
def varDev (Y : Mat) : Row := fun c => Ideal.div (∑ r : Fin 100000, (Y r c - mean Y c) * (Y r c - mean Y c)) nE
/-- `1 / sqrt (v + ε)`, channel by channel. -/
def invStd (v : Row) : Row := fun c => Ideal.rsqrt (v c + epsE)
/-- Normalise, scale, shift, clamp at zero. -/
def bnRelu (Y : Mat) (mu inv g be : Row) : Mat := fun r c => max ((Y r c - mu c) * inv c * g c + be c) 0
/-- The classifier on the mean-pooled features: `(P / n) · Wc + bc`. -/
def head (P : Row) (Wc : Fin 64 → Fin 2 → EReal) (bc : Fin 2 → EReal) : Fin 2 → EReal :=
  fun j => (∑ k : Fin 64, Ideal.div (P k) nE * Wc k j) + bc j

end Cert.Spec

end
-- ==== Proof.Net.lean ====
/-
  The whole network as one function of its argument arrays, index by index, over the extended reals — with the two things the
  programs do not share left as parameters: the sparse aggregation between the layers (`agg`: the same term in both programs) and the
  variance formula (`var`: mean of squares minus squared mean in the kernel, mean of squared deviations in the reference).

  Arrays are functions of an index into a literal shape; `toMat` / `toRow` read them by (row, column) / by channel, and `ofMat`
  builds the array of a matrix.
-/
import proofs.«133934_j19997367730796_1_alg».proof.Proof.Spec
import Idealize.ShloMosaic.Lib.ValueIdx

noncomputable section

namespace Cert.Spec

open Idealize.ShloMosaic Idealize.ShloMosaic.ValueIdx

/-- A rank-two array of extended reals. -/
abbrev Arr2 (a b : Nat) := (⟨2, ![a, b]⟩ : Shape).Idx → EReal
/-- A rank-one array of extended reals. -/
abbrev Arr1 (a : Nat) := (⟨1, ![a]⟩ : Shape).Idx → EReal

/-- An array read by row and column. -/
def toMat {a b : Nat} (A : Arr2 a b) : Fin a → Fin b → EReal := fun r k => A (ix2 r k)
/-- The array of a matrix. -/
def ofMat {a b : Nat} (M : Fin a → Fin b → EReal) : Arr2 a b := fun i => M (i 0) (i 1)
/-- A vector read by position. -/
def toRow {a : Nat} (v : Arr1 a) : Fin a → EReal := fun k => v (ix1 k)

theorem toMat_ofMat {a b : Nat} (M : Fin a → Fin b → EReal) : toMat (ofMat M) = M := rfl

theorem ofMat_toMat {a b : Nat} (A : Arr2 a b) : ofMat (toMat A) = A := by
  funext i; exact congrArg A (eq_ix2 i).symm

/-- An array is determined by its entries read by row and column. -/
theorem arr2_ext {a b : Nat} {A B : Arr2 a b} (h : ∀ r k, A (ix2 r k) = B (ix2 r k)) : A = B := by
  funext i; rw [eq_ix2 i]; exact h _ _

/-- Two layers (linear map, batch normalisation with the variance `var`, clamp), the aggregation `agg` before each linear map,
    then the mean-pooled linear readout. -/
def net (agg : Arr2 100000 64 → Arr2 100000 64) (var : Mat → Row)
    (x : Arr2 100000 64) (W1 : Arr2 64 64) (b1 g1 be1 : Arr1 64) (W2 : Arr2 64 64) (b2 g2 be2 : Arr1 64)
    (Wc : Arr2 64 2) (bc : Arr1 2) : Fin 2 → EReal :=
  let Y1 : Mat := lin (toMat (agg x)) (toMat W1) (toRow b1)
  let H1 : Mat := bnRelu Y1 (mean Y1) (invStd (var Y1)) (toRow g1) (toRow be1)
  let Y2 : Mat := lin (toMat (agg (ofMat H1))) (toMat W2) (toRow b2)
  let H2 : Mat := bnRelu Y2 (mean Y2) (invStd (var Y2)) (toRow g2) (toRow be2)
  head (colSum H2) (toMat Wc) (toRow bc)

end Cert.Spec

end
-- ==== Proof.VarLaw.lean ====
import proofs.«133934_j19997367730796_1_alg».proof.Proof.Spec

/-!
  The variance law.  For real data y_r (r over n rows, n ≠ 0) with mean mu = (∑ y_r) / n,

      (∑ y_r²) / n - mu²  =  (∑ (y_r - mu)²) / n,

  because ∑ (y_r - mu)² = ∑ y_r² - 2 mu ∑ y_r + n mu² and ∑ y_r = n mu.  Over the extended reals the
  identity needs every y_r finite (it cancels terms), which is what `FiniteMat` provides; the
  division by the row count is a multiplication by a real reciprocal because the count is a nonzero real.
-/

noncomputable section

namespace Cert.Spec

open Idealize.ShloMosaic

/-- The row count 1.0e5 is the real number 100000. -/
theorem nE_eq : nE = ((100000 : ℝ) : EReal) := by
  unfold nE
  simp [Ideal.ofBits, Ideal.ieee, -EReal.coe_mul]; norm_num

/-- The stabilising ε is a positive real. -/
theorem epsE_pos : ∃ e : ℝ, 0 < e ∧ epsE = (e : EReal) := by
  unfold epsE
  simp [Ideal.ofBits, Ideal.ieee, -EReal.coe_mul]

/-- A finite sum of reals, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The variance law over the reals: mean of squares minus squared mean is the mean squared deviation. -/
theorem real_var {ι : Type*} [Fintype ι] (y : ι → ℝ) (n : ℝ) (hcard : (Fintype.card ι : ℝ) = n) (hn : n ≠ 0) :
    (∑ i, y i * y i) * (1 / n) - (∑ i, y i) * (1 / n) * ((∑ i, y i) * (1 / n))
      = (∑ i, (y i - (∑ i, y i) * (1 / n)) * (y i - (∑ i, y i) * (1 / n))) * (1 / n) := by
  generalize hS : (∑ i, y i) = S
  generalize hmu : S * (1 / n) = mu
  have h1 : ∀ i, (y i - mu) * (y i - mu) = y i * y i - 2 * mu * y i + mu * mu := fun i => by ring
  have h : (∑ i, (y i - mu) * (y i - mu)) = (∑ i, y i * y i) - 2 * mu * S + n * (mu * mu) := by
    simp only [h1, Finset.sum_add_distrib, Finset.sum_sub_distrib, ← Finset.mul_sum, Finset.sum_const,
      Finset.card_univ, nsmul_eq_mul, hcard, hS]
    ring
  rw [h, ← hmu]
  field_simp
  ring

/-- THE LAW: on finite data the two variances agree, channel by channel. -/
theorem varSq_eq_varDev (Y : Mat) (hY : FiniteMat Y) : varSq Y = varDev Y := by
  choose y hy using hY
  funext c
  have hn : (100000 : ℝ) ≠ 0 := by norm_num
  have hcard : (Fintype.card (Fin 100000) : ℝ) = 100000 := by rw [Fintype.card_fin]; norm_num
  have hS : (∑ r : Fin 100000, Y r c) = ((∑ r : Fin 100000, y r c : ℝ) : EReal) := by
    rw [← coe_sum]; exact Finset.sum_congr rfl (fun r _ => hy r c)
  have hmean : mean Y c = (((∑ r : Fin 100000, y r c) * (1 / 100000) : ℝ) : EReal) := by
    unfold mean colSum
    rw [nE_eq, Ideal.div_coe hn, hS, ← EReal.coe_mul]
  have hQ : (∑ r : Fin 100000, Y r c * Y r c) = ((∑ r : Fin 100000, y r c * y r c : ℝ) : EReal) := by
    rw [← coe_sum]; exact Finset.sum_congr rfl (fun r _ => by rw [hy r c, ← EReal.coe_mul])
  have hD : (∑ r : Fin 100000, (Y r c - mean Y c) * (Y r c - mean Y c))
      = ((∑ r : Fin 100000, (y r c - (∑ r : Fin 100000, y r c) * (1 / 100000))
            * (y r c - (∑ r : Fin 100000, y r c) * (1 / 100000)) : ℝ) : EReal) := by
    rw [← coe_sum]
    exact Finset.sum_congr rfl (fun r _ => by rw [hy r c, hmean, ← EReal.coe_sub, ← EReal.coe_mul])
  show Ideal.div (∑ r : Fin 100000, Y r c * Y r c) nE - mean Y c * mean Y c
      = Ideal.div (∑ r : Fin 100000, (Y r c - mean Y c) * (Y r c - mean Y c)) nE
  rw [hD, hQ, hmean, nE_eq, Ideal.div_coe hn, Ideal.div_coe hn, ← EReal.coe_mul, ← EReal.coe_mul, ← EReal.coe_mul,
    ← EReal.coe_sub, EReal.coe_eq_coe_iff]
  exact real_var (fun r => y r c) 100000 hcard hn

end Cert.Spec

end
-- ==== Proof.RefRead.lean ====
/-
  The reference's result read at an index: each stage of `refOut`, at the exact instance (a float an extended real),
  is the corresponding map of the index-level specification — the linear layer, the mean and the variance over the
  nodes, batch normalization followed by the maximum with zero, and the head — so `refOut` at an index is the
  specification's network with the mean-of-squared-deviations variance, the aggregation over the edges kept as it is.
-/
import proofs.«133934_j19997367730796_1_alg».proof.Proof.RefRun
import proofs.«133934_j19997367730796_1_alg».proof.Proof.Net
import proofs.«133934_j19997367730796_1_alg».proof.Proof.VarLaw
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx
open Cert.Spec (toMat toRow ofMat)

/-! ## Broadcasts and the sum over the nodes, at an index -/

/-- A value per feature spread down the nodes reads, at (node, feature), the feature's value. -/
theorem cols_apply (v : FVec Ideal S64 .f32) (r : Fin 100000) (j : Fin 64) : cols v (ix2 r j) = v (ix1 j) := by
  unfold cols
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl)]

/-- The sum over the nodes reads, at a feature, the sum of the feature's column. -/
theorem colSum_apply (y : FVec Ideal S100000x64 .f32) (j : Fin 64) :
    colSum y (ix1 j) = ∑ r : Fin 100000, y (ix2 r j) := by
  have hR : S100000x64.Reduces [0] S64 := by decide
  unfold colSum
  show Ideal.hostReduceAdd reducesTo_S100000x64_S64_d0 y (Ideal.ofBits .f32 0x00000000#32) (ix1 j) = _
  rw [Ideal.hostReduceAdd_single _ hR, Ideal.ofBits_zero_f32, zero_add]
  refine Finset.sum_congr rfl fun k _ => congrArg y (funext fun a => Fin.ext ?_)
  match a with | ⟨0, _⟩ => rfl | ⟨1, _⟩ => rfl

/-- The mean over the nodes is the specification's. -/
theorem meanv_apply (y : FVec Ideal S100000x64 .f32) (j : Fin 64) : meanv y (ix1 j) = Cert.Spec.mean (toMat y) j := by
  show Ideal.div (colSum y (ix1 j)) (Ideal.ofBits .f32 0x47C35000#32) = _
  rw [colSum_apply]
  rfl

/-! ## The two products, at an index

A product with one contracted axis is, at an output index, the sum over that axis of the operands' products: the
contraction index is its one coordinate, and each operand index has the output's coordinate on its free axis and the
summation variable on its contracted axis. -/

theorem lin_lhs0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lin_lhs1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem lin_rhs0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem lin_rhs1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The [100000, 64] × [64, 64] product at (node, feature). -/
theorem linDot_apply (m : FVec Ideal S100000x64 .f32) (W : FVec Ideal S64x64 .f32) (r : Fin 100000) (j : Fin 64) :
    Host.dotGeneral dot_S100000x64_S64x64_S100000x64_1_0_0_1_n_n none m W (ix2 r j) = ∑ k : Fin 64, m (ix2 r k) * W (ix2 k j) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r j) ((ValueIdx.contrEquiv1 dot_S100000x64_S64x64_S100000x64_1_0_0_1_n_n 64 rfl rfl).symm k) = ix2 r k :=
    funext fun a => Fin.ext (by
      match a with
      | ⟨0, _⟩ => exact lin_lhs0 _ _
      | ⟨1, _⟩ => exact (lin_lhs1 _ _).trans hk)
  have er : dot_S100000x64_S64x64_S100000x64_1_0_0_1_n_n.rhsIdx (ix2 r j) ((ValueIdx.contrEquiv1 dot_S100000x64_S64x64_S100000x64_1_0_0_1_n_n 64 rfl rfl).symm k) = ix2 k j :=
    funext fun a => Fin.ext (by
      match a with
      | ⟨0, _⟩ => exact (lin_rhs0 _ _).trans hk
      | ⟨1, _⟩ => exact lin_rhs1 _ _)
  rw [el, er]

/-- The linear layer is the specification's. -/
theorem affine_apply (m : FVec Ideal S100000x64 .f32) (W : FVec Ideal S64x64 .f32) (b : FVec Ideal S64 .f32)
    (r : Fin 100000) (j : Fin 64) :
    affine m W b (ix2 r j) = Cert.Spec.lin (toMat m) (toMat W) (toRow b) r j := by
  unfold affine
  rw [addf_apply, linDot_apply, cols_apply]
  rfl

theorem head_lhs0 (i : S1x2.Idx) (q : dot_S1x64_S64x2_S1x2_1_0_0_1_n_n.contr.Idx) :
    (dot_S1x64_S64x2_S1x2_1_0_0_1_n_n.lhsIdx i q 0).val = (i 0).val := by
  unfold DotDims.lhsIdx
  rw [dif_neg (show ¬(0 : Fin S1x64.rank) ∈ dot_S1x64_S64x2_S1x2_1_0_0_1_n_n.lhsBatch by decide),
    dif_pos (show (0 : Fin S1x64.rank) ∈ dot_S1x64_S64x2_S1x2_1_0_0_1_n_n.lhsNonContracting by decide)]
  rfl
theorem head_lhs1 (i : S1x2.Idx) (q : dot_S1x64_S64x2_S1x2_1_0_0_1_n_n.contr.Idx) :
    (dot_S1x64_S64x2_S1x2_1_0_0_1_n_n.lhsIdx i q 1).val = (q ⟨0, by decide⟩).val :=
  dot_S1x64_S64x2_S1x2_1_0_0_1_n_n.lhsIdx_val_of_single rfl i q
theorem head_rhs0 (i : S1x2.Idx) (q : dot_S1x64_S64x2_S1x2_1_0_0_1_n_n.contr.Idx) :
    (dot_S1x64_S64x2_S1x2_1_0_0_1_n_n.rhsIdx i q 0).val = (q ⟨0, by decide⟩).val :=
  dot_S1x64_S64x2_S1x2_1_0_0_1_n_n.rhsIdx_val_of_single rfl i q
theorem head_rhs1 (i : S1x2.Idx) (q : dot_S1x64_S64x2_S1x2_1_0_0_1_n_n.contr.Idx) :
    (dot_S1x64_S64x2_S1x2_1_0_0_1_n_n.rhsIdx i q 1).val = (i 1).val := by
  unfold DotDims.rhsIdx
  rw [dif_neg (show ¬(1 : Fin S64x2.rank) ∈ dot_S1x64_S64x2_S1x2_1_0_0_1_n_n.rhsBatch by decide),
    dif_pos (show (1 : Fin S64x2.rank) ∈ dot_S1x64_S64x2_S1x2_1_0_0_1_n_n.rhsNonContracting by decide)]
  rfl

/-- The [1, 64] × [64, 2] product at (0, class). -/
theorem headDot_apply (l : FVec Ideal S1x64 .f32) (R : FVec Ideal S64x2 .f32) (j : Fin 2) :
    Host.dotGeneral dot_S1x64_S64x2_S1x2_1_0_0_1_n_n none l R (ix2 (0 : Fin 1) j) = ∑ k : Fin 64, l (ix2 (0 : Fin 1) k) * R (ix2 k j) := by
  simp only [Host.dotGeneral]
  rw [Ideal.dotGeneral_apply, ← Equiv.sum_comp (ValueIdx.contrEquiv1 dot_S1x64_S64x2_S1x2_1_0_0_1_n_n 64 rfl rfl).symm]
  refine Finset.sum_congr rfl fun k _ => ?_
  have hk := ValueIdx.contrEquiv1_symm_val dot_S1x64_S64x2_S1x2_1_0_0_1_n_n 64 rfl rfl k
  have el : dot_S1x64_S64x2_S1x2_1_0_0_1_n_n.lhsIdx (ix2 (0 : Fin 1) j) ((ValueIdx.contrEquiv1 dot_S1x64_S64x2_S1x2_1_0_0_1_n_n 64 rfl rfl).symm k) = ix2 (0 : Fin 1) k :=
    funext fun a => Fin.ext (by
      match a with
      | ⟨0, _⟩ => exact head_lhs0 _ _
      | ⟨1, _⟩ => exact (head_lhs1 _ _).trans hk)
  have er : dot_S1x64_S64x2_S1x2_1_0_0_1_n_n.rhsIdx (ix2 (0 : Fin 1) j) ((ValueIdx.contrEquiv1 dot_S1x64_S64x2_S1x2_1_0_0_1_n_n 64 rfl rfl).symm k) = ix2 k j :=
    funext fun a => Fin.ext (by
      match a with
      | ⟨0, _⟩ => exact (head_rhs0 _ _).trans hk
      | ⟨1, _⟩ => exact head_rhs1 _ _)
  rw [el, er]

/-! ## The variance, batch normalization and the head -/

/-- The mean over the nodes, computed through a [1, 64] row, is the specification's mean too. -/
theorem rowMean_apply (y : FVec Ideal S100000x64 .f32) (j : Fin 64) :
    Host.divf (F := Ideal) (broadcastInDim S1x64 ![1] bcast_S64_S1x64_1 (colSum y))
        (broadcastInDim S1x64 ![] bcast_S_S1x64 (constant (F := Ideal) S_ .f32 0x47C35000#32)) (ix2 (0 : Fin 1) j)
      = Cert.Spec.mean (toMat y) j := by
  show Ideal.div (broadcastInDim S1x64 ![1] bcast_S64_S1x64_1 (colSum y) (ix2 (0 : Fin 1) j)) (Ideal.ofBits .f32 0x47C35000#32) = _
  rw [broadcastInDim_apply _ _ _ _ (ix1 j) (fun a => by match a with | ⟨0, _⟩ => rfl), colSum_apply]
  rfl

/-- The squared deviation from the mean, at (node, feature). -/
theorem sqDev_apply (y : FVec Ideal S100000x64 .f32) (r : Fin 100000) (j : Fin 64) :
    sqDev y (ix2 r j)
      = (toMat y r j - Cert.Spec.mean (toMat y) j) * (toMat y r j - Cert.Spec.mean (toMat y) j) := by
  unfold sqDev
  rw [mulf_apply, subf_apply,
    broadcastInDim_apply _ _ _ _ (ix2 (0 : Fin 1) j) (fun a => by match a with | ⟨0, _⟩ => rfl | ⟨1, _⟩ => rfl),
    rowMean_apply]
  rfl

/-- The variance's divisor is the number of nodes: the correction is the zero word, read as the integer 0. -/
theorem varDen_apply (i : S_.Idx) : varDen (F := Ideal) i = Cert.Spec.nE := by
  show Ideal.ofBits .f32 0x47C35000#32 - (((0#32 : BitVec 32).toInt : ℝ) : EReal) = Cert.Spec.nE
  have h0 : (0#32 : BitVec 32).toInt = 0 := by decide
  rw [h0, Int.cast_zero, EReal.coe_zero, sub_zero]
  rfl

/-- The number of nodes is positive, so the variance takes its first branch. -/
theorem nE_gt : Ideal.cmp .ogt Cert.Spec.nE (Ideal.ofBits .f32 0x00000000#32) = 1#1 := by
  have h : (0 : EReal) < ((100000 : ℝ) : EReal) := by exact_mod_cast (by norm_num : (0 : ℝ) < 100000)
  rw [Ideal.ofBits_zero_f32, Cert.Spec.nE_eq]
  unfold Ideal.cmp
  simp only [h, decide_true]
  rfl

/-- The variance over the nodes is the specification's mean of squared deviations. -/
theorem varv_apply (y : FVec Ideal S100000x64 .f32) (j : Fin 64) : varv y (ix1 j) = Cert.Spec.varDev (toMat y) j := by
  unfold varv
  rw [select_apply]
  show Scalar.select (Ideal.cmp .ogt (varDen (F := Ideal) _) (Ideal.ofBits .f32 0x00000000#32))
      (Ideal.div (colSum (sqDev y) (ix1 j)) (varDen (F := Ideal) _)) _ = _
  rw [varDen_apply, nE_gt, select_one, colSum_apply]
  unfold Cert.Spec.varDev
  exact congrArg (fun s => Ideal.div s Cert.Spec.nE) (Finset.sum_congr rfl fun r _ => sqDev_apply y r j)

/-- Batch normalization followed by the maximum with zero is the specification's. -/
theorem bnrelu_apply (y : FVec Ideal S100000x64 .f32) (mu var g be : FVec Ideal S64 .f32) (r : Fin 100000) (j : Fin 64) :
    bnrelu y mu var g be (ix2 r j)
      = Cert.Spec.bnRelu (toMat y) (toRow mu) (Cert.Spec.invStd (toRow var)) (toRow g) (toRow be) r j := by
  have hz : broadcastInDim S100000x64 ![] bcast_S_S100000x64 (constant (F := Ideal) S_ .f32 0x00000000#32) (ix2 r j) = 0 :=
    Ideal.ofBits_zero_f32
  unfold bnrelu
  simp only [maximumf_apply, addf_apply, mulf_apply, subf_apply, cols_apply, hz]
  rfl

/-- The head is the specification's. -/
theorem headv_apply (h : FVec Ideal S100000x64 .f32) (Wc : FVec Ideal S64x2 .f32) (bc : FVec Ideal S2 .f32) (j : Fin 2) :
    headv h Wc bc (ix2 (0 : Fin 1) j) = Cert.Spec.head (Cert.Spec.colSum (toMat h)) (toMat Wc) (toRow bc) j := by
  unfold headv
  rw [addf_apply, headDot_apply, broadcastInDim_apply _ _ _ _ (ix1 j) (fun a => by match a with | ⟨0, _⟩ => rfl)]
  unfold Cert.Spec.head
  refine congrArg (· + bc (ix1 j)) (Finset.sum_congr rfl fun k _ => ?_)
  rw [rowMean_apply]
  rfl

/-! ## A layer, and the whole result -/

theorem toMat_affine (m : FVec Ideal S100000x64 .f32) (W : FVec Ideal S64x64 .f32) (b : FVec Ideal S64 .f32) :
    toMat (affine m W b) = Cert.Spec.lin (toMat m) (toMat W) (toRow b) :=
  funext fun r => funext fun j => affine_apply m W b r j

theorem toRow_meanv (y : FVec Ideal S100000x64 .f32) : toRow (meanv y) = Cert.Spec.mean (toMat y) := funext fun j => meanv_apply y j

theorem toRow_varv (y : FVec Ideal S100000x64 .f32) : toRow (varv y) = Cert.Spec.varDev (toMat y) := funext fun j => varv_apply y j

/-- One layer is the array of the specification's layer: the linear map of the aggregated features, normalized by
    its own mean and mean of squared deviations, scaled, shifted and clamped at zero. -/
theorem layer_eq (h : FVec Ideal S100000x64 .f32) (src dst : IVec S1600000 32) (W : FVec Ideal S64x64 .f32) (b g be : FVec Ideal S64 .f32) :
    layer h src dst W b g be
      = ofMat (Cert.Spec.bnRelu (Cert.Spec.lin (toMat (agg h src dst)) (toMat W) (toRow b))
          (Cert.Spec.mean (Cert.Spec.lin (toMat (agg h src dst)) (toMat W) (toRow b)))
          (Cert.Spec.invStd (Cert.Spec.varDev (Cert.Spec.lin (toMat (agg h src dst)) (toMat W) (toRow b))))
          (toRow g) (toRow be)) :=
  Cert.Spec.arr2_ext fun r k => by
    unfold layer
    rw [bnrelu_apply, toRow_meanv, toRow_varv, toMat_affine]
    rfl

/-- The reference's result, at (0, class), is the specification's network with the mean-of-squared-deviations variance
    and the program's own aggregation over the edges. -/
theorem refOut_apply (a0 : FVec Ideal S100000x64 .f32) (a1 a2 : IVec S1600000 32) (a3 : FVec Ideal S64x64 .f32)
    (a4 a5 a6 : FVec Ideal S64 .f32) (a7 : FVec Ideal S64x64 .f32) (a8 a9 a10 : FVec Ideal S64 .f32)
    (a11 : FVec Ideal S64x2 .f32) (a12 : FVec Ideal S2 .f32) (j : Fin 2) :
    refOut (F := Ideal) a0 a1 a2 a3 a4 a5 a6 a7 a8 a9 a10 a11 a12 (ix2 (0 : Fin 1) j)
      = Cert.Spec.net (fun h => agg (F := Ideal) h a1 a2) Cert.Spec.varDev a0 a3 a4 a5 a6 a7 a8 a9 a10 a11 a12 j := by
  unfold refOut
  rw [headv_apply, layer_eq, layer_eq, Cert.Spec.toMat_ofMat]
  rfl

end Cert.ReferenceIdeal.RefValue

end
-- ==== Proof.AggEq.lean ====
/-
  The aggregation over the edges is one function in the two programs: the reference's term and the kernel's host
  operations' term are the same operations on the same shapes, written over each program's own dimension records and
  shape facts, with the two broadcasts of a per-node value (to a column, then along the rows) grouped differently.
-/
import proofs.«133934_j19997367730796_1_alg».proof.Proof.RefRun
import proofs.«133934_j19997367730796_1_alg».proof.Proof.KAgg

noncomputable section

namespace Cert.AggEq

open Idealize.ShloMosaic

/-- The two programs' dimension records are the same records: the same lists, their well-formedness a proof. -/
theorem scatterDeg_eq :
    Cert.ReferenceIdeal.scatter_S100000_S1600000x1_S1600000_n_0_0_1 = Cert.KernelIdeal.scatter_S100000_S1600000x1_S1600000_n_0_0_1 := rfl
theorem gather_eq :
    Cert.ReferenceIdeal.gather_S100000x64_S1600000x1_S1600000x64_1_0_n_n_0_1_164
      = Cert.KernelIdeal.gather_S100000x64_S1600000x1_S1600000x64_1_0_n_n_0_1_164 := rfl
theorem scatterRows_eq :
    Cert.ReferenceIdeal.scatter_S100000x64_S1600000x1_S1600000x64_1_0_0_1
      = Cert.KernelIdeal.scatter_S100000x64_S1600000x1_S1600000x64_1_0_0_1 := rfl

/-- The reference's aggregation, as a function of the features, is the kernel's. -/
theorem agg_eq (a1 a2 : IVec Cert.ReferenceIdeal.S1600000 32) :
    (fun h => Cert.ReferenceIdeal.RefValue.agg (F := Ideal) h a1 a2) = Cert.KernelIdeal.KChase.aggK a1 a2 := by
  funext h
  unfold Cert.ReferenceIdeal.RefValue.agg Cert.ReferenceIdeal.RefValue.aggOf Cert.ReferenceIdeal.RefValue.degRs
    Cert.ReferenceIdeal.RefValue.degC Cert.ReferenceIdeal.RefValue.rows Cert.ReferenceIdeal.RefValue.wrapIdx
    Cert.KernelIdeal.KChase.aggK Cert.KernelIdeal.KChase.aggCore Cert.KernelIdeal.KChase.degCol
  rw [scatterDeg_eq, gather_eq, scatterRows_eq]

end Cert.AggEq

end
-- ==== Proof.FiniteLaws.lean ====
import proofs.«133934_j19997367730796_1_alg».proof.Proof.Spec
import proofs.«133934_j19997367730796_1_alg».proof.Proof.VarLaw

/-!
  Finiteness (every entry a real number, no infinity) is preserved by each map of the specification and by the
  host operations of the sparse aggregation.  The extended reals add, subtract, multiply and take maxima of reals
  to reals; a finite sum of reals is a real; division by the (nonzero, real) row count is a multiplication by a
  real; and the reciprocal square root of a POSITIVE real is a real, which is where the stabilising ε > 0 and the
  clamp max(1, ·) of the degrees are used.
-/

noncomputable section

namespace Cert.Spec

open Idealize.ShloMosaic

/-! ### Reals among the extended reals are closed under the arithmetic used -/

theorem real_zero : ∃ x : ℝ, (0 : EReal) = (x : EReal) := ⟨0, EReal.coe_zero.symm⟩

theorem real_add {a b : EReal} (ha : ∃ x : ℝ, a = (x : EReal)) (hb : ∃ x : ℝ, b = (x : EReal)) :
    ∃ x : ℝ, a + b = (x : EReal) := by
  obtain ⟨x, rfl⟩ := ha; obtain ⟨y, rfl⟩ := hb; exact ⟨x + y, (EReal.coe_add x y).symm⟩

theorem real_sub {a b : EReal} (ha : ∃ x : ℝ, a = (x : EReal)) (hb : ∃ x : ℝ, b = (x : EReal)) :
    ∃ x : ℝ, a - b = (x : EReal) := by
  obtain ⟨x, rfl⟩ := ha; obtain ⟨y, rfl⟩ := hb; exact ⟨x - y, (EReal.coe_sub x y).symm⟩

theorem real_mul {a b : EReal} (ha : ∃ x : ℝ, a = (x : EReal)) (hb : ∃ x : ℝ, b = (x : EReal)) :
    ∃ x : ℝ, a * b = (x : EReal) := by
  obtain ⟨x, rfl⟩ := ha; obtain ⟨y, rfl⟩ := hb; exact ⟨x * y, (EReal.coe_mul x y).symm⟩

theorem real_max {a b : EReal} (ha : ∃ x : ℝ, a = (x : EReal)) (hb : ∃ x : ℝ, b = (x : EReal)) :
    ∃ x : ℝ, max a b = (x : EReal) := by
  obtain ⟨x, rfl⟩ := ha; obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is a real. -/
theorem real_sum {ι : Type*} (s : Finset ι) (f : ι → EReal) (h : ∀ i ∈ s, ∃ x : ℝ, f i = (x : EReal)) :
    ∃ x : ℝ, ∑ i ∈ s, f i = (x : EReal) := by
  classical
  induction s using Finset.induction_on with
  | empty => exact ⟨0, by simp⟩
  | insert a s ha ih =>
    rw [Finset.sum_insert ha]
    exact real_add (h a (Finset.mem_insert_self a s)) (ih (fun i hi => h i (Finset.mem_insert_of_mem hi)))

/-- Dividing a real by the row count gives a real. -/
theorem real_div_nE {a : EReal} (ha : ∃ x : ℝ, a = (x : EReal)) : ∃ x : ℝ, Ideal.div a nE = (x : EReal) := by
  obtain ⟨x, rfl⟩ := ha
  have hn : (100000 : ℝ) ≠ 0 := by norm_num
  exact ⟨x * (1 / 100000), by rw [nE_eq, Ideal.div_coe hn, EReal.coe_mul]⟩

/-- The reciprocal square root of a positive real is a real. -/
theorem rsqrt_pos_real (r : ℝ) (hr : 0 < r) : ∃ x : ℝ, Ideal.rsqrt (r : EReal) = (x : EReal) :=
  ⟨(Real.sqrt r)⁻¹, by rw [Ideal.rsqrt_coe, if_neg (not_lt.2 hr.le), if_neg hr.ne']⟩

/-- For a positive real a, the reciprocal square root of max(a, x) is a real whatever x is: max(a, x) is a real ≥ a, or +∞
    (whose reciprocal square root is 0). -/
theorem rsqrt_max_real (a : ℝ) (ha : 0 < a) (x : EReal) : ∃ r : ℝ, Ideal.rsqrt (max (a : EReal) x) = (r : EReal) := by
  induction x using EReal.rec with
  | bot => rw [max_eq_left bot_le]; exact rsqrt_pos_real a ha
  | coe r =>
    rcases le_total a r with h | h
    · rw [max_eq_right (EReal.coe_le_coe_iff.2 h)]; exact rsqrt_pos_real r (lt_of_lt_of_le ha h)
    · rw [max_eq_left (EReal.coe_le_coe_iff.2 h)]; exact rsqrt_pos_real a ha
  | top => rw [max_eq_right le_top, Ideal.rsqrt_top]; exact real_zero

/-! ### The maps of the specification -/

/-- A linear map with real weights and real bias sends finite data to finite data. -/
theorem finite_lin {M : Mat} {W : Fin 64 → Fin 64 → EReal} {b : Row}
    (hM : FiniteMat M) (hW : ∀ k c, ∃ x : ℝ, W k c = (x : EReal)) (hb : FiniteRow b) : FiniteMat (lin M W b) := by
  intro r c
  show ∃ x : ℝ, (∑ k : Fin 64, M r k * W k c) + b c = (x : EReal)
  exact real_add (real_sum _ _ (fun k _ => real_mul (hM r k) (hW k c))) (hb c)

/-- The channel means of finite data are real. -/
theorem finite_mean {Y : Mat} (hY : FiniteMat Y) : FiniteRow (mean Y) := by
  intro c
  show ∃ x : ℝ, Ideal.div (∑ r : Fin 100000, Y r c) nE = (x : EReal)
  exact real_div_nE (real_sum _ _ (fun r _ => hY r c))

/-- The mean squared deviation of finite data is a real number ≥ 0. -/
theorem varDev_nonneg_real {Y : Mat} (hY : FiniteMat Y) (c : Fin 64) : ∃ v : ℝ, 0 ≤ v ∧ varDev Y c = (v : EReal) := by
  obtain ⟨mu, hmu⟩ := finite_mean hY c
  choose y hy using hY
  have hn : (100000 : ℝ) ≠ 0 := by norm_num
  have hD : (∑ r : Fin 100000, (Y r c - mean Y c) * (Y r c - mean Y c))
      = ((∑ r : Fin 100000, (y r c - mu) * (y r c - mu) : ℝ) : EReal) := by
    rw [← coe_sum]
    exact Finset.sum_congr rfl (fun r _ => by rw [hy r c, hmu, ← EReal.coe_sub, ← EReal.coe_mul])
  refine ⟨(∑ r : Fin 100000, (y r c - mu) * (y r c - mu)) * (1 / 100000),
    mul_nonneg (Finset.sum_nonneg (fun r _ => mul_self_nonneg _)) (by norm_num), ?_⟩
  show Ideal.div (∑ r : Fin 100000, (Y r c - mean Y c) * (Y r c - mean Y c)) nE = _
  rw [hD, nE_eq, Ideal.div_coe hn, ← EReal.coe_mul]

/-- The reciprocal standard deviation (with ε > 0 under the root) of finite data is real. -/
theorem finite_invStd_varDev {Y : Mat} (hY : FiniteMat Y) : FiniteRow (invStd (varDev Y)) := by
  intro c
  obtain ⟨v, hv, hvc⟩ := varDev_nonneg_real hY c
  obtain ⟨e, he, hee⟩ := epsE_pos
  show ∃ x : ℝ, Ideal.rsqrt (varDev Y c + epsE) = (x : EReal)
  rw [hvc, hee, ← EReal.coe_add]
  exact rsqrt_pos_real (v + e) (add_pos_of_nonneg_of_pos hv he)

/-- Normalise, scale, shift and clamp at zero: finite in, finite out. -/
theorem finite_bnRelu {Y : Mat} {mu inv g be : Row} (hY : FiniteMat Y) (hmu : FiniteRow mu) (hinv : FiniteRow inv)
    (hg : FiniteRow g) (hbe : FiniteRow be) : FiniteMat (bnRelu Y mu inv g be) := by
  intro r c
  show ∃ x : ℝ, max ((Y r c - mu c) * inv c * g c + be c) 0 = (x : EReal)
  exact real_max (real_add (real_mul (real_mul (real_sub (hY r c) (hmu c)) (hinv c)) (hg c)) (hbe c)) real_zero

/-! ### The host operations of the sparse aggregation, for arbitrary shapes -/

/-- Scatter-add: each result entry is an operand entry plus a finite sum of update entries. -/
theorem finite_scatterAdd {s si su : Shape} {φ : FTy} {w : Nat} (d : ScatterDims s si su)
    (x : FVec Ideal s φ) (idx : IVec si w) (upd : FVec Ideal su φ)
    (hx : ∀ i, ∃ r : ℝ, x i = (r : EReal)) (hu : ∀ j, ∃ r : ℝ, upd j = (r : EReal)) :
    ∀ i, ∃ r : ℝ, Host.scatterAdd (F := Ideal) d x idx upd i = (r : EReal) := by
  intro i
  have e : Host.scatterAdd (F := Ideal) d x idx upd i = Ideal.hostScatterAdd d x idx upd i := rfl
  rw [e]; unfold Ideal.hostScatterAdd
  exact real_add (hx i) (real_sum _ _ (fun j _ => hu j))

/-- Gather: each result entry is an operand entry. -/
theorem finite_gather {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

theorem finite_mulf {s : Shape} {φ : FTy} (x y : FVec Ideal s φ) (hx : ∀ i, ∃ r : ℝ, x i = (r : EReal))
    (hy : ∀ i, ∃ r : ℝ, y i = (r : EReal)) : ∀ i, ∃ r : ℝ, mulf x y i = (r : EReal) := by
  intro i; show ∃ r : ℝ, x i * y i = (r : EReal); exact real_mul (hx i) (hy i)

theorem finite_addf {s : Shape} {φ : FTy} (x y : FVec Ideal s φ) (hx : ∀ i, ∃ r : ℝ, x i = (r : EReal))
    (hy : ∀ i, ∃ r : ℝ, y i = (r : EReal)) : ∀ i, ∃ r : ℝ, addf x y i = (r : EReal) := by
  intro i; show ∃ r : ℝ, x i + y i = (r : EReal); exact real_add (hx i) (hy i)

theorem finite_subf {s : Shape} {φ : FTy} (x y : FVec Ideal s φ) (hx : ∀ i, ∃ r : ℝ, x i = (r : EReal))
    (hy : ∀ i, ∃ r : ℝ, y i = (r : EReal)) : ∀ i, ∃ r : ℝ, subf x y i = (r : EReal) := by
  intro i; show ∃ r : ℝ, x i - y i = (r : EReal); exact real_sub (hx i) (hy i)

theorem finite_maximumf {s : Shape} {φ : FTy} (x y : FVec Ideal s φ) (hx : ∀ i, ∃ r : ℝ, x i = (r : EReal))
    (hy : ∀ i, ∃ r : ℝ, y i = (r : EReal)) : ∀ i, ∃ r : ℝ, maximumf x y i = (r : EReal) := by
  intro i; show ∃ r : ℝ, max (x i) (y i) = (r : EReal); exact real_max (hx i) (hy i)

/-- A broadcast re-indexes its operand: every result entry is an operand entry. -/
theorem finite_broadcastInDim {s : Shape} (t : Shape) (dims : Fin s.rank → Fin t.rank) (h : s.BroadcastsInDim t dims)
    (x : s.Idx → EReal) (hx : ∀ i, ∃ r : ℝ, x i = (r : EReal)) :
    ∀ j, ∃ r : ℝ, broadcastInDim t dims h x j = (r : EReal) :=
  fun _ => hx _

/-- The f32 word 0x3F800000 is 1. -/
theorem ofBits_one : Ideal.ofBits .f32 0x3F800000#32 = ((1 : ℝ) : EReal) := by
  simp [Ideal.ofBits, Ideal.ieee, -EReal.coe_mul]; norm_num

/-- The degree clamp: the reciprocal square root of max(1, x) is a real for every extended real x. -/
theorem finite_rsqrt_clamp (x : EReal) : ∃ r : ℝ, Ideal.rsqrt (max (Ideal.ofBits .f32 0x3F800000#32) x) = (r : EReal) := by
  rw [ofBits_one]; exact rsqrt_max_real 1 one_pos x

/-- The same with the arguments of the maximum in the other order. -/
theorem finite_rsqrt_clamp' (x : EReal) : ∃ r : ℝ, Ideal.rsqrt (max x (Ideal.ofBits .f32 0x3F800000#32)) = (r : EReal) := by
  rw [max_comm]; exact finite_rsqrt_clamp x

/-- A contraction onto a real accumulator: accumulator entry plus a finite sum of products. -/
theorem finite_matmul {sl sr so : Shape} {φ₁ φ₂ : FTy} (d : DotDims sl sr so) (prec : Option ContractPrecision)
    (lhs : FVec Ideal sl φ₁) (rhs : FVec Ideal sr φ₂) (acc : FVec Ideal so .f32)
    (hl : ∀ i, ∃ r : ℝ, lhs i = (r : EReal)) (hr : ∀ i, ∃ r : ℝ, rhs i = (r : EReal))
    (ha : ∀ j, ∃ r : ℝ, acc j = (r : EReal)) :
    ∀ j, ∃ r : ℝ, matmul (F := Ideal) d prec lhs rhs acc j = (r : EReal) := by
  intro j
  have e : matmul (F := Ideal) d prec lhs rhs acc j = Ideal.matmul d lhs rhs acc j := rfl
  rw [e]; unfold Ideal.matmul
  exact real_add (ha j) (real_sum _ _ (fun k _ => real_mul (hl _) (hr _)))

/-- The host's contraction (zero accumulator). -/
theorem finite_dotGeneral {sl sr so : Shape} {φ₁ φ₂ : FTy} (d : DotDims sl sr so) (prec : Option ContractPrecision)
    (lhs : FVec Ideal sl φ₁) (rhs : FVec Ideal sr φ₂)
    (hl : ∀ i, ∃ r : ℝ, lhs i = (r : EReal)) (hr : ∀ i, ∃ r : ℝ, rhs i = (r : EReal)) :
    ∀ j, ∃ r : ℝ, Host.dotGeneral (F := Ideal) d prec lhs rhs j = (r : EReal) := by
  intro j
  have e : Host.dotGeneral (F := Ideal) d prec lhs rhs j = Ideal.matmul d lhs rhs (fun _ => 0) j := rfl
  rw [e]; unfold Ideal.matmul
  exact real_add real_zero (real_sum _ _ (fun k _ => real_mul (hl _) (hr _)))

/-- The host's sum over axes: the initial value plus a finite sum of operand entries. -/
theorem finite_reduceAdd {s : Shape} {φ : FTy} {axes : List (Fin s.rank)} {t u : Shape} (x : FVec Ideal s φ)
    (init : u.Idx → Ideal φ) (h : s.ReducesTo axes t) (hu : 0 < u.numel)
    (hx : ∀ i, ∃ r : ℝ, x i = (r : EReal)) (hi : ∀ k, ∃ r : ℝ, init k = (r : EReal)) :
    ∀ j, ∃ r : ℝ, Host.reduceAdd (F := Ideal) x init h hu j = (r : EReal) := by
  intro j
  have e : Host.reduceAdd (F := Ideal) x init h hu j = Ideal.hostReduceAdd h x (init (Shape.Idx.first hu)) j := rfl
  rw [e]; unfold Ideal.hostReduceAdd
  exact real_add (hi _) (real_sum _ _ (fun i _ => hx i))

end Cert.Spec

end
-- ==== Proof.NetLaw.lean ====
import proofs.«133934_j19997367730796_1_alg».proof.Proof.Net
import proofs.«133934_j19997367730796_1_alg».proof.Proof.VarLaw
import proofs.«133934_j19997367730796_1_alg».proof.Proof.FiniteLaws

/-!
  The variance law at the level of the whole network.  The network uses its variance formula twice, on the output Y1 of the
  first linear map and on the output Y2 of the second.  With finite inputs, Y1 is finite (the aggregation and the linear map
  preserve finiteness), so the two formulas agree on Y1; then the first layer's output H1 is finite (its mean, its reciprocal
  standard deviation with ε > 0, and the normalise-scale-shift-clamp map all preserve finiteness), hence Y2 is finite and the two
  formulas agree on Y2 as well.  Nothing else in the network depends on the formula.
-/

noncomputable section

namespace Cert.Spec

open Idealize.ShloMosaic Idealize.ShloMosaic.ValueIdx

/-- An array of reals read by row and column is a matrix of reals. -/
theorem real_toMat {a b : Nat} {A : Arr2 a b} (h : ∀ i, ∃ r : ℝ, A i = (r : EReal)) (r : Fin a) (k : Fin b) :
    ∃ x : ℝ, toMat A r k = (x : EReal) := h (ix2 r k)

/-- A vector of reals read by position is a row of reals. -/
theorem real_toRow {a : Nat} {v : Arr1 a} (h : ∀ i, ∃ r : ℝ, v i = (r : EReal)) (k : Fin a) :
    ∃ x : ℝ, toRow v k = (x : EReal) := h (ix1 k)

/-- On finite inputs, and with an aggregation that keeps finite data finite, the network computed with the variance as
    "mean of squares minus squared mean" equals the network computed with the variance as "mean of squared deviations". -/
theorem net_varSq_eq_varDev (agg : Arr2 100000 64 → Arr2 100000 64)
    (hagg : ∀ h : Arr2 100000 64, FiniteMat (toMat h) → FiniteMat (toMat (agg h)))
    (x : Arr2 100000 64) (W1 : Arr2 64 64) (b1 g1 be1 : Arr1 64) (W2 : Arr2 64 64) (b2 g2 be2 : Arr1 64)
    (Wc : Arr2 64 2) (bc : Arr1 2)
    (hx : ∀ i, ∃ r : ℝ, x i = (r : EReal)) (hW1 : ∀ i, ∃ r : ℝ, W1 i = (r : EReal))
    (hb1 : ∀ i, ∃ r : ℝ, b1 i = (r : EReal)) (hg1 : ∀ i, ∃ r : ℝ, g1 i = (r : EReal))
    (hbe1 : ∀ i, ∃ r : ℝ, be1 i = (r : EReal)) (hW2 : ∀ i, ∃ r : ℝ, W2 i = (r : EReal))
    (hb2 : ∀ i, ∃ r : ℝ, b2 i = (r : EReal)) (hg2 : ∀ i, ∃ r : ℝ, g2 i = (r : EReal))
    (hbe2 : ∀ i, ∃ r : ℝ, be2 i = (r : EReal)) :
    net agg varSq x W1 b1 g1 be1 W2 b2 g2 be2 Wc bc = net agg varDev x W1 b1 g1 be1 W2 b2 g2 be2 Wc bc := by
  unfold net
  dsimp only
  set Y1 : Mat := lin (toMat (agg x)) (toMat W1) (toRow b1) with hY1def
  have hY1 : FiniteMat Y1 := finite_lin (hagg x (real_toMat hx)) (real_toMat hW1) (real_toRow hb1)
  rw [varSq_eq_varDev Y1 hY1]
  set H1 : Mat := bnRelu Y1 (mean Y1) (invStd (varDev Y1)) (toRow g1) (toRow be1) with hH1def
  have hH1 : FiniteMat H1 :=
    finite_bnRelu hY1 (finite_mean hY1) (finite_invStd_varDev hY1) (real_toRow hg1) (real_toRow hbe1)
  set Y2 : Mat := lin (toMat (agg (ofMat H1))) (toMat W2) (toRow b2) with hY2def
  have hY2 : FiniteMat Y2 :=
    finite_lin (hagg (ofMat H1) (by rw [toMat_ofMat]; exact hH1)) (real_toMat hW2) (real_toRow hb2)
  rw [varSq_eq_varDev Y2 hY2]

end Cert.Spec

end
-- ==== Proof.FiniteOps.lean ====
import proofs.«133934_j19997367730796_1_alg».proof.Proof.FiniteLaws

/-!
  Finiteness of the pieces the two programs' sparse aggregations are assembled from, for arbitrary shapes: a constant
  broadcast to a shape has the constant's value at every index (0 and 1 are reals), and the reciprocal square root of the
  entrywise maximum of the constant 1 and ANY vector is a vector of reals (max(1, x) is a real ≥ 1, or +∞ whose reciprocal
  square root is 0).
-/

noncomputable section

namespace Cert.Spec

open Idealize.ShloMosaic

/-- The f32 word 0x00000000 is 0. -/
theorem ofBits_zero_real : Ideal.ofBits .f32 0x00000000#32 = ((0 : ℝ) : EReal) := by
  simp [Ideal.ofBits, Ideal.ieee]

/-- A broadcast constant has the constant's value at every index. -/
theorem bcast_const_apply {s : Shape} (t : Shape) (dims : Fin s.rank → Fin t.rank) (h : s.BroadcastsInDim t dims)
    (w : BitVec 32) (j : t.Idx) :
    broadcastInDim t dims h (constant (F := Ideal) s .f32 w) j = Ideal.ofBits .f32 w := rfl

/-- The constant 0, broadcast: real at every index. -/
theorem finite_bcast_zero {s : Shape} (t : Shape) (dims : Fin s.rank → Fin t.rank) (h : s.BroadcastsInDim t dims) :
    ∀ j, ∃ r : ℝ, broadcastInDim t dims h (constant (F := Ideal) s .f32 0x00000000#32) j = (r : EReal) :=
  fun j => ⟨0, (bcast_const_apply t dims h _ j).trans ofBits_zero_real⟩

/-- The constant 1, broadcast: real at every index. -/
theorem finite_bcast_one {s : Shape} (t : Shape) (dims : Fin s.rank → Fin t.rank) (h : s.BroadcastsInDim t dims) :
    ∀ j, ∃ r : ℝ, broadcastInDim t dims h (constant (F := Ideal) s .f32 0x3F800000#32) j = (r : EReal) :=
  fun j => ⟨1, (bcast_const_apply t dims h _ j).trans ofBits_one⟩

/-- The reciprocal square root of max(1, B), entry by entry, is real whatever the vector B is. -/
theorem finite_hostRsqrt_clamp {s : Shape} (t : Shape) (dims : Fin s.rank → Fin t.rank) (h : s.BroadcastsInDim t dims)
    (B : FVec Ideal t .f32) :
    ∀ j, ∃ r : ℝ, Host.rsqrt (maximumf (broadcastInDim t dims h (id (constant (F := Ideal) s .f32 0x3F800000#32))) B) j
      = (r : EReal) :=
  fun j => finite_rsqrt_clamp (B j)

end Cert.Spec

end
-- ==== Proof.ArrFinite.lean ====
import proofs.«133934_j19997367730796_1_alg».proof.Proof.Net

/-!
  An array of node features read by row and column has real entries exactly when the array has real entries at every
  index: every index is a (row, column) pair.  Stated for an arbitrary array, so that it is only ever instantiated.
-/

noncomputable section

namespace Cert.Spec

open Idealize.ShloMosaic Idealize.ShloMosaic.ValueIdx

/-- Reading by row and column is reading at the pair index. -/
theorem toMat_apply {a b : Nat} (A : Arr2 a b) (r : Fin a) (k : Fin b) : toMat A r k = A (ix2 r k) := rfl

/-- If every entry read by row and column is real, every entry of the array is real. -/
theorem all_real_of_finiteMat {A : Arr2 100000 64} (h : FiniteMat (toMat A)) : ∀ i, ∃ x : ℝ, A i = (x : EReal) :=
  fun i => by rw [eq_ix2 i]; exact h (i 0) (i 1)

/-- If every entry of the array is real, every entry read by row and column is real. -/
theorem finiteMat_of_all_real {A : Arr2 100000 64} (h : ∀ i, ∃ x : ℝ, A i = (x : EReal)) : FiniteMat (toMat A) :=
  fun r c => by rw [toMat_apply]; exact h (ix2 r c)

end Cert.Spec

end
-- ==== Proof.KAggFinite.lean ====
import proofs.«133934_j19997367730796_1_alg».proof.Proof.KAgg
import proofs.«133934_j19997367730796_1_alg».proof.Proof.FiniteOps
import proofs.«133934_j19997367730796_1_alg».proof.Proof.ArrFinite

/-!
  The sparse aggregation maps finite feature arrays to finite feature arrays.  A node's scaling factor is the reciprocal
  square root of max(1, degree): a real whatever the degree count is.  The aggregation multiplies each row by such a factor,
  gathers rows (a re-indexing), adds finitely many of them into a zero array (a finite sum of reals), and multiplies by
  another such factor: reals throughout.
-/

noncomputable section

namespace Cert.KernelIdeal.KChase

open Idealize.ShloMosaic
open Cert.KernelIdeal Cert.KernelIdeal.Gen
open Cert.Spec

/-- Every node's scaling factor is a real number. -/
theorem finite_degCol (idx : IVec S1600000 32) : ∀ i, ∃ r : ℝ, degCol idx i = (r : EReal) := by
  unfold degCol
  exact finite_broadcastInDim _ _ _ _ (finite_hostRsqrt_clamp _ _ _ _)

/-- With real scaling factors, the aggregation of a finite array is finite. -/
theorem finite_aggCore (h : FVec Ideal S100000x64 .f32) (ro ri : FVec Ideal S100000x1 .f32) (src dst : IVec S1600000 32)
    (hh : ∀ i, ∃ r : ℝ, h i = (r : EReal)) (hro : ∀ i, ∃ r : ℝ, ro i = (r : EReal))
    (hri : ∀ i, ∃ r : ℝ, ri i = (r : EReal)) : ∀ i, ∃ r : ℝ, aggCore h ro ri src dst i = (r : EReal) := by
  unfold aggCore
  exact finite_mulf _ _
    (finite_scatterAdd _ _ _ _ (finite_bcast_zero _ _ _)
      (finite_gather _ _ _ (finite_mulf _ _ hh (finite_broadcastInDim _ _ _ _ hro))))
    (finite_broadcastInDim _ _ _ _ hri)

/-- The aggregation along the graph of a finite array is finite. -/
theorem finite_aggK (src dst : IVec S1600000 32) (h : FVec Ideal S100000x64 .f32)
    (hh : ∀ i, ∃ r : ℝ, h i = (r : EReal)) : ∀ i, ∃ r : ℝ, aggK src dst h i = (r : EReal) := by
  unfold aggK
  exact finite_aggCore h (degCol src) (degCol dst) src dst hh (finite_degCol src) (finite_degCol dst)

/-- The same, read by row and column. -/
theorem hagg_aggK (src dst : IVec S1600000 32) :
    ∀ h : Cert.Spec.Arr2 100000 64, Cert.Spec.FiniteMat (Cert.Spec.toMat h) →
      Cert.Spec.FiniteMat (Cert.Spec.toMat (aggK src dst h)) :=
  fun h hh => finiteMat_of_all_real (finite_aggK src dst h (all_real_of_finiteMat hh))

end Cert.KernelIdeal.KChase

end
-- ==== Proof.Bridge.lean ====
/-
  The two variance formulas meet: on argument arrays of real numbers, the specification's network with the kernel's
  aggregation and the mean of squares minus the squared mean is the reference's result, whose variance is the mean of
  squared deviations — the reference's result read at an index, the two programs' aggregation being one function, and the
  variance law carried through the network.
-/
import proofs.«133934_j19997367730796_1_alg».proof.Proof.RefRead
import proofs.«133934_j19997367730796_1_alg».proof.Proof.AggEq
import proofs.«133934_j19997367730796_1_alg».proof.Proof.NetLaw
import proofs.«133934_j19997367730796_1_alg».proof.Proof.KAggFinite

noncomputable section

namespace Cert.Bridge

open Idealize.ShloMosaic Idealize.ShloMosaic.ValueIdx Cert.ReferenceIdeal

/-- On arguments of real numbers the network with the kernel's aggregation and the mean-of-squares variance is the
    reference's result at (0, class). -/
theorem net_eq_refOut (a0 : FVec Ideal S100000x64 .f32) (a1 a2 : IVec S1600000 32) (a3 : FVec Ideal S64x64 .f32)
    (a4 a5 a6 : FVec Ideal S64 .f32) (a7 : FVec Ideal S64x64 .f32) (a8 a9 a10 : FVec Ideal S64 .f32)
    (a11 : FVec Ideal S64x2 .f32) (a12 : FVec Ideal S2 .f32)
    (h0 : ∀ i, ∃ r : ℝ, a0 i = (r : EReal)) (h3 : ∀ i, ∃ r : ℝ, a3 i = (r : EReal)) (h4 : ∀ i, ∃ r : ℝ, a4 i = (r : EReal))
    (h5 : ∀ i, ∃ r : ℝ, a5 i = (r : EReal)) (h6 : ∀ i, ∃ r : ℝ, a6 i = (r : EReal)) (h7 : ∀ i, ∃ r : ℝ, a7 i = (r : EReal))
    (h8 : ∀ i, ∃ r : ℝ, a8 i = (r : EReal)) (h9 : ∀ i, ∃ r : ℝ, a9 i = (r : EReal)) (h10 : ∀ i, ∃ r : ℝ, a10 i = (r : EReal)) (j : Fin 2) :
    Cert.Spec.net (Cert.KernelIdeal.KChase.aggK a1 a2) Cert.Spec.varSq a0 a3 a4 a5 a6 a7 a8 a9 a10 a11 a12 j
      = Cert.ReferenceIdeal.RefValue.refOut (F := Ideal) a0 a1 a2 a3 a4 a5 a6 a7 a8 a9 a10 a11 a12 (ix2 (0 : Fin 1) j) := by
  rw [Cert.ReferenceIdeal.RefValue.refOut_apply, Cert.AggEq.agg_eq,
    Cert.Spec.net_varSq_eq_varDev (Cert.KernelIdeal.KChase.aggK a1 a2) (Cert.KernelIdeal.KChase.hagg_aggK a1 a2)
      a0 a3 a4 a5 a6 a7 a8 a9 a10 a11 a12 h0 h3 h4 h5 h6 h7 h8 h9 h10]

end Cert.Bridge

end
-- ==== Proof.KChase.lean ====
import proofs.«133934_j19997367730796_1_alg».proof.Proof.Gen.KernelIdeal.Frame
import proofs.«133934_j19997367730796_1_alg».proof.Proof.KAgg
import Idealize.ShloMosaic.PureOps.Ideal
import Idealize.ShloMosaic.Lib.StableHlo.Run
import Idealize.ShloMosaic.Lib.ValueIdx
import Idealize.ShloMosaic.Lib.Pipeline.Value
import Idealize.ShloMosaic.Lib.ValueLayout
set_option maxRecDepth 16384

noncomputable section

/-!
  What the device's buffers hold at the boundaries between the idealized kernel's segments, read back to the launch memory.

  Each boundary's contents are a fold over the host operations run so far (and, across a kernel launch, the launch's arrays at what
  its write-backs leave). Reading the fold at a buffer gives that buffer's value as a term over the previous boundary; a buffer
  that a stretch does not write, or that is none of a launch's arrays, is carried unchanged.
-/
namespace Cert.KernelIdeal.KChase

open Idealize.ShloMosaic Idealize.ShloMosaic.TcCoe Idealize.ShloMosaic.Tactic
open Idealize.SL Idealize.SL.Sem
open Cert.KernelIdeal Cert.KernelIdeal.Gen
open Idealize.ShloMosaic.StableHlo

section AnyInstance
variable {F : FTy → Type} [FloatOps F]

/-! ## The clamp's three operations at their buffers' own types

The outlined clamp `max (broadcast lo) x` is printed through typed references; here its three operations are spelt directly at the
buffers' types, which is the same list. -/

/-- The first clamp (of the out-degree counts). -/
abbrev clip0 : List (HloOp τ sig (Elt F)) :=
  [ StableHlo.unary main_cst_1 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.binary main_call0_v1 main_v3 main_v4 (maximumf : (⟨S100000, .f32⟩ : BufTy).Contents (Elt F) → (⟨S100000, .f32⟩ : BufTy).Contents (Elt F) → (⟨S100000, .f32⟩ : BufTy).Contents (Elt F)) ]
/-- The second clamp (of the in-degree counts). -/
abbrev clip1 : List (HloOp τ sig (Elt F)) :=
  [ StableHlo.unary main_cst_3 main_call1_v0 (id : (⟨S_, .f32⟩ : BufTy).Contents (Elt F) → (⟨S_, .f32⟩ : BufTy).Contents (Elt F)),
    StableHlo.unary main_call1_v0 main_call1_v1 (broadcastInDim S100000 ![] bcast_S_S100000 : (⟨S_, .f32⟩ : BufTy).Contents (Elt F) → (⟨S100000, .f32⟩ : BufTy).Contents (Elt F)),
    StableHlo.binary main_call1_v1 main_v7 main_v8 (maximumf : (⟨S100000, .f32⟩ : BufTy).Contents (Elt F) → (⟨S100000, .f32⟩ : BufTy).Contents (Elt F) → (⟨S100000, .f32⟩ : BufTy).Contents (Elt F)) ]

set_option maxRecDepth 8192 in
set_option maxHeartbeats 4000000 in
theorem clip0_eq : (hostOps0_1 : List (HloOp τ sig (Elt F))) = clip0 := rfl
set_option maxRecDepth 8192 in
set_option maxHeartbeats 4000000 in
theorem clip1_eq : (hostOps0_3 : List (HloOp τ sig (Elt F))) = clip1 := rfl

/-- The contents when the first kernel is launched, as one fold from the launch memory over cast-free lists. -/
theorem W5_eq (m : (ℓ : Loc nD τ sig) → Buf (Elt F) ℓ) (ρ : Dev nD → PrngReg) (c : Dev nD) : W5 m ρ c = StableHlo.after hostOps0_4 (StableHlo.after clip1 (StableHlo.after hostOps0_2
    (StableHlo.after clip0 (StableHlo.after hostOps0 (W0 m ρ c))))) := by
  show StableHlo.after hostOps0_4 (StableHlo.after hostOps0_3 (StableHlo.after hostOps0_2
    (StableHlo.after hostOps0_1 (StableHlo.after hostOps0 (W0 m ρ c))))) = _
  rw [clip0_eq, clip1_eq]

end AnyInstance

variable (m : (ℓ : Loc nD τ sig) → Buf (Elt Ideal) ℓ) (ρ : Dev nD → PrngReg) (c : Dev nD)

/-! ## The contents when the first kernel is launched -/

theorem W5_v10 : (W5 m ρ c (Proc.devRef .tc main_v10) : S100000x1.Idx → EReal) = degCol (m ((c : Thread nD τ).loc main_arg1)) := by
  rw [W5_eq]; after_results_simp <;> rfl
theorem W5_v12 : (W5 m ρ c (Proc.devRef .tc main_v12) : S100000x1.Idx → EReal) = degCol (m ((c : Thread nD τ).loc main_arg2)) := by
  rw [W5_eq]; after_results_simp <;> rfl
theorem W5_v32 : (W5 m ρ c (Proc.devRef .tc main_v32) : S100000x64.Idx → EReal) = aggK (m ((c : Thread nD τ).loc main_arg1)) (m ((c : Thread nD τ).loc main_arg2)) (m ((c : Thread nD τ).loc main_arg0)) := by
  rw [W5_eq]; after_results_simp <;> rfl
theorem W5_arg1 : W5 m ρ c (Proc.devRef .tc main_arg1) = (m ((c : Thread nD τ).loc main_arg1)) := by
  rw [W5_eq]; after_results_simp <;> rfl
theorem W5_arg2 : W5 m ρ c (Proc.devRef .tc main_arg2) = (m ((c : Thread nD τ).loc main_arg2)) := by
  rw [W5_eq]; after_results_simp <;> rfl
theorem W5_arg3 : W5 m ρ c (Proc.devRef .tc main_arg3) = (m ((c : Thread nD τ).loc main_arg3)) := by
  rw [W5_eq]; after_results_simp <;> rfl
theorem W5_arg7 : W5 m ρ c (Proc.devRef .tc main_arg7) = (m ((c : Thread nD τ).loc main_arg7)) := by
  rw [W5_eq]; after_results_simp <;> rfl
theorem W5_arg11 : W5 m ρ c (Proc.devRef .tc main_arg11) = (m ((c : Thread nD τ).loc main_arg11)) := by
  rw [W5_eq]; after_results_simp <;> rfl
theorem W5_arg12 : W5 m ρ c (Proc.devRef .tc main_arg12) = (m ((c : Thread nD τ).loc main_arg12)) := by
  rw [W5_eq]; after_results_simp <;> rfl
theorem W5_v13 : (W5 m ρ c (Proc.devRef .tc main_v13) : S1x64.Idx → EReal) = shapeCast S1x64 (m ((c : Thread nD τ).loc main_arg4)) shapeCasts_S64_S1x64 := by
  rw [W5_eq]; after_results_simp <;> rfl
theorem W5_v14 : (W5 m ρ c (Proc.devRef .tc main_v14) : S1x64.Idx → EReal) = shapeCast S1x64 (m ((c : Thread nD τ).loc main_arg5)) shapeCasts_S64_S1x64 := by
  rw [W5_eq]; after_results_simp <;> rfl
theorem W5_v15 : (W5 m ρ c (Proc.devRef .tc main_v15) : S1x64.Idx → EReal) = shapeCast S1x64 (m ((c : Thread nD τ).loc main_arg6)) shapeCasts_S64_S1x64 := by
  rw [W5_eq]; after_results_simp <;> rfl
theorem W5_v16 : (W5 m ρ c (Proc.devRef .tc main_v16) : S1x64.Idx → EReal) = shapeCast S1x64 (m ((c : Thread nD τ).loc main_arg8)) shapeCasts_S64_S1x64 := by
  rw [W5_eq]; after_results_simp <;> rfl
theorem W5_v17 : (W5 m ρ c (Proc.devRef .tc main_v17) : S1x64.Idx → EReal) = shapeCast S1x64 (m ((c : Thread nD τ).loc main_arg9)) shapeCasts_S64_S1x64 := by
  rw [W5_eq]; after_results_simp <;> rfl
theorem W5_v18 : (W5 m ρ c (Proc.devRef .tc main_v18) : S1x64.Idx → EReal) = shapeCast S1x64 (m ((c : Thread nD τ).loc main_arg10)) shapeCasts_S64_S1x64 := by
  rw [W5_eq]; after_results_simp <;> rfl

/-! ## Buffers carried unchanged to a later boundary -/

theorem carry7_main_v14 : W7 m ρ c (Proc.devRef .tc main_v14) = W5 m ρ c (Proc.devRef .tc main_v14) := by
  rw [show W7 m ρ c (Proc.devRef .tc main_v14) = W6 m ρ c (Proc.devRef .tc main_v14) from by
    show StableHlo.after hostOps1 (W6 m ρ c) (Proc.devRef .tc main_v14) = _; after_results_simp]
  rw [W6_of_ne m ρ c main_v14 (by decide)]
theorem carry7_main_v15 : W7 m ρ c (Proc.devRef .tc main_v15) = W5 m ρ c (Proc.devRef .tc main_v15) := by
  rw [show W7 m ρ c (Proc.devRef .tc main_v15) = W6 m ρ c (Proc.devRef .tc main_v15) from by
    show StableHlo.after hostOps1 (W6 m ρ c) (Proc.devRef .tc main_v15) = _; after_results_simp]
  rw [W6_of_ne m ρ c main_v15 (by decide)]
theorem carry8_main_v10 : W8 m ρ c (Proc.devRef .tc main_v10) = W5 m ρ c (Proc.devRef .tc main_v10) := by
  rw [W8_of_ne m ρ c main_v10 (by decide)]
  rw [show W7 m ρ c (Proc.devRef .tc main_v10) = W6 m ρ c (Proc.devRef .tc main_v10) from by
    show StableHlo.after hostOps1 (W6 m ρ c) (Proc.devRef .tc main_v10) = _; after_results_simp]
  rw [W6_of_ne m ρ c main_v10 (by decide)]
theorem carry8_main_v12 : W8 m ρ c (Proc.devRef .tc main_v12) = W5 m ρ c (Proc.devRef .tc main_v12) := by
  rw [W8_of_ne m ρ c main_v12 (by decide)]
  rw [show W7 m ρ c (Proc.devRef .tc main_v12) = W6 m ρ c (Proc.devRef .tc main_v12) from by
    show StableHlo.after hostOps1 (W6 m ρ c) (Proc.devRef .tc main_v12) = _; after_results_simp]
  rw [W6_of_ne m ρ c main_v12 (by decide)]
theorem carry8_main_arg1 : W8 m ρ c (Proc.devRef .tc main_arg1) = W5 m ρ c (Proc.devRef .tc main_arg1) := by
  rw [W8_of_ne m ρ c main_arg1 (by decide)]
  rw [show W7 m ρ c (Proc.devRef .tc main_arg1) = W6 m ρ c (Proc.devRef .tc main_arg1) from by
    show StableHlo.after hostOps1 (W6 m ρ c) (Proc.devRef .tc main_arg1) = _; after_results_simp]
  rw [W6_of_ne m ρ c main_arg1 (by decide)]
theorem carry8_main_arg2 : W8 m ρ c (Proc.devRef .tc main_arg2) = W5 m ρ c (Proc.devRef .tc main_arg2) := by
  rw [W8_of_ne m ρ c main_arg2 (by decide)]
  rw [show W7 m ρ c (Proc.devRef .tc main_arg2) = W6 m ρ c (Proc.devRef .tc main_arg2) from by
    show StableHlo.after hostOps1 (W6 m ρ c) (Proc.devRef .tc main_arg2) = _; after_results_simp]
  rw [W6_of_ne m ρ c main_arg2 (by decide)]
theorem carry9_main_arg7 : W9 m ρ c (Proc.devRef .tc main_arg7) = W5 m ρ c (Proc.devRef .tc main_arg7) := by
  rw [show W9 m ρ c (Proc.devRef .tc main_arg7) = W8 m ρ c (Proc.devRef .tc main_arg7) from by
    show StableHlo.after hostOps2 (W8 m ρ c) (Proc.devRef .tc main_arg7) = _; after_results_simp]
  rw [W8_of_ne m ρ c main_arg7 (by decide)]
  rw [show W7 m ρ c (Proc.devRef .tc main_arg7) = W6 m ρ c (Proc.devRef .tc main_arg7) from by
    show StableHlo.after hostOps1 (W6 m ρ c) (Proc.devRef .tc main_arg7) = _; after_results_simp]
  rw [W6_of_ne m ρ c main_arg7 (by decide)]
theorem carry9_main_v16 : W9 m ρ c (Proc.devRef .tc main_v16) = W5 m ρ c (Proc.devRef .tc main_v16) := by
  rw [show W9 m ρ c (Proc.devRef .tc main_v16) = W8 m ρ c (Proc.devRef .tc main_v16) from by
    show StableHlo.after hostOps2 (W8 m ρ c) (Proc.devRef .tc main_v16) = _; after_results_simp]
  rw [W8_of_ne m ρ c main_v16 (by decide)]
  rw [show W7 m ρ c (Proc.devRef .tc main_v16) = W6 m ρ c (Proc.devRef .tc main_v16) from by
    show StableHlo.after hostOps1 (W6 m ρ c) (Proc.devRef .tc main_v16) = _; after_results_simp]
  rw [W6_of_ne m ρ c main_v16 (by decide)]
theorem carry11_main_v17 : W11 m ρ c (Proc.devRef .tc main_v17) = W5 m ρ c (Proc.devRef .tc main_v17) := by
  rw [show W11 m ρ c (Proc.devRef .tc main_v17) = W10 m ρ c (Proc.devRef .tc main_v17) from by
    show StableHlo.after hostOps3 (W10 m ρ c) (Proc.devRef .tc main_v17) = _; after_results_simp]
  rw [W10_of_ne m ρ c main_v17 (by decide)]
  rw [show W9 m ρ c (Proc.devRef .tc main_v17) = W8 m ρ c (Proc.devRef .tc main_v17) from by
    show StableHlo.after hostOps2 (W8 m ρ c) (Proc.devRef .tc main_v17) = _; after_results_simp]
  rw [W8_of_ne m ρ c main_v17 (by decide)]
  rw [show W7 m ρ c (Proc.devRef .tc main_v17) = W6 m ρ c (Proc.devRef .tc main_v17) from by
    show StableHlo.after hostOps1 (W6 m ρ c) (Proc.devRef .tc main_v17) = _; after_results_simp]
  rw [W6_of_ne m ρ c main_v17 (by decide)]
theorem carry11_main_v18 : W11 m ρ c (Proc.devRef .tc main_v18) = W5 m ρ c (Proc.devRef .tc main_v18) := by
  rw [show W11 m ρ c (Proc.devRef .tc main_v18) = W10 m ρ c (Proc.devRef .tc main_v18) from by
    show StableHlo.after hostOps3 (W10 m ρ c) (Proc.devRef .tc main_v18) = _; after_results_simp]
  rw [W10_of_ne m ρ c main_v18 (by decide)]
  rw [show W9 m ρ c (Proc.devRef .tc main_v18) = W8 m ρ c (Proc.devRef .tc main_v18) from by
    show StableHlo.after hostOps2 (W8 m ρ c) (Proc.devRef .tc main_v18) = _; after_results_simp]
  rw [W8_of_ne m ρ c main_v18 (by decide)]
  rw [show W7 m ρ c (Proc.devRef .tc main_v18) = W6 m ρ c (Proc.devRef .tc main_v18) from by
    show StableHlo.after hostOps1 (W6 m ρ c) (Proc.devRef .tc main_v18) = _; after_results_simp]
  rw [W6_of_ne m ρ c main_v18 (by decide)]
theorem carry12_main_arg11 : W12 m ρ c (Proc.devRef .tc main_arg11) = W5 m ρ c (Proc.devRef .tc main_arg11) := by
  rw [W12_of_ne m ρ c main_arg11 (by decide)]
  rw [show W11 m ρ c (Proc.devRef .tc main_arg11) = W10 m ρ c (Proc.devRef .tc main_arg11) from by
    show StableHlo.after hostOps3 (W10 m ρ c) (Proc.devRef .tc main_arg11) = _; after_results_simp]
  rw [W10_of_ne m ρ c main_arg11 (by decide)]
  rw [show W9 m ρ c (Proc.devRef .tc main_arg11) = W8 m ρ c (Proc.devRef .tc main_arg11) from by
    show StableHlo.after hostOps2 (W8 m ρ c) (Proc.devRef .tc main_arg11) = _; after_results_simp]
  rw [W8_of_ne m ρ c main_arg11 (by decide)]
  rw [show W7 m ρ c (Proc.devRef .tc main_arg11) = W6 m ρ c (Proc.devRef .tc main_arg11) from by
    show StableHlo.after hostOps1 (W6 m ρ c) (Proc.devRef .tc main_arg11) = _; after_results_simp]
  rw [W6_of_ne m ρ c main_arg11 (by decide)]
theorem carry12_main_arg12 : W12 m ρ c (Proc.devRef .tc main_arg12) = W5 m ρ c (Proc.devRef .tc main_arg12) := by
  rw [W12_of_ne m ρ c main_arg12 (by decide)]
  rw [show W11 m ρ c (Proc.devRef .tc main_arg12) = W10 m ρ c (Proc.devRef .tc main_arg12) from by
    show StableHlo.after hostOps3 (W10 m ρ c) (Proc.devRef .tc main_arg12) = _; after_results_simp]
  rw [W10_of_ne m ρ c main_arg12 (by decide)]
  rw [show W9 m ρ c (Proc.devRef .tc main_arg12) = W8 m ρ c (Proc.devRef .tc main_arg12) from by
    show StableHlo.after hostOps2 (W8 m ρ c) (Proc.devRef .tc main_arg12) = _; after_results_simp]
  rw [W8_of_ne m ρ c main_arg12 (by decide)]
  rw [show W7 m ρ c (Proc.devRef .tc main_arg12) = W6 m ρ c (Proc.devRef .tc main_arg12) from by
    show StableHlo.after hostOps1 (W6 m ρ c) (Proc.devRef .tc main_arg12) = _; after_results_simp]
  rw [W6_of_ne m ρ c main_arg12 (by decide)]

/-! ## The host operations between the launches -/

/-- The row of ones hundred thousand the statistics are divided by. -/
abbrev nRow : FVec Ideal S1x64 .f32 := broadcastInDim S1x64 ![] bcast_S_S1x64 (constant S_ .f32 0x47C35000#32)
/-- The row of ε added to a variance. -/
abbrev epsRow : FVec Ideal S1x64 .f32 := broadcastInDim S1x64 ![] bcast_S_S1x64 (constant S_ .f32 0x3727C5AC#32)

theorem W7_v33_0 : W7 m ρ c (Proc.devRef .tc main_v33_0) = W6 m ρ c (Proc.devRef .tc main_v33_0) := by
  show StableHlo.after hostOps1 (W6 m ρ c) (Proc.devRef .tc main_v33_0) = _; after_results_simp
theorem W7_v35 : (W7 m ρ c (Proc.devRef .tc main_v35) : S1x64.Idx → EReal) = Host.divf (W6 m ρ c (Proc.devRef .tc main_v33_1)) nRow := by
  show StableHlo.after hostOps1 (W6 m ρ c) (Proc.devRef .tc main_v35) = _; after_results_simp <;> rfl
theorem W7_v42 : (W7 m ρ c (Proc.devRef .tc main_v42) : S1x64.Idx → EReal)
    = Host.rsqrt (addf (subf (Host.divf (W6 m ρ c (Proc.devRef .tc main_v33_2)) nRow)
        (mulf (Host.divf (W6 m ρ c (Proc.devRef .tc main_v33_1)) nRow) (Host.divf (W6 m ρ c (Proc.devRef .tc main_v33_1)) nRow))) epsRow) := by
  show StableHlo.after hostOps1 (W6 m ρ c) (Proc.devRef .tc main_v42) = _; after_results_simp <;> rfl
theorem W9_v57 : (W9 m ρ c (Proc.devRef .tc main_v57) : S100000x64.Idx → EReal)
    = aggCore (W8 m ρ c (Proc.devRef .tc main_v43)) (W8 m ρ c (Proc.devRef .tc main_v10)) (W8 m ρ c (Proc.devRef .tc main_v12)) (W8 m ρ c (Proc.devRef .tc main_arg1)) (W8 m ρ c (Proc.devRef .tc main_arg2)) := by
  show StableHlo.after hostOps2 (W8 m ρ c) (Proc.devRef .tc main_v57) = _; after_results_simp <;> rfl
theorem W11_v58_0 : W11 m ρ c (Proc.devRef .tc main_v58_0) = W10 m ρ c (Proc.devRef .tc main_v58_0) := by
  show StableHlo.after hostOps3 (W10 m ρ c) (Proc.devRef .tc main_v58_0) = _; after_results_simp
theorem W11_v60 : (W11 m ρ c (Proc.devRef .tc main_v60) : S1x64.Idx → EReal) = Host.divf (W10 m ρ c (Proc.devRef .tc main_v58_1)) nRow := by
  show StableHlo.after hostOps3 (W10 m ρ c) (Proc.devRef .tc main_v60) = _; after_results_simp <;> rfl
theorem W11_v67 : (W11 m ρ c (Proc.devRef .tc main_v67) : S1x64.Idx → EReal)
    = Host.rsqrt (addf (subf (Host.divf (W10 m ρ c (Proc.devRef .tc main_v58_2)) nRow)
        (mulf (Host.divf (W10 m ρ c (Proc.devRef .tc main_v58_1)) nRow) (Host.divf (W10 m ρ c (Proc.devRef .tc main_v58_1)) nRow))) epsRow) := by
  show StableHlo.after hostOps3 (W10 m ρ c) (Proc.devRef .tc main_v67) = _; after_results_simp <;> rfl
theorem W13_v73 : (W13 m ρ c (Proc.devRef .tc main_v73) : S1x2.Idx → EReal)
    = addf (Host.dotGeneral (φ₁ := .f32) (φ₂ := .f32) dot_S1x64_S64x2_S1x2_1_0_0_1_n_n none (Host.divf (W12 m ρ c (Proc.devRef .tc main_v68)) nRow) (W12 m ρ c (Proc.devRef .tc main_arg11)))
        (broadcastInDim S1x2 ![1] bcast_S2_S1x2_1 (W12 m ρ c (Proc.devRef .tc main_arg12))) := by
  show StableHlo.after hostOps4 (W12 m ρ c) (Proc.devRef .tc main_v73) = _; after_results_simp <;> rfl

end Cert.KernelIdeal.KChase

end
-- ==== Proof.SpecApply.lean ====
/-
  The specification's maps read at an index: one-step unfoldings, stated for arbitrary arguments.
-/
import proofs.«133934_j19997367730796_1_alg».proof.Proof.Net
import proofs.«133934_j19997367730796_1_alg».proof.Proof.ArrFinite

noncomputable section

namespace Cert.Spec

open Idealize.ShloMosaic Idealize.ShloMosaic.ValueIdx

theorem ofMat_apply {a b : Nat} (M : Fin a → Fin b → EReal) (r : Fin a) (k : Fin b) : ofMat M (ix2 r k) = M r k := rfl
theorem toRow_apply {a : Nat} (v : Arr1 a) (k : Fin a) : toRow v k = v (ix1 k) := rfl
theorem mean_apply (Y : Mat) (c : Fin 64) : mean Y c = Ideal.div (colSum Y c) nE := rfl
theorem invStd_varSq_apply (Y : Mat) (c : Fin 64) :
    invStd (varSq Y) c
      = Ideal.rsqrt ((Ideal.div (∑ r : Fin 100000, Y r c * Y r c) nE - Ideal.div (colSum Y c) nE * Ideal.div (colSum Y c) nE) + epsE) := rfl
theorem head_apply (P : Row) (Wc : Fin 64 → Fin 2 → EReal) (bc : Fin 2 → EReal) (j : Fin 2) :
    head P Wc bc j = (∑ k : Fin 64, Ideal.div (P k) nE * Wc k j) + bc j := rfl

theorem lin_congr {M M' : Mat} {W W' : Fin 64 → Fin 64 → EReal} {b b' : Row} (hM : M = M') (hW : W = W') (hb : b = b') :
    lin M W b = lin M' W' b' := by subst hM hW hb; rfl
theorem bnRelu_congr {Y Y' : Mat} {mu mu' inv inv' g g' be be' : Row} (hY : Y = Y') (hmu : mu = mu') (hinv : inv = inv')
    (hg : g = g') (hbe : be = be') : bnRelu Y mu inv g be = bnRelu Y' mu' inv' g' be' := by
  subst hY hmu hinv hg hbe; rfl

end Cert.Spec

end
-- ==== Proof.Reg0Pieces.lean ====
/-
  What one run of the matmul-and-statistics body leaves in its three output blocks, as functions of the blocks it loads.

  The body loads a block `x0` of 5000 rows, the weight matrix `x1` and the bias row `x2`, and stores
    * into output 3 the block `y = x0 · x1 + x2`  (`k0_pay3`);
    * into output 4 the running column sums plus the column sums of `y`  (`k0_pay4`);
    * into output 5 the running column sums of squares plus the column sums of `y * y`  (`k0_pay5`).
  At the first grid point (case A) the two running rows are first overwritten with zeros (`k0_pay1`, `k0_pay2`) and then read
  back, so the running value is the zero row; at every other point (case B) it is what the point before left (`xo4`, `xo5`).
  Each statement holds at every float instance: nothing is computed here, the stores' pieces are only read back.
-/
import proofs.«133934_j19997367730796_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Reg0

open Cert.KernelIdeal Cert.KernelIdeal.Gen

variable {F : FTy → Type} [FloatOps F]

/-- Every store and load of the body starts at the origin of its block. -/
theorem hz : (![0, 0] : Fin 2 → Nat) = fun _ => 0 := funext fun a => by fin_cases a <;> rfl

/-- Output 3 at the first point: the block `x0 · x1 + x2`. -/
theorem out_A_3 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond0_0 i) (x0 : Vec F S5000x64 .f32) (x1 : Vec F S64x64 .f32) (x2 : Vec F S1x64 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, View.ld_unit_zero (S := S5000x64) hz, View.ld_unit_zero (S := S64x64) hz, View.ld_unit_zero (S := S1x64) hz]

/-- Output 3 at a later point: the same block, whatever the running rows hold. -/
theorem out_B_3 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond0_0 i) (x0 : Vec F S5000x64 .f32) (x1 : Vec F S64x64 .f32) (x2 : Vec F S1x64 .f32) (xo4 xo5 : Vec F S1x64 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, View.ld_unit_zero (S := S5000x64) hz, View.ld_unit_zero (S := S64x64) hz, View.ld_unit_zero (S := S1x64) hz]

/-- Output 4 at a later point: the running sums `xo4` plus this block's column sums. -/
theorem out_B_4 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond0_0 i) (x0 : Vec F S5000x64 .f32) (x1 : Vec F S64x64 .f32) (x2 : Vec F S1x64 .f32) (xo4 xo5 : Vec F S1x64 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, View.ld_unit_zero (S := S5000x64) hz, View.ld_unit_zero (S := S64x64) hz, View.ld_unit_zero (S := S1x64) hz]

/-- Output 5 at a later point: the running sums of squares `xo5` plus this block's column sums of squares. -/
theorem out_B_5 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond0_0 i) (x0 : Vec F S5000x64 .f32) (x1 : Vec F S64x64 .f32) (x2 : Vec F S1x64 .f32) (xo4 xo5 : Vec F S1x64 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h6.read_unread, View.ld_unit_zero (S := S5000x64) hz, View.ld_unit_zero (S := S64x64) hz, View.ld_unit_zero (S := S1x64) hz]

/-- Output 4 at the first point: the zero row is stored, read back, and this block's column sums are added to it. -/
theorem out_A_4 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond0_0 i) (x0 : Vec F S5000x64 .f32) (x1 : Vec F S64x64 .f32) (x2 : Vec F S1x64 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S5000x64) hz, View.ld_unit_zero (S := S64x64) hz, View.ld_unit_zero (S := S1x64) hz]

/-- Output 5 at the first point: likewise for the sums of squares. -/
theorem out_A_5 (c : Dev nD) (i : grid0.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond0_0 i) (x0 : Vec F S5000x64 .f32) (x1 : Vec F S64x64 .f32) (x2 : Vec F S1x64 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S5000x64) hz, View.ld_unit_zero (S := S64x64) hz, View.ld_unit_zero (S := S1x64) hz]

end Cert.KernelIdeal.Reg0

end
-- ==== Proof.Reg0Pay.lean ====
/-
  The body's three stored values read at an index, over the extended reals.

  With `x` the loaded 5000×64 block, `w` the 64×64 weights and `β` the 1×64 bias row, the stored block is
      y p j = (∑ k, x p k * w k j) + β j
  (rounding the operands to bf16 before the product is the identity on extended reals, and the product accumulates into
  the zero block), and the two running rows become
      s j  ↦  s j + ∑ p, y p j          q j  ↦  q j + ∑ p, y p j * y p j,
  the sums over the block's 5000 rows. The rows stored at the first point before accumulating are zero.
-/
import proofs.«133934_j19997367730796_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Reg0

open Cert.KernelIdeal Cert.KernelIdeal.Gen

/-- The body's product: rows of a 5000×64 block against the 64×64 weights, contracting the block's columns with the
    weights' rows. -/
abbrev D0 : DotDims S5000x64 S64x64 S5000x64 := dot_S5000x64_S64x64_S5000x64_1_0_0_1_n_n

/-- The left operand is read at the output's row … -/
theorem lhs_row (i : S5000x64.Idx) (q : D0.contr.Idx) : (D0.lhsIdx i q 0).val = (i 0).val := by
  unfold DotDims.lhsIdx
  rw [dif_neg (show ¬(0 : Fin S5000x64.rank) ∈ D0.lhsBatch by decide),
    dif_pos (show (0 : Fin S5000x64.rank) ∈ D0.lhsNonContracting by decide)]
  rfl
/-- … and the contraction position, -/
theorem lhs_col (i : S5000x64.Idx) (q : D0.contr.Idx) : (D0.lhsIdx i q 1).val = (q ⟨0, by decide⟩).val :=
  D0.lhsIdx_val_of_single rfl i q
/-- the right operand at the contraction position … -/
theorem rhs_row (i : S5000x64.Idx) (q : D0.contr.Idx) : (D0.rhsIdx i q 0).val = (q ⟨0, by decide⟩).val :=
  D0.rhsIdx_val_of_single rfl i q
/-- … and the output's column. -/
theorem rhs_col (i : S5000x64.Idx) (q : D0.contr.Idx) : (D0.rhsIdx i q 1).val = (i 1).val := by
  unfold DotDims.rhsIdx
  rw [dif_neg (show ¬(1 : Fin S64x64.rank) ∈ D0.rhsBatch by decide),
    dif_pos (show (1 : Fin S64x64.rank) ∈ D0.rhsNonContracting by decide)]
  rfl

/-- The product into the zero block, at row `p` and column `j`: the sum over the 64 contraction positions. -/
theorem matmul_ix (l : FVec Ideal S5000x64 .bf16) (r : FVec Ideal S64x64 .bf16) (p : Fin 5000) (j : Fin 64) :
    matmul D0 none l r (constant (F := Ideal) S5000x64 .f32 0x00000000#32) (ix2 p j)
      = ∑ k : Fin 64, l (ix2 p k) * r (ix2 k j) := by
  simp only [matmul]
  rw [Ideal.matmul_constant_zero_apply, ← Equiv.sum_comp (contrEquiv1 D0 64 rfl rfl).symm]
  refine Finset.sum_congr rfl fun k _ => ?_
  have hk := contrEquiv1_symm_val D0 64 rfl rfl k
  have el : D0.lhsIdx (ix2 p j) ((contrEquiv1 D0 64 rfl rfl).symm k) = ix2 p k := funext fun a => Fin.ext (by
    match a with
    | ⟨0, _⟩ => exact lhs_row _ _
    | ⟨1, _⟩ => exact (lhs_col _ _).trans hk)
  have er : D0.rhsIdx (ix2 p j) ((contrEquiv1 D0 64 rfl rfl).symm k) = ix2 k j := funext fun a => Fin.ext (by
    match a with
    | ⟨0, _⟩ => exact (rhs_row _ _).trans hk
    | ⟨1, _⟩ => exact rhs_col _ _)
  rw [el, er]

/-- The stored block at row `p`, column `j`: the row of the loaded block against the column of the weights, plus the bias.
    (The two roundings of the operands to bf16 are the identity on extended reals.) -/
theorem pay3_apply (v3 : Vec Ideal S5000x64 .f32) (v6 : Vec Ideal S64x64 .f32) (v9 : Vec Ideal S1x64 .f32) (p : Fin 5000) (j : Fin 64) :
    k0_pay3 (F := Ideal) v3 v6 v9 (ix2 p j) = (∑ k : Fin 64, v3 (ix2 p k) * v6 (ix2 k j)) + v9 (ix2 (0 : Fin 1) j) := by
  unfold k0_pay3
  simp only [shapeCast_self]
  refine (addf_apply _ _ _).trans ?_
  refine congrArg₂ (· + ·) ((matmul_ix _ _ p j).trans ?_) (broadcastTo_1b_ab_apply _ _ p j)
  rfl

/-- A sum over the rows of a 5000×64 block, column by column. -/
theorem colsum_ix (src : FVec Ideal S5000x64 .f32) (h : S5000x64.Reduces [0] S64) (hφ : FKind.Formats .f32)
    (hacc : (0x00000000#32 : BitVec 32) = 0x00000000#32) (j : Fin 64) :
    multiReduction (F := Ideal) .add [0] S64 src 0x00000000#32 h hφ hacc (ix1 j) = ∑ p : Fin 5000, src (ix2 p j) := by
  refine (Ideal.multiReduction_add_single src 0x00000000#32 h hφ hacc (ix1 j)).trans ?_
  refine Finset.sum_congr rfl fun p _ => congrArg src ?_
  funext a
  apply Fin.ext
  match a with
  | ⟨0, _⟩ => rfl
  | ⟨1, _⟩ => rfl

/-- The running column sums after the body: what they held plus the column sums of the stored block. -/
theorem pay4_apply (v3 : Vec Ideal S5000x64 .f32) (v6 : Vec Ideal S64x64 .f32) (v9 : Vec Ideal S1x64 .f32) (v14 : Vec Ideal S1x64 .f32) (j : Fin 64) :
    k0_pay4 (F := Ideal) v3 v6 v9 v14 (ix2 (0 : Fin 1) j)
      = v14 (ix2 (0 : Fin 1) j) + ∑ p : Fin 5000, k0_pay3 (F := Ideal) v3 v6 v9 (ix2 p j) := by
  unfold k0_pay4
  simp only [shapeCast_self]
  refine (addf_apply _ _ _).trans ?_
  refine congrArg (v14 (ix2 (0 : Fin 1) j) + ·) ?_
  refine (shapeCast_a_1a_apply _ _ (0 : Fin 1) j).trans ?_
  exact colsum_ix _ _ _ _ j

/-- The running column sums of squares after the body: what they held plus the column sums of the stored block's squares. -/
theorem pay5_apply (v3 : Vec Ideal S5000x64 .f32) (v6 : Vec Ideal S64x64 .f32) (v9 : Vec Ideal S1x64 .f32) (v20 : Vec Ideal S1x64 .f32) (j : Fin 64) :
    k0_pay5 (F := Ideal) v3 v6 v9 v20 (ix2 (0 : Fin 1) j)
      = v20 (ix2 (0 : Fin 1) j) + ∑ p : Fin 5000, k0_pay3 (F := Ideal) v3 v6 v9 (ix2 p j) * k0_pay3 (F := Ideal) v3 v6 v9 (ix2 p j) := by
  unfold k0_pay5
  simp only [shapeCast_self]
  refine (addf_apply _ _ _).trans ?_
  refine congrArg (v20 (ix2 (0 : Fin 1) j) + ·) ?_
  refine (shapeCast_a_1a_apply _ _ (0 : Fin 1) j).trans ?_
  exact (colsum_ix _ _ _ _ j).trans rfl

/-- The row the first point stores before accumulating is the zero row. -/
theorem pay1_apply (i : S1x64.Idx) : k0_pay1 (F := Ideal) i = 0 := by
  unfold k0_pay1
  exact Ideal.ofBits_zero_f32
theorem pay2_apply (i : S1x64.Idx) : k0_pay2 (F := Ideal) i = 0 := by
  unfold k0_pay2
  exact Ideal.ofBits_zero_f32

end Cert.KernelIdeal.Reg0

end
-- ==== Proof.Reg0Blocks.lean ====
/-
  The blocks the matmul-and-statistics region reads, as entries of the arrays it finds on entry.

  The grid has 20 points. At point `t` the rows window holds rows `5000 * t … 5000 * t + 4999` of the 100000×64 input
  (block index `(t, 0)`, block 5000×64), while the weights window (64×64) and the bias window (1×64) hold their whole arrays
  at every point (block index `(0, 0)`). The output rows window moves like the input rows window; the two statistics
  windows (1×64) stay at block `(0, 0)`. An element of a block sits in its array, on each axis, at the block index times the
  block size plus its own coordinate.
-/
import proofs.«133934_j19997367730796_1_alg».proof.Proof.Gen.KernelIdeal.Frame
import proofs.«133934_j19997367730796_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

/-- The rows entering the region, the weights and the bias, as the region finds them. -/
def rowsIn (c : Dev nD) : Cert.Spec.Mat := fun r k => V c (Pipeline.arrRef spec0 0) (ix2 r k)
def weights (c : Dev nD) : Fin 64 → Fin 64 → EReal := fun k j => V c (Pipeline.arrRef spec0 1) (ix2 k j)
def bias (c : Dev nD) : Cert.Spec.Row := fun j => V c (Pipeline.arrRef spec0 2) (ix2 (0 : Fin 1) j)

/-- The printed index maps, decided once over the grid's 20 points. -/
theorem idx_rows : ∀ t : Fin cfg0.N, win0_0.index t 0 = t.val ∧ win0_0.index t 1 = 0 :=
  (by decide +kernel : ∀ t : Fin grid0.N, win0_0.index t 0 = t.val ∧ win0_0.index t 1 = 0)
theorem idx_w : ∀ t : Fin cfg0.N, win0_1.index t 0 = 0 ∧ win0_1.index t 1 = 0 :=
  (by decide +kernel : ∀ t : Fin grid0.N, win0_1.index t 0 = 0 ∧ win0_1.index t 1 = 0)
theorem idx_b : ∀ t : Fin cfg0.N, win0_2.index t 0 = 0 ∧ win0_2.index t 1 = 0 :=
  (by decide +kernel : ∀ t : Fin grid0.N, win0_2.index t 0 = 0 ∧ win0_2.index t 1 = 0)

/-- The output rows window moves with the grid point; the two statistics windows do not move. -/
theorem idx_out : ∀ t : Fin cfg0.N, win0_3.index t 0 = t.val ∧ win0_3.index t 1 = 0 :=
  (by decide +kernel : ∀ t : Fin grid0.N, win0_3.index t 0 = t.val ∧ win0_3.index t 1 = 0)
theorem idx_sum : ∀ t : Fin cfg0.N, win0_4.index t 0 = 0 ∧ win0_4.index t 1 = 0 :=
  (by decide +kernel : ∀ t : Fin grid0.N, win0_4.index t 0 = 0 ∧ win0_4.index t 1 = 0)
theorem idx_sq : ∀ t : Fin cfg0.N, win0_5.index t 0 = 0 ∧ win0_5.index t 1 = 0 :=
  (by decide +kernel : ∀ t : Fin grid0.N, win0_5.index t 0 = 0 ∧ win0_5.index t 1 = 0)

/-- Row `p` of the rows block at point `t` is row `5000 * t + p` of the input. -/
theorem blk_rows (c : Dev nD) (t : Fin cfg0.N) (p : Fin 5000) (k : Fin 64) (R : Fin 100000) (hR : R.val = t.val * 5000 + p.val) :
    (iblk0 V c 0 t : Vec Ideal S5000x64 .f32) (ix2 p k) = rowsIn V c R k := by
  unfold iblk0 rowsIn
  rw [View.read_apply]
  show V c main_v32 _ = V c main_v32 _
  refine congrArg _ ?_
  funext a
  apply Fin.ext
  match a with
  | ⟨0, _⟩ => show win0_0.index t 0 * 5000 + 1 * p.val = R.val; rw [(idx_rows t).1, hR]; omega
  | ⟨1, _⟩ => show win0_0.index t 1 * 64 + 1 * k.val = k.val; rw [(idx_rows t).2]; omega

/-- The weights block is the weights array, at every point. -/
theorem blk_w (c : Dev nD) (t : Fin cfg0.N) (k j : Fin 64) :
    (iblk0 V c 1 t : Vec Ideal S64x64 .f32) (ix2 k j) = weights V c k j := by
  unfold iblk0 weights
  rw [View.read_apply]
  show V c main_arg3 _ = V c main_arg3 _
  refine congrArg _ ?_
  funext a
  apply Fin.ext
  match a with
  | ⟨0, _⟩ => show win0_1.index t 0 * 64 + 1 * k.val = k.val; rw [(idx_w t).1]; omega
  | ⟨1, _⟩ => show win0_1.index t 1 * 64 + 1 * j.val = j.val; rw [(idx_w t).2]; omega

/-- The bias block is the bias row, at every point. -/
theorem blk_b (c : Dev nD) (t : Fin cfg0.N) (j : Fin 64) :
    (iblk0 V c 2 t : Vec Ideal S1x64 .f32) (ix2 (0 : Fin 1) j) = bias V c j := by
  unfold iblk0 bias
  rw [View.read_apply]
  show V c main_v13 _ = V c main_v13 _
  refine congrArg _ ?_
  funext a
  apply Fin.ext
  match a with
  | ⟨0, _⟩ => show win0_2.index t 0 * 1 + 1 * 0 = 0; rw [(idx_b t).1]
  | ⟨1, _⟩ => show win0_2.index t 1 * 64 + 1 * j.val = j.val; rw [(idx_b t).2]; omega

end Cert.KernelIdeal.Reg0

end
-- ==== Proof.Reg0Arr3.lean ====
/-
  Output 3 of the matmul-and-statistics region: the linear layer of the entering rows.

  Every grid point stores, whatever case it is in, the block `x · w + β` of the rows block it loaded; its block is written back
  at every point, to rows `5000 * t … 5000 * t + 4999` of the output. Reading the loaded blocks as entries of the entering
  arrays, what point `t` writes back is block `t` of the one function `lin M W β` of a row and a column. The 20 blocks
  cover the 100000 rows (row `R` lies in block `R / 5000`), so the output array ends holding `lin M W β`.
-/
import proofs.«133934_j19997367730796_1_alg».proof.Proof.Reg0Pieces
import proofs.«133934_j19997367730796_1_alg».proof.Proof.Reg0Pay
import proofs.«133934_j19997367730796_1_alg».proof.Proof.Reg0Blocks

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

/-- After every point output 3's staging buffer holds the stored block of that point's loaded blocks. -/
theorem outs3 (c : Dev nD) (t : Fin cfg0.N) :
    (outsAt0 V c t.val t.isLt).1 = k0_pay3 (F := Ideal) (iblk0 V c 0 t) (iblk0 V c 1 t) (iblk0 V c 2 t) := by
  by_cases h0 : t.val % 20 = 0
  · rw [outsAt0_A V c t h0]
    dsimp only
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
      (iblk0 V c 0 t) (iblk0 V c 1 t) (iblk0 V c 2 t)
  · rw [outsAt0_B V c t h0]
    dsimp only
    exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h))
      (iblk0 V c 0 t) (iblk0 V c 1 t) (iblk0 V c 2 t) _ _

/-- The stored block of point `t`, at a block index whose row is row `R` of the input: the linear layer at `R`. -/
theorem pay3_blk (c : Dev nD) (t : Fin cfg0.N) (q : S5000x64.Idx) (R : Fin 100000) (hR : R.val = t.val * 5000 + (q 0).val) :
    k0_pay3 (F := Ideal) (iblk0 V c 0 t) (iblk0 V c 1 t) (iblk0 V c 2 t) q
      = Cert.Spec.lin (rowsIn V c) (weights V c) (bias V c) R (q 1) := by
  obtain ⟨p, j, rfl⟩ : ∃ (p : Fin 5000) (j : Fin 64), q = ix2 p j := ⟨q 0, q 1, eq_ix2 q⟩
  refine (pay3_apply (iblk0 V c 0 t) (iblk0 V c 1 t) (iblk0 V c 2 t) p j).trans ?_
  unfold Cert.Spec.lin
  exact congrArg₂ (· + ·)
    (Finset.sum_congr rfl fun k _ => congrArg₂ (· * ·) (blk_rows V c t p k R hR) (blk_w V c t k j)) (blk_b V c t j)

/-- What output 3's array ends holding: the linear layer of the entering rows, as contents of that array. -/
def linOut (c : Dev nD) : S100000x64.Idx → EReal :=
  fun i => Cert.Spec.lin (rowsIn V c) (weights V c) (bias V c) (i 0) (i 1)

/-- What point `t` writes back is block `t` of `linOut`. -/
theorem flushed3 (c : Dev nD) (t : Fin cfg0.N) :
    (dat0 V c).flushed 3 t = ((cfg0.win 3).blk t).view.read (Elt Ideal) (linOut V c) := by
  show (cfg0.win 3).cut (grid0.coords t) ((dat0 V c).after 3 t) = _
  rw [after0_3, outs3 V c t]
  have hN : t.val < 20 := lt_of_lt_of_eq t.isLt (show cfg0.N = 20 from N_0)
  funext y
  have hy0 : (y 0).val < 5000 := (y 0).isLt
  have hy1 : (y 1).val < 64 := (y 1).isLt
  show k0_pay3 (F := Ideal) (iblk0 V c 0 t) (iblk0 V c 1 t) (iblk0 V c 2 t) ((cfg0.win 3).xinj (grid0.coords t) y)
    = linOut V c (((cfg0.win 3).blk t).view.emb y)
  have he : ((cfg0.win 3).blk t).view.emb y
      = ix2 (⟨t.val * 5000 + (y 0).val, by omega⟩ : Fin 100000) (⟨(y 1).val, hy1⟩ : Fin 64) := by
    funext a
    apply Fin.ext
    match a with
    | ⟨0, _⟩ => show win0_3.index t 0 * 5000 + 1 * (y 0).val = t.val * 5000 + (y 0).val; rw [(idx_out t).1]; omega
    | ⟨1, _⟩ => show win0_3.index t 1 * 64 + 1 * (y 1).val = (y 1).val; rw [(idx_out t).2]; omega
  rw [he]
  exact pay3_blk V c t ((cfg0.win 3).xinj (grid0.coords t) y) ⟨t.val * 5000 + (y 0).val, by omega⟩ rfl

/-- An index of the output is in point `t`'s block iff each coordinate is in the block's range on its axis. -/
theorem mem_blk3 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v33_0).slice (win0_3.rect t)).set ↔ _
  rw [View.set_slice_whole, Rect.mem_set_unit]
  exact Iff.rfl

/-- Every index of the output lies in the block of the point its row selects. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_3 t, ?_⟩
  rw [mem_blk3]
  intro a
  match a with
  | ⟨0, _⟩ =>
    show win0_3.index t 0 * 5000 ≤ (i 0).val ∧ (i 0).val < win0_3.index t 0 * 5000 + 5000
    rw [(idx_out t).1, ht]; omega
  | ⟨1, _⟩ =>
    show win0_3.index t 1 * 64 ≤ (i 1).val ∧ (i 1).val < win0_3.index t 1 * 64 + 64
    rw [(idx_out t).2]; omega

/-- So output 3's array ends holding the linear layer of the entering rows. -/
theorem arr3_eq (c : Dev nD) : (dat0 V c).arrAt 3 cfg0.N = linOut V c :=
  (dat0 V c).arrAt_eq_of_cover 3 (linOut V c) (fun t _ => flushed3 V c t) cover3

/-- Entry by entry. -/
theorem arr3 (c : Dev nD) (r : Fin 100000) (j : Fin 64) :
    (dat0 V c).arrAt 3 cfg0.N (ix2 r j) = Cert.Spec.lin (rowsIn V c) (weights V c) (bias V c) r j :=
  congrFun (arr3_eq V c) (ix2 r j)

end Cert.KernelIdeal.Reg0

end
-- ==== Proof.BlockSum.lean ====
/-
  Regrouping a sum over the rows of a tall matrix into its row blocks.

  A sum over `N = m * n` consecutive rows equals the sum, over the `m` blocks of `n` rows each, of the block's own sum: row
  `t * n + p` is row `p` of block `t`, and every row is of that form exactly once. Only commutativity and associativity of the
  addition are used, so the statement holds in any commutative additive monoid — in particular over the extended reals, with
  no finiteness assumption.
-/
import Mathlib.Algebra.BigOperators.Fin
import Mathlib.Logic.Equiv.Fin.Basic
import Mathlib.Data.EReal.Basic

namespace Cert.BlockSum

open scoped BigOperators

/-- A sum over `m * n` rows is the sum over the `m` blocks of the sums over each block's `n` rows. The block sums are
    given as a function `g` of the block and the row inside it, equal to `f` at row `t * n + p`. -/
theorem sum_blocks {M : Type*} [AddCommMonoid M] {m n N : ℕ} (h : m * n = N) (f : Fin N → M) (g : Fin m → Fin n → M)
    (hg : ∀ (t : Fin m) (p : Fin n) (hlt : t.val * n + p.val < N), g t p = f ⟨t.val * n + p.val, hlt⟩) :
    ∑ r : Fin N, f r = ∑ t : Fin m, ∑ p : Fin n, g t p := by
  subst h
  rw [← Fintype.sum_prod_type' (f := g)]
  refine (Fintype.sum_equiv finProdFinEquiv _ _ fun x => ?_).symm
  have hlt : x.1.val * n + x.2.val < m * n := by
    have h1 : x.1.val * n + x.2.val < x.1.val * n + n := Nat.add_lt_add_left x.2.isLt _
    have h2 : x.1.val * n + n ≤ m * n := by
      have : (x.1.val + 1) * n ≤ m * n := Nat.mul_le_mul_right n x.1.isLt
      rwa [Nat.succ_mul] at this
    exact lt_of_lt_of_le h1 h2
  rw [hg x.1 x.2 hlt]
  refine congrArg f (Fin.ext ?_)
  show x.1.val * n + x.2.val = x.2.val + n * x.1.val
  rw [Nat.mul_comm, Nat.add_comm]

/-- The 100000 rows as 20 blocks of 5000. -/
theorem sum_rows_100000 {M : Type*} [AddCommMonoid M] (f : Fin 100000 → M) :
    ∑ r : Fin 100000, f r = ∑ t : Fin 20, ∑ p : Fin 5000, f ⟨t.val * 5000 + p.val, by have := t.isLt; have := p.isLt; omega⟩ :=
  sum_blocks (m := 20) (n := 5000) (by norm_num) f _ fun _ _ _ => rfl

end Cert.BlockSum
-- ==== Proof.Reg0RowBlocks.lean ====
/-
  Column sums of a 100000×64 matrix taken block by block: the rows are 20 consecutive blocks of 5000 rows, and the sum of a
  column over all rows is the sum, over the blocks, of the column's sums within each block. The same holds for the sums of
  squares. Blocks are numbered by natural numbers, the sum of a block past the twentieth being zero, so that running totals
  can be written as sums over an initial range of naturals.
-/
import proofs.«133934_j19997367730796_1_alg».proof.Proof.Spec
import proofs.«133934_j19997367730796_1_alg».proof.Proof.BlockSum

noncomputable section

namespace Cert.KernelIdeal.Reg0.RowBlocks

open Cert.Spec

/-- The sum of column `j` over the rows of block `n`. -/
def blockSum (Y : Mat) (n : ℕ) (j : Fin 64) : EReal :=
  if h : n < 20 then ∑ p : Fin 5000, Y ⟨n * 5000 + p.val, by have := p.isLt; omega⟩ j else 0

/-- The sum of the squares of column `j` over the rows of block `n`. -/
def blockSq (Y : Mat) (n : ℕ) (j : Fin 64) : EReal :=
  if h : n < 20 then
    ∑ p : Fin 5000, Y ⟨n * 5000 + p.val, by have := p.isLt; omega⟩ j * Y ⟨n * 5000 + p.val, by have := p.isLt; omega⟩ j
  else 0

/-- The twenty block sums of a column add up to the column's sum. -/
theorem sum_blockSum (Y : Mat) (j : Fin 64) : ∑ s ∈ Finset.range 20, blockSum Y s j = colSum Y j := by
  unfold colSum
  rw [Cert.BlockSum.sum_rows_100000 (fun R => Y R j), Finset.sum_range]
  refine Finset.sum_congr rfl fun t _ => ?_
  unfold blockSum
  rw [dif_pos t.isLt]

/-- Likewise for the squares. -/
theorem sum_blockSq (Y : Mat) (j : Fin 64) :
    ∑ s ∈ Finset.range 20, blockSq Y s j = ∑ r : Fin 100000, Y r j * Y r j := by
  rw [Cert.BlockSum.sum_rows_100000 (fun R => Y R j * Y R j), Finset.sum_range]
  refine Finset.sum_congr rfl fun t _ => ?_
  unfold blockSq
  rw [dif_pos t.isLt]

end Cert.KernelIdeal.Reg0.RowBlocks

end
-- ==== Proof.Reg0Acc.lean ====
/-
  The two running rows of the matmul-and-statistics region, point by point.

  Write `Y = lin M W β` for the linear layer of the entering rows. Point `t` loads rows `5000 * t …` and stores block `t` of
  `Y`; to the running row of column sums it adds that block's column sums, to the running row of sums of squares the block's
  column sums of squares. The first point starts both rows from zero. Hence after point `n` the rows hold the sums of the
  first `n + 1` blocks' column sums (of squares) — by induction on the point, addition of extended reals being associative.
-/
import proofs.«133934_j19997367730796_1_alg».proof.Proof.Reg0Arr3
import proofs.«133934_j19997367730796_1_alg».proof.Proof.Reg0RowBlocks

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.KernelIdeal.Reg0.RowBlocks

variable (V : (c : Dev nD) → (b : Ref sig .tc) → Buf (Elt Ideal) ((c : Thread nD τ).loc b))

/-- The linear layer of the entering rows. -/
abbrev linIn (c : Dev nD) : Cert.Spec.Mat := Cert.Spec.lin (rowsIn V c) (weights V c) (bias V c)

/-! ## What each case leaves in the running rows -/

theorem outs4_A (c : Dev nD) (t : Fin cfg0.N) (h0 : t.val % 20 = 0) :
    (outsAt0 V c t.val t.isLt).2.1 = k0_pay4 (F := Ideal) (iblk0 V c 0 t) (iblk0 V c 1 t) (iblk0 V c 2 t) (k0_pay1 (F := Ideal)) := by
  rw [outsAt0_A V c t h0]
  dsimp only
  exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

theorem outs5_A (c : Dev nD) (t : Fin cfg0.N) (h0 : t.val % 20 = 0) :
    (outsAt0 V c t.val t.isLt).2.2 = k0_pay5 (F := Ideal) (iblk0 V c 0 t) (iblk0 V c 1 t) (iblk0 V c 2 t) (k0_pay2 (F := Ideal)) := by
  rw [outsAt0_A V c t h0]
  dsimp only
  exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

theorem outs4_B (c : Dev nD) (t : Fin cfg0.N) (h0 : ¬t.val % 20 = 0) :
    (outsAt0 V c t.val t.isLt).2.1 = k0_pay4 (F := Ideal) (iblk0 V c 0 t) (iblk0 V c 1 t) (iblk0 V c 2 t) (outsAt0 V c (t.val - 1) (Nat.lt_of_le_of_lt (Nat.sub_le _ _) t.isLt)).2.1 := by
  rw [outsAt0_B V c t h0]
  dsimp only
  exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
    (outsAt0 V c (t.val - 1) (Nat.lt_of_le_of_lt (Nat.sub_le _ _) t.isLt)).2.1 (outsAt0 V c (t.val - 1) (Nat.lt_of_le_of_lt (Nat.sub_le _ _) t.isLt)).2.2

theorem outs5_B (c : Dev nD) (t : Fin cfg0.N) (h0 : ¬t.val % 20 = 0) :
    (outsAt0 V c t.val t.isLt).2.2 = k0_pay5 (F := Ideal) (iblk0 V c 0 t) (iblk0 V c 1 t) (iblk0 V c 2 t) (outsAt0 V c (t.val - 1) (Nat.lt_of_le_of_lt (Nat.sub_le _ _) t.isLt)).2.2 := by
  rw [outsAt0_B V c t h0]
  dsimp only
  exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
    (outsAt0 V c (t.val - 1) (Nat.lt_of_le_of_lt (Nat.sub_le _ _) t.isLt)).2.1 (outsAt0 V c (t.val - 1) (Nat.lt_of_le_of_lt (Nat.sub_le _ _) t.isLt)).2.2

/-! ## What point `t` adds -/

/-- The column sums of the block point `t` stores are the column sums of block `t` of the linear layer. -/
theorem pay3_colsum (c : Dev nD) (t : Fin cfg0.N) (j : Fin 64) :
    ∑ p : Fin 5000, k0_pay3 (F := Ideal) (iblk0 V c 0 t) (iblk0 V c 1 t) (iblk0 V c 2 t) (ix2 p j) = blockSum (linIn V c) t.val j := by
  have hN : t.val < 20 := lt_of_lt_of_eq t.isLt (show cfg0.N = 20 from N_0)
  unfold blockSum
  rw [dif_pos hN]
  exact Finset.sum_congr rfl fun p _ =>
    pay3_blk V c t (ix2 p j) ⟨t.val * 5000 + p.val, by have := p.isLt; omega⟩ rfl

/-- Likewise for the squares. -/
theorem pay3_colsq (c : Dev nD) (t : Fin cfg0.N) (j : Fin 64) :
    ∑ p : Fin 5000, k0_pay3 (F := Ideal) (iblk0 V c 0 t) (iblk0 V c 1 t) (iblk0 V c 2 t) (ix2 p j) * k0_pay3 (F := Ideal) (iblk0 V c 0 t) (iblk0 V c 1 t) (iblk0 V c 2 t) (ix2 p j)
      = blockSq (linIn V c) t.val j := by
  have hN : t.val < 20 := lt_of_lt_of_eq t.isLt (show cfg0.N = 20 from N_0)
  unfold blockSq
  rw [dif_pos hN]
  exact Finset.sum_congr rfl fun p _ => congrArg₂ (· * ·)
    (pay3_blk V c t (ix2 p j) ⟨t.val * 5000 + p.val, by have := p.isLt; omega⟩ rfl)
    (pay3_blk V c t (ix2 p j) ⟨t.val * 5000 + p.val, by have := p.isLt; omega⟩ rfl)

/-! ## The running rows after point `n` -/

/-- After point `n` the row of column sums holds the column sums of the first `n + 1` blocks. -/
theorem sums_upto (c : Dev nD) : ∀ (n : ℕ) (h : n < cfg0.N) (j : Fin 64),
    (outsAt0 V c n h).2.1 (ix2 (0 : Fin 1) j) = ∑ s ∈ Finset.range (n + 1), blockSum (linIn V c) s j
  | 0, h, j => by
    refine (congrFun (outs4_A V c ⟨0, h⟩ rfl) (ix2 (0 : Fin 1) j)).trans ?_
    refine (pay4_apply (iblk0 V c 0 ⟨0, h⟩) (iblk0 V c 1 ⟨0, h⟩) (iblk0 V c 2 ⟨0, h⟩) (k0_pay1 (F := Ideal)) j).trans ?_
    rw [pay1_apply, pay3_colsum V c ⟨0, h⟩ j, Finset.sum_range_succ, Finset.sum_range_zero]
  | n + 1, h, j => by
    have h20 : n + 1 < 20 := lt_of_lt_of_eq h (show cfg0.N = 20 from N_0)
    have hB : ¬(⟨n + 1, h⟩ : Fin cfg0.N).val % 20 = 0 := by dsimp only; omega
    refine (congrFun (outs4_B V c ⟨n + 1, h⟩ hB) (ix2 (0 : Fin 1) j)).trans ?_
    refine (pay4_apply (iblk0 V c 0 ⟨n + 1, h⟩) (iblk0 V c 1 ⟨n + 1, h⟩) (iblk0 V c 2 ⟨n + 1, h⟩) _ j).trans ?_
    rw [pay3_colsum V c ⟨n + 1, h⟩ j, Finset.sum_range_succ _ (n + 1)]
    refine congrArg (· + blockSum (linIn V c) (n + 1) j) ?_
    exact sums_upto c n (Nat.lt_of_succ_lt h) j

/-- After point `n` the row of sums of squares holds the column sums of squares of the first `n + 1` blocks. -/
theorem sqs_upto (c : Dev nD) : ∀ (n : ℕ) (h : n < cfg0.N) (j : Fin 64),
    (outsAt0 V c n h).2.2 (ix2 (0 : Fin 1) j) = ∑ s ∈ Finset.range (n + 1), blockSq (linIn V c) s j
  | 0, h, j => by
    refine (congrFun (outs5_A V c ⟨0, h⟩ rfl) (ix2 (0 : Fin 1) j)).trans ?_
    refine (pay5_apply (iblk0 V c 0 ⟨0, h⟩) (iblk0 V c 1 ⟨0, h⟩) (iblk0 V c 2 ⟨0, h⟩) (k0_pay2 (F := Ideal)) j).trans ?_
    rw [pay2_apply, pay3_colsq V c ⟨0, h⟩ j, Finset.sum_range_succ, Finset.sum_range_zero]
  | n + 1, h, j => by
    have h20 : n + 1 < 20 := lt_of_lt_of_eq h (show cfg0.N = 20 from N_0)
    have hB : ¬(⟨n + 1, h⟩ : Fin cfg0.N).val % 20 = 0 := by dsimp only; omega
    refine (congrFun (outs5_B V c ⟨n + 1, h⟩ hB) (ix2 (0 : Fin 1) j)).trans ?_
    refine (pay5_apply (iblk0 V c 0 ⟨n + 1, h⟩) (iblk0 V c 1 ⟨n + 1, h⟩) (iblk0 V c 2 ⟨n + 1, h⟩) _ j).trans ?_
    rw [pay3_colsq V c ⟨n + 1, h⟩ j, Finset.sum_range_succ _ (n + 1)]
    refine congrArg (· + blockSq (linIn V c) (n + 1) j) ?_
    exact sqs_upto c n (Nat.lt_of_succ_lt h) j

end Cert.KernelIdeal.Reg0

end
-- ==== Proof.Reg0Arr45.lean ====
/-
  Outputs 4 and 5 of the matmul-and-statistics region: the column sums, and the column sums of squares, of the linear layer.

  Both outputs are one 1×64 row whose block never moves; it is carried from point to point and written back once, after the
  last of the 20 points. By then the running rows hold the sums over all twenty blocks, which are the sums over all 100000
  rows. The last point's block is the whole row, so the arrays end holding those sums.
-/
import proofs.«133934_j19997367730796_1_alg».proof.Proof.Reg0Acc

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.KernelIdeal.Reg0.RowBlocks

variable (V : (c : Dev nD) → (b : Ref sig .tc) → Buf (Elt Ideal) ((c : Thread nD τ).loc b))

/-- What output 4 ends holding: the column sums of the linear layer of the entering rows. -/
def sumOut (c : Dev nD) : S1x64.Idx → EReal := fun i => Cert.Spec.colSum (linIn V c) (i 1)
/-- What output 5 ends holding: the column sums of its squares. -/
def sqOut (c : Dev nD) : S1x64.Idx → EReal := fun i => ∑ r : Fin 100000, linIn V c r (i 1) * linIn V c r (i 1)

/-- After the last point the running rows hold the sums over all rows. -/
theorem last_sum (c : Dev nD) (n : ℕ) (h : n < cfg0.N) (hn : n = 19) (j : Fin 64) :
    (outsAt0 V c n h).2.1 (ix2 (0 : Fin 1) j) = Cert.Spec.colSum (linIn V c) j := by
  refine (sums_upto V c n h j).trans ?_
  rw [hn]
  exact sum_blockSum (linIn V c) j
theorem last_sq (c : Dev nD) (n : ℕ) (h : n < cfg0.N) (hn : n = 19) (j : Fin 64) :
    (outsAt0 V c n h).2.2 (ix2 (0 : Fin 1) j) = ∑ r : Fin 100000, linIn V c r j * linIn V c r j := by
  refine (sqs_upto V c n h j).trans ?_
  rw [hn]
  exact sum_blockSq (linIn V c) j

/-- What point `t` writes back to output 4 is block `t` of any row `G` that agrees, column by column, with what the
    running row holds after point `t` (the row `G` is kept a variable here: the block's place in the array is all that is read). -/
theorem flushed4_of (c : Dev nD) (t : Fin cfg0.N) (G : S1x64.Idx → EReal)
    (hG : ∀ j : Fin 64, (outsAt0 V c t.val t.isLt).2.1 (ix2 (0 : Fin 1) j) = G (ix2 (0 : Fin 1) j)) :
    (dat0 V c).flushed 4 t = ((cfg0.win 4).blk t).view.read (Elt Ideal) G := by
  show (cfg0.win 4).cut (grid0.coords t) ((dat0 V c).after 4 t) = _
  rw [after0_4]
  funext y
  have hy0 : (y 0).val < 1 := (y 0).isLt
  have hy1 : (y 1).val < 64 := (y 1).isLt
  show (outsAt0 V c t.val t.isLt).2.1 ((cfg0.win 4).xinj (grid0.coords t) y)
    = G (((cfg0.win 4).blk t).view.emb y)
  have hx : (cfg0.win 4).xinj (grid0.coords t) y = ix2 (0 : Fin 1) (⟨(y 1).val, hy1⟩ : Fin 64) := by
    funext a
    apply Fin.ext
    match a with
    | ⟨0, _⟩ => show (y 0).val = 0; omega
    | ⟨1, _⟩ => rfl
  have he : ((cfg0.win 4).blk t).view.emb y = ix2 (0 : Fin 1) (⟨(y 1).val, hy1⟩ : Fin 64) := by
    funext a
    apply Fin.ext
    match a with
    | ⟨0, _⟩ => show win0_4.index t 0 * 1 + 1 * (y 0).val = 0; rw [(idx_sum t).1]; omega
    | ⟨1, _⟩ => show win0_4.index t 1 * 64 + 1 * (y 1).val = (y 1).val; rw [(idx_sum t).2]; omega
  rw [hx, he]
  exact hG _

/-- The one point that writes output 4 back is the last, and there the running row is `sumOut`. -/
theorem flushed4 (c : Dev nD) (t : Fin cfg0.N) (hf : (cfg0.win 4).flush t = true) :
    (dat0 V c).flushed 4 t = ((cfg0.win 4).blk t).view.read (Elt Ideal) (sumOut V c) := by
  have hN : t.val < 20 := lt_of_lt_of_eq t.isLt (show cfg0.N = 20 from N_0)
  have h19 : t.val = 19 := by have := (flush0_4 t).mp hf; omega
  exact flushed4_of V c t (sumOut V c) fun j => last_sum V c t.val t.isLt h19 j

/-- An index of output 4 is in point `t`'s block iff each coordinate is in the block's range on its axis. -/
theorem mem_blk4 (t : Fin cfg0.N) (i : S1x64.Idx) :
    i ∈ ((cfg0.win 4).blk t).view.set ↔ ∀ a : Fin 2, win0_4.index t a * S1x64.size a ≤ (i a).val
      ∧ (i a).val < win0_4.index t a * S1x64.size a + S1x64.size a := by
  show i ∈ ((View.whole main_v33_1).slice (win0_4.rect t)).set ↔ _
  rw [View.set_slice_whole, Rect.mem_set_unit]
  exact Iff.rfl

/-- The last point's block is the whole row. -/
theorem cover4 (i : S1x64.Idx) :
    ∃ t : Fin cfg0.N, (cfg0.win 4).flush t = true ∧ i ∈ ((cfg0.win 4).blk t).view.set := by
  have hi0 : (i 0).val < 1 := (i 0).isLt
  have hi1 : (i 1).val < 64 := (i 1).isLt
  have hN : cfg0.N = 20 := N_0
  obtain ⟨t, ht⟩ : ∃ t : Fin cfg0.N, t.val = 19 := ⟨⟨19, by rw [hN]; omega⟩, rfl⟩
  refine ⟨t, (flush0_4 t).mpr (by rw [ht]), ?_⟩
  rw [mem_blk4]
  intro a
  match a with
  | ⟨0, _⟩ =>
    show win0_4.index t 0 * 1 ≤ (i 0).val ∧ (i 0).val < win0_4.index t 0 * 1 + 1
    rw [(idx_sum t).1]; omega
  | ⟨1, _⟩ =>
    show win0_4.index t 1 * 64 ≤ (i 1).val ∧ (i 1).val < win0_4.index t 1 * 64 + 64
    rw [(idx_sum t).2]; omega

/-- So output 4's array ends holding the column sums. -/
theorem arr4_eq (c : Dev nD) : (dat0 V c).arrAt 4 cfg0.N = sumOut V c :=
  (dat0 V c).arrAt_eq_of_cover 4 (sumOut V c) (fun t hf => flushed4 V c t hf) cover4

/-- What point `t` writes back to output 5 is block `t` of any row `G` that agrees, column by column, with what the
    running row holds after point `t` (the row `G` is kept a variable here: the block's place in the array is all that is read). -/
theorem flushed5_of (c : Dev nD) (t : Fin cfg0.N) (G : S1x64.Idx → EReal)
    (hG : ∀ j : Fin 64, (outsAt0 V c t.val t.isLt).2.2 (ix2 (0 : Fin 1) j) = G (ix2 (0 : Fin 1) j)) :
    (dat0 V c).flushed 5 t = ((cfg0.win 5).blk t).view.read (Elt Ideal) G := by
  show (cfg0.win 5).cut (grid0.coords t) ((dat0 V c).after 5 t) = _
  rw [after0_5]
  funext y
  have hy0 : (y 0).val < 1 := (y 0).isLt
  have hy1 : (y 1).val < 64 := (y 1).isLt
  show (outsAt0 V c t.val t.isLt).2.2 ((cfg0.win 5).xinj (grid0.coords t) y)
    = G (((cfg0.win 5).blk t).view.emb y)
  have hx : (cfg0.win 5).xinj (grid0.coords t) y = ix2 (0 : Fin 1) (⟨(y 1).val, hy1⟩ : Fin 64) := by
    funext a
    apply Fin.ext
    match a with
    | ⟨0, _⟩ => show (y 0).val = 0; omega
    | ⟨1, _⟩ => rfl
  have he : ((cfg0.win 5).blk t).view.emb y = ix2 (0 : Fin 1) (⟨(y 1).val, hy1⟩ : Fin 64) := by
    funext a
    apply Fin.ext
    match a with
    | ⟨0, _⟩ => show win0_5.index t 0 * 1 + 1 * (y 0).val = 0; rw [(idx_sq t).1]; omega
    | ⟨1, _⟩ => show win0_5.index t 1 * 64 + 1 * (y 1).val = (y 1).val; rw [(idx_sq t).2]; omega
  rw [hx, he]
  exact hG _

/-- The one point that writes output 5 back is the last, and there the running row is `sqOut`. -/
theorem flushed5 (c : Dev nD) (t : Fin cfg0.N) (hf : (cfg0.win 5).flush t = true) :
    (dat0 V c).flushed 5 t = ((cfg0.win 5).blk t).view.read (Elt Ideal) (sqOut V c) := by
  have hN : t.val < 20 := lt_of_lt_of_eq t.isLt (show cfg0.N = 20 from N_0)
  have h19 : t.val = 19 := by have := (flush0_5 t).mp hf; omega
  exact flushed5_of V c t (sqOut V c) fun j => last_sq V c t.val t.isLt h19 j

/-- An index of output 5 is in point `t`'s block iff each coordinate is in the block's range on its axis. -/
theorem mem_blk5 (t : Fin cfg0.N) (i : S1x64.Idx) :
    i ∈ ((cfg0.win 5).blk t).view.set ↔ ∀ a : Fin 2, win0_5.index t a * S1x64.size a ≤ (i a).val
      ∧ (i a).val < win0_5.index t a * S1x64.size a + S1x64.size a := by
  show i ∈ ((View.whole main_v33_2).slice (win0_5.rect t)).set ↔ _
  rw [View.set_slice_whole, Rect.mem_set_unit]
  exact Iff.rfl

/-- The last point's block is the whole row. -/
theorem cover5 (i : S1x64.Idx) :
    ∃ t : Fin cfg0.N, (cfg0.win 5).flush t = true ∧ i ∈ ((cfg0.win 5).blk t).view.set := by
  have hi0 : (i 0).val < 1 := (i 0).isLt
  have hi1 : (i 1).val < 64 := (i 1).isLt
  have hN : cfg0.N = 20 := N_0
  obtain ⟨t, ht⟩ : ∃ t : Fin cfg0.N, t.val = 19 := ⟨⟨19, by rw [hN]; omega⟩, rfl⟩
  refine ⟨t, (flush0_5 t).mpr (by rw [ht]), ?_⟩
  rw [mem_blk5]
  intro a
  match a with
  | ⟨0, _⟩ =>
    show win0_5.index t 0 * 1 ≤ (i 0).val ∧ (i 0).val < win0_5.index t 0 * 1 + 1
    rw [(idx_sq t).1]; omega
  | ⟨1, _⟩ =>
    show win0_5.index t 1 * 64 ≤ (i 1).val ∧ (i 1).val < win0_5.index t 1 * 64 + 64
    rw [(idx_sq t).2]; omega

/-- So output 5's array ends holding the column sums of squares. -/
theorem arr5_eq (c : Dev nD) : (dat0 V c).arrAt 5 cfg0.N = sqOut V c :=
  (dat0 V c).arrAt_eq_of_cover 5 (sqOut V c) (fun t hf => flushed5 V c t hf) cover5

/-- Entry by entry. -/
theorem arr4 (c : Dev nD) (j : Fin 64) :
    (dat0 V c).arrAt 4 cfg0.N (ix2 (0 : Fin 1) j)
      = Cert.Spec.colSum (Cert.Spec.lin (rowsIn V c) (weights V c) (bias V c)) j :=
  congrFun (arr4_eq V c) (ix2 (0 : Fin 1) j)

theorem arr5 (c : Dev nD) (j : Fin 64) :
    (dat0 V c).arrAt 5 cfg0.N (ix2 (0 : Fin 1) j)
      = ∑ r : Fin 100000, Cert.Spec.lin (rowsIn V c) (weights V c) (bias V c) r j
          * Cert.Spec.lin (rowsIn V c) (weights V c) (bias V c) r j :=
  congrFun (arr5_eq V c) (ix2 (0 : Fin 1) j)

end Cert.KernelIdeal.Reg0

end
-- ==== Proof.Reg1Blocks.lean ====
/-
  Region 1 (normalise, scale, shift, clamp at zero), read index by index.

  The grid has 20 points. At point `t` the body sees rows `5000 t … 5000 t + 4999` of the node-feature matrix (a 5000 × 64
  block) and the four per-channel rows (mean, reciprocal deviation, scale, shift: 1 × 64 each, the same block at every point),
  and stores, at row `p` and channel `q` of the output block, `max ((y - mu q) * inv q * g q + be q) 0` with `y` the block's
  entry. The output block at point `t` is written back to rows `5000 t …` of the output matrix; the 20 blocks tile it. So the
  output matrix after the region is that expression of the input matrix at every row and channel.
-/
import proofs.«133934_j19997367730796_1_alg».proof.Proof.Gen.KernelIdeal.Frame
import Idealize.ShloMosaic.PureOps.Ideal.Laws
import Idealize.ShloMosaic.Lib.ValueLayout
import Idealize.ShloMosaic.Lib.ValueIdx
import Idealize.ShloMosaic.Lib.Pipeline.Value

noncomputable section

namespace Cert.KernelIdeal.Reg1

open Cert.KernelIdeal Idealize.ShloMosaic Idealize.ShloMosaic.TcCoe Idealize.SL.Sem Idealize.ShloMosaic.ValueIdx
open Idealize.ShloMosaic.Pipeline (Dat)

/-- The body's stored value at row `p`, channel `q` of its block, from the loaded blocks. -/
theorem pay_apply (x0 : Vec Ideal S5000x64 .f32) (x1 x2 x3 x4 : Vec Ideal S1x64 .f32) (p : Fin 5000) (q : Fin 64) :
    Gen.k1_pay1 x0 x1 x2 x3 x4 (ix2 p q)
      = max ((x0 (ix2 p q) - x1 (ix2 0 q)) * x2 (ix2 0 q) * x3 (ix2 0 q) + x4 (ix2 0 q)) 0 := by
  unfold Gen.k1_pay1
  simp only [shapeCast_self, maximumf_apply, addf_apply, mulf_apply, subf_apply, broadcast_apply, broadcastTo_1b_ab_apply]
  show max _ (Ideal.ofBits .f32 0x00000000#32) = _
  rw [Ideal.ofBits_zero_f32]

/-- The output matrix as one function of the five arrays: the clamp of the normalised, scaled and shifted entry. -/
def G (a0 : S100000x64.Idx → EReal) (a1 a2 a3 a4 : S1x64.Idx → EReal) : S100000x64.Idx → EReal :=
  fun i => max ((a0 i - a1 (ix2 0 (i 1))) * a2 (ix2 0 (i 1)) * a3 (ix2 0 (i 1)) + a4 (ix2 0 (i 1))) 0

theorem hz : (![0, 0] : Fin 2 → Nat) = fun _ => 0 := funext fun a => by fin_cases a <;> rfl

/-- The block index maps over the grid: the matrix windows are at block row `t`, the four rows at block (0, 0). -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- Row `p` of the matrix block at point `t` is row `5000 t + p` of the matrix. -/
theorem mat_apply (c : Dev nD) (t : Fin cfg1.N) (p : Fin 5000) (q : Fin 64) (hlt : t.val * 5000 + p.val < 100000) :
    Gen.iblk1 V c 0 t (ix2 p q) = V c (Pipeline.arrRef spec1 0) (ix2 (⟨t.val * 5000 + p.val, hlt⟩ : Fin 100000) q) := by
  obtain ⟨e00, e01, e50, e51, e10, e11, e20, e21, e30, e31, e40, e41⟩ := idx_facts t
  show V c (Pipeline.arrRef spec1 0) (((cfg1.win 0).blk t).view.emb (ix2 p q)) = _
  refine congrArg (V c (Pipeline.arrRef spec1 0)) ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- Window 1's block at any point is the whole 1 × 64 row array. -/
theorem row1_apply (c : Dev nD) (t : Fin cfg1.N) (q : Fin 64) :
    Gen.iblk1 V c 1 t (ix2 (0 : Fin 1) q) = V c (Pipeline.arrRef spec1 1) (ix2 (0 : Fin 1) q) := by
  obtain ⟨e00, e01, e50, e51, e10, e11, e20, e21, e30, e31, e40, e41⟩ := idx_facts t
  have hq : q.val < 64 := q.isLt
  show V c (Pipeline.arrRef spec1 1) (((cfg1.win 1).blk t).view.emb (ix2 (0 : Fin 1) q)) = _
  refine congrArg (V c (Pipeline.arrRef spec1 1)) ?_
  funext a; apply Fin.ext
  match a with
  | ⟨0, _⟩ => show win1_1.index t (0 : Fin 2) * 1 + 1 * (0 : Fin 1).val = (0 : Fin 1).val; omega
  | ⟨1, _⟩ => show win1_1.index t (1 : Fin 2) * 64 + 1 * q.val = q.val; omega

/-- Window 2's block at any point is the whole 1 × 64 row array. -/
theorem row2_apply (c : Dev nD) (t : Fin cfg1.N) (q : Fin 64) :
    Gen.iblk1 V c 2 t (ix2 (0 : Fin 1) q) = V c (Pipeline.arrRef spec1 2) (ix2 (0 : Fin 1) q) := by
  obtain ⟨e00, e01, e50, e51, e10, e11, e20, e21, e30, e31, e40, e41⟩ := idx_facts t
  have hq : q.val < 64 := q.isLt
  show V c (Pipeline.arrRef spec1 2) (((cfg1.win 2).blk t).view.emb (ix2 (0 : Fin 1) q)) = _
  refine congrArg (V c (Pipeline.arrRef spec1 2)) ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 64 + 1 * q.val = q.val; omega

/-- Window 3's block at any point is the whole 1 × 64 row array. -/
theorem row3_apply (c : Dev nD) (t : Fin cfg1.N) (q : Fin 64) :
    Gen.iblk1 V c 3 t (ix2 (0 : Fin 1) q) = V c (Pipeline.arrRef spec1 3) (ix2 (0 : Fin 1) q) := by
  obtain ⟨e00, e01, e50, e51, e10, e11, e20, e21, e30, e31, e40, e41⟩ := idx_facts t
  have hq : q.val < 64 := q.isLt
  show V c (Pipeline.arrRef spec1 3) (((cfg1.win 3).blk t).view.emb (ix2 (0 : Fin 1) q)) = _
  refine congrArg (V c (Pipeline.arrRef spec1 3)) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 64 + 1 * q.val = q.val; omega

/-- Window 4's block at any point is the whole 1 × 64 row array. -/
theorem row4_apply (c : Dev nD) (t : Fin cfg1.N) (q : Fin 64) :
    Gen.iblk1 V c 4 t (ix2 (0 : Fin 1) q) = V c (Pipeline.arrRef spec1 4) (ix2 (0 : Fin 1) q) := by
  obtain ⟨e00, e01, e50, e51, e10, e11, e20, e21, e30, e31, e40, e41⟩ := idx_facts t
  have hq : q.val < 64 := q.isLt
  show V c (Pipeline.arrRef spec1 4) (((cfg1.win 4).blk t).view.emb (ix2 (0 : Fin 1) q)) = _
  refine congrArg (V c (Pipeline.arrRef spec1 4)) ?_
  funext a; apply Fin.ext
  match a with
  | ⟨0, _⟩ => show win1_4.index t (0 : Fin 2) * 1 + 1 * (0 : Fin 1).val = (0 : Fin 1).val; omega
  | ⟨1, _⟩ => show win1_4.index t (1 : Fin 2) * 64 + 1 * q.val = q.val; omega

/-- Row `p` of the output block at point `t` sits at row `5000 t + p` of the output matrix. -/
theorem out_emb (t : Fin cfg1.N) (p : Fin 5000) (q : Fin 64) (hlt : t.val * 5000 + p.val < 100000) :
    ((cfg1.win 5).blk t).view.emb (ix2 p q) = ix2 (⟨t.val * 5000 + p.val, hlt⟩ : Fin 100000) q := by
  obtain ⟨e00, e01, e50, e51, e10, e11, e20, e21, e30, e31, e40, e41⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega

set_option maxHeartbeats 1000000 in
/-- WHAT POINT `t` WRITES BACK is block `t` of `G` of the arrays as the region finds them. -/
theorem flushed_eq (c : Dev nD) (t : Fin cfg1.N) :
    (Gen.dat1 V c).flushed 5 t = ((cfg1.win 5).blk t).view.read (Elt Ideal)
      (G (V c (Pipeline.arrRef spec1 0)) (V c (Pipeline.arrRef spec1 1)) (V c (Pipeline.arrRef spec1 2))
         (V c (Pipeline.arrRef spec1 3)) (V c (Pipeline.arrRef spec1 4))) := by
  show (cfg1.win 5).cut (grid1.coords t) ((Gen.dat1 V c).after 5 t) = _
  rw [Gen.after1_5]
  unfold Gen.out1_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show Gen.k1_pay1 (Gen.iblk1 V c 0 t) (Gen.iblk1 V c 1 t) (Gen.iblk1 V c 2 t) (Gen.iblk1 V c 3 t) (Gen.iblk1 V c 4 t) (ix2 p q)
    = G (V c (Pipeline.arrRef spec1 0)) (V c (Pipeline.arrRef spec1 1)) (V c (Pipeline.arrRef spec1 2))
         (V c (Pipeline.arrRef spec1 3)) (V c (Pipeline.arrRef spec1 4)) (((cfg1.win 5).blk t).view.emb (ix2 p q))
  refine (pay_apply (Gen.iblk1 V c 0 t) (Gen.iblk1 V c 1 t) (Gen.iblk1 V c 2 t) (Gen.iblk1 V c 3 t) (Gen.iblk1 V c 4 t) p q).trans ?_
  have hp : p.val < 5000 := p.isLt
  have ht : t.val < 20 := lt_of_lt_of_eq t.isLt Gen.N_1
  have hlt : t.val * 5000 + p.val < 100000 := by omega
  rw [out_emb t p q hlt, mat_apply V c t p q hlt, row1_apply V c t q, row2_apply V c t q, row3_apply V c t q, row4_apply V c t q]
  rfl

end Cert.KernelIdeal.Reg1
end
-- ==== Proof.Reg1.lean ====
/-
  Region 1's output matrix after the region, index by index.

  Every row `r` of the 100000 × 64 output lies in exactly one written-back block, the one of point `r / 5000`; each point
  writes back block `t` of one and the same function of the region's input arrays; so the output matrix is that function:
  at row `r` and channel `j` the normalised, scaled, shifted and clamped entry of the input matrix.
-/
import proofs.«133934_j19997367730796_1_alg».proof.Proof.Reg1Blocks
import proofs.«133934_j19997367730796_1_alg».proof.Proof.Spec

noncomputable section

namespace Cert.KernelIdeal.Reg1

open Cert.KernelIdeal Idealize.ShloMosaic Idealize.ShloMosaic.TcCoe Idealize.SL.Sem Idealize.ShloMosaic.ValueIdx
open Idealize.ShloMosaic.Pipeline (Dat)

/-- An index of the output matrix is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43).slice (win1_5.rect t)).set ↔ _
  rw [View.set_slice_whole, Rect.mem_set_unit]
  exact Iff.rfl

/-- Row `r` is in the block of point `r / 5000`, and every point writes its block back. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) Gen.N_1.symm⟩, rfl⟩
  obtain ⟨e00, e01, e50, e51, e10, e11, e20, e21, e30, e31, e40, e41⟩ := idx_facts t
  refine ⟨t, Gen.flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

variable (V : (c : Dev nD) → (b : Ref sig .tc) → Buf (Elt Ideal) ((c : Thread nD τ).loc b))

/-- The output matrix after the region is `G` of the arrays as the region finds them. -/
theorem final (c : Dev nD) :
    (Gen.dat1 V c).arrAt 5 cfg1.N = G (V c (Pipeline.arrRef spec1 0)) (V c (Pipeline.arrRef spec1 1)) (V c (Pipeline.arrRef spec1 2))
         (V c (Pipeline.arrRef spec1 3)) (V c (Pipeline.arrRef spec1 4)) :=
  (Gen.dat1 V c).arrAt_eq_of_cover 5 _ (fun t _ => flushed_eq V c t) cover

/-- Region 1's output at row `r`, channel `j`: the specification's normalise-scale-shift-clamp map of the region's inputs. -/
theorem arr5 (c : Dev nD) : ∀ (r : Fin 100000) (j : Fin 64),
    (Gen.dat1 V c).arrAt 5 cfg1.N (ix2 r j)
      = Cert.Spec.bnRelu (fun r j => V c (Pipeline.arrRef spec1 0) (ix2 r j)) (fun j => V c (Pipeline.arrRef spec1 1) (ix2 (0 : Fin 1) j))
          (fun j => V c (Pipeline.arrRef spec1 2) (ix2 (0 : Fin 1) j)) (fun j => V c (Pipeline.arrRef spec1 3) (ix2 (0 : Fin 1) j))
          (fun j => V c (Pipeline.arrRef spec1 4) (ix2 (0 : Fin 1) j)) r j :=
  fun r j => (congrFun (final V c) (ix2 r j)).trans rfl

end Cert.KernelIdeal.Reg1
end
-- ==== Proof.Reg2Pieces.lean ====
/-
  What one run of the second matmul-and-statistics body leaves in its three output blocks, as functions of the blocks it loads.

  The body loads a block `x0` of 5000 rows, the weight matrix `x1` and the bias row `x2`, and stores
    * into output 3 the block `y = x0 · x1 + x2`  (`k2_pay3`);
    * into output 4 the running column sums plus the column sums of `y`  (`k2_pay4`);
    * into output 5 the running column sums of squares plus the column sums of `y * y`  (`k2_pay5`).
  At the first grid point (case A) the two running rows are first overwritten with zeros (`k2_pay1`, `k2_pay2`) and then read
  back, so the running value is the zero row; at every other point (case B) it is what the point before left (`xo4`, `xo5`).
  Each statement holds at every float instance: nothing is computed here, the stores' pieces are only read back.
-/
import proofs.«133934_j19997367730796_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Reg2

open Cert.KernelIdeal Cert.KernelIdeal.Gen

variable {F : FTy → Type} [FloatOps F]

/-- Every store and load of the body starts at the origin of its block. -/
theorem hz : (![0, 0] : Fin 2 → Nat) = fun _ => 0 := funext fun a => by fin_cases a <;> rfl

/-- Output 3 at the first point: the block `x0 · x1 + x2`. -/
theorem out_A_3 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond2_0 i) (x0 : Vec F S5000x64 .f32) (x1 : Vec F S64x64 .f32) (x2 : Vec F S1x64 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  rw [View.canon_unit_zero hz]
  simp only [View.readAt_eq_ld, h1.read_unread, h2.read_unread, h3.read_unread, View.ld_unit_zero (S := S5000x64) hz, View.ld_unit_zero (S := S64x64) hz, View.ld_unit_zero (S := S1x64) hz]

/-- Output 3 at a later point: the same block, whatever the running rows hold. -/
theorem out_B_3 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond2_0 i) (x0 : Vec F S5000x64 .f32) (x1 : Vec F S64x64 .f32) (x2 : Vec F S1x64 .f32) (xo4 xo5 : Vec F S1x64 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, View.ld_unit_zero (S := S5000x64) hz, View.ld_unit_zero (S := S64x64) hz, View.ld_unit_zero (S := S1x64) hz]

/-- Output 4 at a later point: the running sums `xo4` plus this block's column sums. -/
theorem out_B_4 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond2_0 i) (x0 : Vec F S5000x64 .f32) (x1 : Vec F S64x64 .f32) (x2 : Vec F S1x64 .f32) (xo4 xo5 : Vec F S1x64 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread, View.ld_unit_zero (S := S5000x64) hz, View.ld_unit_zero (S := S64x64) hz, View.ld_unit_zero (S := S1x64) hz]

/-- Output 5 at a later point: the running sums of squares `xo5` plus this block's column sums of squares. -/
theorem out_B_5 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : ¬cond2_0 i) (x0 : Vec F S5000x64 .f32) (x1 : Vec F S64x64 .f32) (x2 : Vec F S1x64 .f32) (xo4 xo5 : Vec F S1x64 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h6.read_unread, View.ld_unit_zero (S := S5000x64) hz, View.ld_unit_zero (S := S64x64) hz, View.ld_unit_zero (S := S1x64) hz]

/-- Output 4 at the first point: the zero row is stored, read back, and this block's column sums are added to it. -/
theorem out_A_4 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond2_0 i) (x0 : Vec F S5000x64 .f32) (x1 : Vec F S64x64 .f32) (x2 : Vec F S1x64 .f32) :
    out2_A_4 c i a1 h1 a2 h2 a3 h3 a4 h4 a5 h5 a6 h6 hc x0 x1 x2 = k2_pay4 x0 x1 x2 (k2_pay1 (F := F)) := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S5000x64) hz, View.ld_unit_zero (S := S64x64) hz, View.ld_unit_zero (S := S1x64) hz]

/-- Output 5 at the first point: likewise for the sums of squares. -/
theorem out_A_5 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S5000x64 .f32) (h4 : a4.IsWhole) (a5 : Memref sig .tc .vmem S1x64 .f32) (h5 : a5.IsWhole) (a6 : Memref sig .tc .vmem S1x64 .f32) (h6 : a6.IsWhole) (hc : cond2_0 i) (x0 : Vec F S5000x64 .f32) (x1 : Vec F S64x64 .f32) (x2 : Vec F S1x64 .f32) :
    out2_A_5 c i a1 h1 a2 h2 a3 h3 a4 h4 a5 h5 a6 h6 hc x0 x1 x2 = k2_pay5 x0 x1 x2 (k2_pay2 (F := F)) := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S5000x64) hz, View.ld_unit_zero (S := S64x64) hz, View.ld_unit_zero (S := S1x64) hz]

end Cert.KernelIdeal.Reg2

end
-- ==== Proof.Reg2Pay.lean ====
/-
  The second matmul-and-statistics body's three stored values read at an index, over the extended reals: the second
  region runs the same kernel function as the first, so the same readings hold for its stored values — the stored block is
  `y p j = (∑ k, x p k * w k j) + β j`, and the two running rows become `s j + ∑ p, y p j` and `q j + ∑ p, y p j * y p j`.
  The product and the lane sum at an index are the statements proved for the first region: they mention no region.
-/
import proofs.«133934_j19997367730796_1_alg».proof.Proof.Reg0Pay

noncomputable section

open Idealize.ShloMosaic Idealize.ShloMosaic.ValueIdx

namespace Cert.KernelIdeal.Reg2

open Cert.KernelIdeal Cert.KernelIdeal.Gen
open Cert.KernelIdeal.Reg0 (matmul_ix colsum_ix)

/-- The stored block at row `p`, column `j`: the row of the loaded block against the column of the weights, plus the bias.
    (The two roundings of the operands to bf16 are the identity on extended reals.) -/
theorem pay3_apply (v3 : Vec Ideal S5000x64 .f32) (v6 : Vec Ideal S64x64 .f32) (v9 : Vec Ideal S1x64 .f32) (p : Fin 5000) (j : Fin 64) :
    k2_pay3 (F := Ideal) v3 v6 v9 (ix2 p j) = (∑ k : Fin 64, v3 (ix2 p k) * v6 (ix2 k j)) + v9 (ix2 (0 : Fin 1) j) := by
  unfold k2_pay3
  simp only [shapeCast_self]
  refine (addf_apply _ _ _).trans ?_
  refine congrArg₂ (· + ·) ((matmul_ix _ _ p j).trans ?_) (broadcastTo_1b_ab_apply _ _ p j)
  rfl

/-- The running column sums after the body: what they held plus the column sums of the stored block. -/
theorem pay4_apply (v3 : Vec Ideal S5000x64 .f32) (v6 : Vec Ideal S64x64 .f32) (v9 : Vec Ideal S1x64 .f32) (v14 : Vec Ideal S1x64 .f32) (j : Fin 64) :
    k2_pay4 (F := Ideal) v3 v6 v9 v14 (ix2 (0 : Fin 1) j)
      = v14 (ix2 (0 : Fin 1) j) + ∑ p : Fin 5000, k2_pay3 (F := Ideal) v3 v6 v9 (ix2 p j) := by
  unfold k2_pay4
  simp only [shapeCast_self]
  refine (addf_apply _ _ _).trans ?_
  refine congrArg (v14 (ix2 (0 : Fin 1) j) + ·) ?_
  refine (shapeCast_a_1a_apply _ _ (0 : Fin 1) j).trans ?_
  exact colsum_ix _ _ _ _ j

/-- The running column sums of squares after the body: what they held plus the column sums of the stored block's squares. -/
theorem pay5_apply (v3 : Vec Ideal S5000x64 .f32) (v6 : Vec Ideal S64x64 .f32) (v9 : Vec Ideal S1x64 .f32) (v20 : Vec Ideal S1x64 .f32) (j : Fin 64) :
    k2_pay5 (F := Ideal) v3 v6 v9 v20 (ix2 (0 : Fin 1) j)
      = v20 (ix2 (0 : Fin 1) j) + ∑ p : Fin 5000, k2_pay3 (F := Ideal) v3 v6 v9 (ix2 p j) * k2_pay3 (F := Ideal) v3 v6 v9 (ix2 p j) := by
  unfold k2_pay5
  simp only [shapeCast_self]
  refine (addf_apply _ _ _).trans ?_
  refine congrArg (v20 (ix2 (0 : Fin 1) j) + ·) ?_
  refine (shapeCast_a_1a_apply _ _ (0 : Fin 1) j).trans ?_
  exact (colsum_ix _ _ _ _ j).trans rfl

/-- The row the first point stores before accumulating is the zero row. -/
theorem pay1_apply (i : S1x64.Idx) : k2_pay1 (F := Ideal) i = 0 := by
  unfold k2_pay1
  exact Ideal.ofBits_zero_f32
theorem pay2_apply (i : S1x64.Idx) : k2_pay2 (F := Ideal) i = 0 := by
  unfold k2_pay2
  exact Ideal.ofBits_zero_f32

end Cert.KernelIdeal.Reg2

end
-- ==== Proof.Reg2Blocks.lean ====
/-
  The blocks the second matmul-and-statistics region reads, as entries of the arrays it finds on entry.

  The grid has 20 points. At point `t` the rows window holds rows `5000 * t … 5000 * t + 4999` of the 100000×64 input
  (block index `(t, 0)`, block 5000×64), while the weights window (64×64) and the bias window (1×64) hold their whole arrays
  at every point (block index `(0, 0)`). The output rows window moves like the input rows window; the two statistics
  windows (1×64) stay at block `(0, 0)`. An element of a block sits in its array, on each axis, at the block index times the
  block size plus its own coordinate.
-/
import proofs.«133934_j19997367730796_1_alg».proof.Proof.Gen.KernelIdeal.Frame
import proofs.«133934_j19997367730796_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

variable (V : (c : Dev nD) → (b : Ref sig .tc) → Buf (Elt Ideal) ((c : Thread nD τ).loc b))

/-- The rows entering the region, the weights and the bias, as the region finds them. -/
def rowsIn (c : Dev nD) : Cert.Spec.Mat := fun r k => V c (Pipeline.arrRef spec2 0) (ix2 r k)
def weights (c : Dev nD) : Fin 64 → Fin 64 → EReal := fun k j => V c (Pipeline.arrRef spec2 1) (ix2 k j)
def bias (c : Dev nD) : Cert.Spec.Row := fun j => V c (Pipeline.arrRef spec2 2) (ix2 (0 : Fin 1) j)

/-- The printed index maps, decided once over the grid's 20 points. -/
theorem idx_rows : ∀ t : Fin cfg2.N, win2_0.index t 0 = t.val ∧ win2_0.index t 1 = 0 :=
  (by decide +kernel : ∀ t : Fin grid2.N, win2_0.index t 0 = t.val ∧ win2_0.index t 1 = 0)
theorem idx_w : ∀ t : Fin cfg2.N, win2_1.index t 0 = 0 ∧ win2_1.index t 1 = 0 :=
  (by decide +kernel : ∀ t : Fin grid2.N, win2_1.index t 0 = 0 ∧ win2_1.index t 1 = 0)
theorem idx_b : ∀ t : Fin cfg2.N, win2_2.index t 0 = 0 ∧ win2_2.index t 1 = 0 :=
  (by decide +kernel : ∀ t : Fin grid2.N, win2_2.index t 0 = 0 ∧ win2_2.index t 1 = 0)

/-- The output rows window moves with the grid point; the two statistics windows do not move. -/
theorem idx_out : ∀ t : Fin cfg2.N, win2_3.index t 0 = t.val ∧ win2_3.index t 1 = 0 :=
  (by decide +kernel : ∀ t : Fin grid2.N, win2_3.index t 0 = t.val ∧ win2_3.index t 1 = 0)
theorem idx_sum : ∀ t : Fin cfg2.N, win2_4.index t 0 = 0 ∧ win2_4.index t 1 = 0 :=
  (by decide +kernel : ∀ t : Fin grid2.N, win2_4.index t 0 = 0 ∧ win2_4.index t 1 = 0)
theorem idx_sq : ∀ t : Fin cfg2.N, win2_5.index t 0 = 0 ∧ win2_5.index t 1 = 0 :=
  (by decide +kernel : ∀ t : Fin grid2.N, win2_5.index t 0 = 0 ∧ win2_5.index t 1 = 0)

/-- Row `p` of the rows block at point `t` is row `5000 * t + p` of the input. -/
theorem blk_rows (c : Dev nD) (t : Fin cfg2.N) (p : Fin 5000) (k : Fin 64) (R : Fin 100000) (hR : R.val = t.val * 5000 + p.val) :
    (iblk2 V c 0 t : Vec Ideal S5000x64 .f32) (ix2 p k) = rowsIn V c R k := by
  unfold iblk2 rowsIn
  rw [View.read_apply]
  show V c main_v57 _ = V c main_v57 _
  refine congrArg _ ?_
  funext a
  apply Fin.ext
  match a with
  | ⟨0, _⟩ => show win2_0.index t 0 * 5000 + 1 * p.val = R.val; rw [(idx_rows t).1, hR]; omega
  | ⟨1, _⟩ => show win2_0.index t 1 * 64 + 1 * k.val = k.val; rw [(idx_rows t).2]; omega

/-- The weights block is the weights array, at every point. -/
theorem blk_w (c : Dev nD) (t : Fin cfg2.N) (k j : Fin 64) :
    (iblk2 V c 1 t : Vec Ideal S64x64 .f32) (ix2 k j) = weights V c k j := by
  unfold iblk2 weights
  rw [View.read_apply]
  show V c main_arg7 _ = V c main_arg7 _
  refine congrArg _ ?_
  funext a
  apply Fin.ext
  match a with
  | ⟨0, _⟩ => show win2_1.index t 0 * 64 + 1 * k.val = k.val; rw [(idx_w t).1]; omega
  | ⟨1, _⟩ => show win2_1.index t 1 * 64 + 1 * j.val = j.val; rw [(idx_w t).2]; omega

/-- The bias block is the bias row, at every point. -/
theorem blk_b (c : Dev nD) (t : Fin cfg2.N) (j : Fin 64) :
    (iblk2 V c 2 t : Vec Ideal S1x64 .f32) (ix2 (0 : Fin 1) j) = bias V c j := by
  unfold iblk2 bias
  rw [View.read_apply]
  show V c main_v16 _ = V c main_v16 _
  refine congrArg _ ?_
  funext a
  apply Fin.ext
  match a with
  | ⟨0, _⟩ => show win2_2.index t 0 * 1 + 1 * 0 = 0; rw [(idx_b t).1]
  | ⟨1, _⟩ => show win2_2.index t 1 * 64 + 1 * j.val = j.val; rw [(idx_b t).2]; omega

end Cert.KernelIdeal.Reg2

end
-- ==== Proof.Reg2Arr3.lean ====
/-
  Output 3 of the second matmul-and-statistics region: the linear layer of the entering rows.

  Every grid point stores, whatever case it is in, the block `x · w + β` of the rows block it loaded; its block is written back
  at every point, to rows `5000 * t … 5000 * t + 4999` of the output. Reading the loaded blocks as entries of the entering
  arrays, what point `t` writes back is block `t` of the one function `lin M W β` of a row and a column. The 20 blocks
  cover the 100000 rows (row `R` lies in block `R / 5000`), so the output array ends holding `lin M W β`.
-/
import proofs.«133934_j19997367730796_1_alg».proof.Proof.Reg2Pieces
import proofs.«133934_j19997367730796_1_alg».proof.Proof.Reg2Pay
import proofs.«133934_j19997367730796_1_alg».proof.Proof.Reg2Blocks

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

variable (V : (c : Dev nD) → (b : Ref sig .tc) → Buf (Elt Ideal) ((c : Thread nD τ).loc b))

/-- After every point output 3's staging buffer holds the stored block of that point's loaded blocks. -/
theorem outs3 (c : Dev nD) (t : Fin cfg2.N) :
    (outsAt2 V c t.val t.isLt).1 = k2_pay3 (F := Ideal) (iblk2 V c 0 t) (iblk2 V c 1 t) (iblk2 V c 2 t) := by
  by_cases h0 : t.val % 20 = 0
  · rw [outsAt2_A V c t h0]
    dsimp only
    exact out_A_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0)
      (iblk2 V c 0 t) (iblk2 V c 1 t) (iblk2 V c 2 t)
  · rw [outsAt2_B V c t h0]
    dsimp only
    exact out_B_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h))
      (iblk2 V c 0 t) (iblk2 V c 1 t) (iblk2 V c 2 t) _ _

/-- The stored block of point `t`, at a block index whose row is row `R` of the input: the linear layer at `R`. -/
theorem pay3_blk (c : Dev nD) (t : Fin cfg2.N) (q : S5000x64.Idx) (R : Fin 100000) (hR : R.val = t.val * 5000 + (q 0).val) :
    k2_pay3 (F := Ideal) (iblk2 V c 0 t) (iblk2 V c 1 t) (iblk2 V c 2 t) q
      = Cert.Spec.lin (rowsIn V c) (weights V c) (bias V c) R (q 1) := by
  obtain ⟨p, j, rfl⟩ : ∃ (p : Fin 5000) (j : Fin 64), q = ix2 p j := ⟨q 0, q 1, eq_ix2 q⟩
  refine (pay3_apply (iblk2 V c 0 t) (iblk2 V c 1 t) (iblk2 V c 2 t) p j).trans ?_
  unfold Cert.Spec.lin
  exact congrArg₂ (· + ·)
    (Finset.sum_congr rfl fun k _ => congrArg₂ (· * ·) (blk_rows V c t p k R hR) (blk_w V c t k j)) (blk_b V c t j)

/-- What output 3's array ends holding: the linear layer of the entering rows, as contents of that array. -/
def linOut (c : Dev nD) : S100000x64.Idx → EReal :=
  fun i => Cert.Spec.lin (rowsIn V c) (weights V c) (bias V c) (i 0) (i 1)

/-- What point `t` writes back is block `t` of `linOut`. -/
theorem flushed3 (c : Dev nD) (t : Fin cfg2.N) :
    (dat2 V c).flushed 3 t = ((cfg2.win 3).blk t).view.read (Elt Ideal) (linOut V c) := by
  show (cfg2.win 3).cut (grid2.coords t) ((dat2 V c).after 3 t) = _
  rw [after2_3, outs3 V c t]
  have hN : t.val < 20 := lt_of_lt_of_eq t.isLt (show cfg2.N = 20 from N_2)
  funext y
  have hy0 : (y 0).val < 5000 := (y 0).isLt
  have hy1 : (y 1).val < 64 := (y 1).isLt
  show k2_pay3 (F := Ideal) (iblk2 V c 0 t) (iblk2 V c 1 t) (iblk2 V c 2 t) ((cfg2.win 3).xinj (grid2.coords t) y)
    = linOut V c (((cfg2.win 3).blk t).view.emb y)
  have he : ((cfg2.win 3).blk t).view.emb y
      = ix2 (⟨t.val * 5000 + (y 0).val, by omega⟩ : Fin 100000) (⟨(y 1).val, hy1⟩ : Fin 64) := by
    funext a
    apply Fin.ext
    match a with
    | ⟨0, _⟩ => show win2_3.index t 0 * 5000 + 1 * (y 0).val = t.val * 5000 + (y 0).val; rw [(idx_out t).1]; omega
    | ⟨1, _⟩ => show win2_3.index t 1 * 64 + 1 * (y 1).val = (y 1).val; rw [(idx_out t).2]; omega
  rw [he]
  exact pay3_blk V c t ((cfg2.win 3).xinj (grid2.coords t) y) ⟨t.val * 5000 + (y 0).val, by omega⟩ rfl

/-- An index of the output is in point `t`'s block iff each coordinate is in the block's range on its axis. -/
theorem mem_blk3 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v58_0).slice (win2_3.rect t)).set ↔ _
  rw [View.set_slice_whole, Rect.mem_set_unit]
  exact Iff.rfl

/-- Every index of the output lies in the block of the point its row selects. -/
theorem cover3 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_3 t, ?_⟩
  rw [mem_blk3]
  intro a
  match a with
  | ⟨0, _⟩ =>
    show win2_3.index t 0 * 5000 ≤ (i 0).val ∧ (i 0).val < win2_3.index t 0 * 5000 + 5000
    rw [(idx_out t).1, ht]; omega
  | ⟨1, _⟩ =>
    show win2_3.index t 1 * 64 ≤ (i 1).val ∧ (i 1).val < win2_3.index t 1 * 64 + 64
    rw [(idx_out t).2]; omega

/-- So output 3's array ends holding the linear layer of the entering rows. -/
theorem arr3_eq (c : Dev nD) : (dat2 V c).arrAt 3 cfg2.N = linOut V c :=
  (dat2 V c).arrAt_eq_of_cover 3 (linOut V c) (fun t _ => flushed3 V c t) cover3

/-- Entry by entry. -/
theorem arr3 (c : Dev nD) (r : Fin 100000) (j : Fin 64) :
    (dat2 V c).arrAt 3 cfg2.N (ix2 r j) = Cert.Spec.lin (rowsIn V c) (weights V c) (bias V c) r j :=
  congrFun (arr3_eq V c) (ix2 r j)

end Cert.KernelIdeal.Reg2

end
-- ==== Proof.Reg2Acc.lean ====
/-
  The two running rows of the second matmul-and-statistics region, point by point.

  Write `Y = lin M W β` for the linear layer of the entering rows. Point `t` loads rows `5000 * t …` and stores block `t` of
  `Y`; to the running row of column sums it adds that block's column sums, to the running row of sums of squares the block's
  column sums of squares. The first point starts both rows from zero. Hence after point `n` the rows hold the sums of the
  first `n + 1` blocks' column sums (of squares) — by induction on the point, addition of extended reals being associative.
-/
import proofs.«133934_j19997367730796_1_alg».proof.Proof.Reg2Arr3
import proofs.«133934_j19997367730796_1_alg».proof.Proof.Reg0RowBlocks

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.KernelIdeal.Reg0.RowBlocks

variable (V : (c : Dev nD) → (b : Ref sig .tc) → Buf (Elt Ideal) ((c : Thread nD τ).loc b))

/-- The linear layer of the entering rows. -/
abbrev linIn (c : Dev nD) : Cert.Spec.Mat := Cert.Spec.lin (rowsIn V c) (weights V c) (bias V c)

/-! ## What each case leaves in the running rows -/

theorem outs4_A (c : Dev nD) (t : Fin cfg2.N) (h0 : t.val % 20 = 0) :
    (outsAt2 V c t.val t.isLt).2.1 = k2_pay4 (F := Ideal) (iblk2 V c 0 t) (iblk2 V c 1 t) (iblk2 V c 2 t) (k2_pay1 (F := Ideal)) := by
  rw [outsAt2_A V c t h0]
  dsimp only
  exact out_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

theorem outs5_A (c : Dev nD) (t : Fin cfg2.N) (h0 : t.val % 20 = 0) :
    (outsAt2 V c t.val t.isLt).2.2 = k2_pay5 (F := Ideal) (iblk2 V c 0 t) (iblk2 V c 1 t) (iblk2 V c 2 t) (k2_pay2 (F := Ideal)) := by
  rw [outsAt2_A V c t h0]
  dsimp only
  exact out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

theorem outs4_B (c : Dev nD) (t : Fin cfg2.N) (h0 : ¬t.val % 20 = 0) :
    (outsAt2 V c t.val t.isLt).2.1 = k2_pay4 (F := Ideal) (iblk2 V c 0 t) (iblk2 V c 1 t) (iblk2 V c 2 t) (outsAt2 V c (t.val - 1) (Nat.lt_of_le_of_lt (Nat.sub_le _ _) t.isLt)).2.1 := by
  rw [outsAt2_B V c t h0]
  dsimp only
  exact out_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
    (outsAt2 V c (t.val - 1) (Nat.lt_of_le_of_lt (Nat.sub_le _ _) t.isLt)).2.1 (outsAt2 V c (t.val - 1) (Nat.lt_of_le_of_lt (Nat.sub_le _ _) t.isLt)).2.2

theorem outs5_B (c : Dev nD) (t : Fin cfg2.N) (h0 : ¬t.val % 20 = 0) :
    (outsAt2 V c t.val t.isLt).2.2 = k2_pay5 (F := Ideal) (iblk2 V c 0 t) (iblk2 V c 1 t) (iblk2 V c 2 t) (outsAt2 V c (t.val - 1) (Nat.lt_of_le_of_lt (Nat.sub_le _ _) t.isLt)).2.2 := by
  rw [outsAt2_B V c t h0]
  dsimp only
  exact out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
    (outsAt2 V c (t.val - 1) (Nat.lt_of_le_of_lt (Nat.sub_le _ _) t.isLt)).2.1 (outsAt2 V c (t.val - 1) (Nat.lt_of_le_of_lt (Nat.sub_le _ _) t.isLt)).2.2

/-! ## What point `t` adds -/

/-- The column sums of the block point `t` stores are the column sums of block `t` of the linear layer. -/
theorem pay3_colsum (c : Dev nD) (t : Fin cfg2.N) (j : Fin 64) :
    ∑ p : Fin 5000, k2_pay3 (F := Ideal) (iblk2 V c 0 t) (iblk2 V c 1 t) (iblk2 V c 2 t) (ix2 p j) = blockSum (linIn V c) t.val j := by
  have hN : t.val < 20 := lt_of_lt_of_eq t.isLt (show cfg2.N = 20 from N_2)
  unfold blockSum
  rw [dif_pos hN]
  exact Finset.sum_congr rfl fun p _ =>
    pay3_blk V c t (ix2 p j) ⟨t.val * 5000 + p.val, by have := p.isLt; omega⟩ rfl

/-- Likewise for the squares. -/
theorem pay3_colsq (c : Dev nD) (t : Fin cfg2.N) (j : Fin 64) :
    ∑ p : Fin 5000, k2_pay3 (F := Ideal) (iblk2 V c 0 t) (iblk2 V c 1 t) (iblk2 V c 2 t) (ix2 p j) * k2_pay3 (F := Ideal) (iblk2 V c 0 t) (iblk2 V c 1 t) (iblk2 V c 2 t) (ix2 p j)
      = blockSq (linIn V c) t.val j := by
  have hN : t.val < 20 := lt_of_lt_of_eq t.isLt (show cfg2.N = 20 from N_2)
  unfold blockSq
  rw [dif_pos hN]
  exact Finset.sum_congr rfl fun p _ => congrArg₂ (· * ·)
    (pay3_blk V c t (ix2 p j) ⟨t.val * 5000 + p.val, by have := p.isLt; omega⟩ rfl)
    (pay3_blk V c t (ix2 p j) ⟨t.val * 5000 + p.val, by have := p.isLt; omega⟩ rfl)

/-! ## The running rows after point `n` -/

/-- After point `n` the row of column sums holds the column sums of the first `n + 1` blocks. -/
theorem sums_upto (c : Dev nD) : ∀ (n : ℕ) (h : n < cfg2.N) (j : Fin 64),
    (outsAt2 V c n h).2.1 (ix2 (0 : Fin 1) j) = ∑ s ∈ Finset.range (n + 1), blockSum (linIn V c) s j
  | 0, h, j => by
    refine (congrFun (outs4_A V c ⟨0, h⟩ rfl) (ix2 (0 : Fin 1) j)).trans ?_
    refine (pay4_apply (iblk2 V c 0 ⟨0, h⟩) (iblk2 V c 1 ⟨0, h⟩) (iblk2 V c 2 ⟨0, h⟩) (k2_pay1 (F := Ideal)) j).trans ?_
    rw [pay1_apply, pay3_colsum V c ⟨0, h⟩ j, Finset.sum_range_succ, Finset.sum_range_zero]
  | n + 1, h, j => by
    have h20 : n + 1 < 20 := lt_of_lt_of_eq h (show cfg2.N = 20 from N_2)
    have hB : ¬(⟨n + 1, h⟩ : Fin cfg2.N).val % 20 = 0 := by dsimp only; omega
    refine (congrFun (outs4_B V c ⟨n + 1, h⟩ hB) (ix2 (0 : Fin 1) j)).trans ?_
    refine (pay4_apply (iblk2 V c 0 ⟨n + 1, h⟩) (iblk2 V c 1 ⟨n + 1, h⟩) (iblk2 V c 2 ⟨n + 1, h⟩) _ j).trans ?_
    rw [pay3_colsum V c ⟨n + 1, h⟩ j, Finset.sum_range_succ _ (n + 1)]
    refine congrArg (· + blockSum (linIn V c) (n + 1) j) ?_
    exact sums_upto c n (Nat.lt_of_succ_lt h) j

/-- After point `n` the row of sums of squares holds the column sums of squares of the first `n + 1` blocks. -/
theorem sqs_upto (c : Dev nD) : ∀ (n : ℕ) (h : n < cfg2.N) (j : Fin 64),
    (outsAt2 V c n h).2.2 (ix2 (0 : Fin 1) j) = ∑ s ∈ Finset.range (n + 1), blockSq (linIn V c) s j
  | 0, h, j => by
    refine (congrFun (outs5_A V c ⟨0, h⟩ rfl) (ix2 (0 : Fin 1) j)).trans ?_
    refine (pay5_apply (iblk2 V c 0 ⟨0, h⟩) (iblk2 V c 1 ⟨0, h⟩) (iblk2 V c 2 ⟨0, h⟩) (k2_pay2 (F := Ideal)) j).trans ?_
    rw [pay2_apply, pay3_colsq V c ⟨0, h⟩ j, Finset.sum_range_succ, Finset.sum_range_zero]
  | n + 1, h, j => by
    have h20 : n + 1 < 20 := lt_of_lt_of_eq h (show cfg2.N = 20 from N_2)
    have hB : ¬(⟨n + 1, h⟩ : Fin cfg2.N).val % 20 = 0 := by dsimp only; omega
    refine (congrFun (outs5_B V c ⟨n + 1, h⟩ hB) (ix2 (0 : Fin 1) j)).trans ?_
    refine (pay5_apply (iblk2 V c 0 ⟨n + 1, h⟩) (iblk2 V c 1 ⟨n + 1, h⟩) (iblk2 V c 2 ⟨n + 1, h⟩) _ j).trans ?_
    rw [pay3_colsq V c ⟨n + 1, h⟩ j, Finset.sum_range_succ _ (n + 1)]
    refine congrArg (· + blockSq (linIn V c) (n + 1) j) ?_
    exact sqs_upto c n (Nat.lt_of_succ_lt h) j

end Cert.KernelIdeal.Reg2

end
-- ==== Proof.Reg2Arr45.lean ====
/-
  Outputs 4 and 5 of the second matmul-and-statistics region: the column sums, and the column sums of squares, of the linear layer.

  Both outputs are one 1×64 row whose block never moves; it is carried from point to point and written back once, after the
  last of the 20 points. By then the running rows hold the sums over all twenty blocks, which are the sums over all 100000
  rows. The last point's block is the whole row, so the arrays end holding those sums.
-/
import proofs.«133934_j19997367730796_1_alg».proof.Proof.Reg2Acc

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.KernelIdeal.Reg0.RowBlocks

variable (V : (c : Dev nD) → (b : Ref sig .tc) → Buf (Elt Ideal) ((c : Thread nD τ).loc b))

/-- What output 4 ends holding: the column sums of the linear layer of the entering rows. -/
def sumOut (c : Dev nD) : S1x64.Idx → EReal := fun i => Cert.Spec.colSum (linIn V c) (i 1)
/-- What output 5 ends holding: the column sums of its squares. -/
def sqOut (c : Dev nD) : S1x64.Idx → EReal := fun i => ∑ r : Fin 100000, linIn V c r (i 1) * linIn V c r (i 1)

/-- After the last point the running rows hold the sums over all rows. -/
theorem last_sum (c : Dev nD) (n : ℕ) (h : n < cfg2.N) (hn : n = 19) (j : Fin 64) :
    (outsAt2 V c n h).2.1 (ix2 (0 : Fin 1) j) = Cert.Spec.colSum (linIn V c) j := by
  refine (sums_upto V c n h j).trans ?_
  rw [hn]
  exact sum_blockSum (linIn V c) j
theorem last_sq (c : Dev nD) (n : ℕ) (h : n < cfg2.N) (hn : n = 19) (j : Fin 64) :
    (outsAt2 V c n h).2.2 (ix2 (0 : Fin 1) j) = ∑ r : Fin 100000, linIn V c r j * linIn V c r j := by
  refine (sqs_upto V c n h j).trans ?_
  rw [hn]
  exact sum_blockSq (linIn V c) j

/-- What point `t` writes back to output 4 is block `t` of any row `G` that agrees, column by column, with what the
    running row holds after point `t` (the row `G` is kept a variable here: the block's place in the array is all that is read). -/
theorem flushed4_of (c : Dev nD) (t : Fin cfg2.N) (G : S1x64.Idx → EReal)
    (hG : ∀ j : Fin 64, (outsAt2 V c t.val t.isLt).2.1 (ix2 (0 : Fin 1) j) = G (ix2 (0 : Fin 1) j)) :
    (dat2 V c).flushed 4 t = ((cfg2.win 4).blk t).view.read (Elt Ideal) G := by
  show (cfg2.win 4).cut (grid2.coords t) ((dat2 V c).after 4 t) = _
  rw [after2_4]
  funext y
  have hy0 : (y 0).val < 1 := (y 0).isLt
  have hy1 : (y 1).val < 64 := (y 1).isLt
  show (outsAt2 V c t.val t.isLt).2.1 ((cfg2.win 4).xinj (grid2.coords t) y)
    = G (((cfg2.win 4).blk t).view.emb y)
  have hx : (cfg2.win 4).xinj (grid2.coords t) y = ix2 (0 : Fin 1) (⟨(y 1).val, hy1⟩ : Fin 64) := by
    funext a
    apply Fin.ext
    match a with
    | ⟨0, _⟩ => show (y 0).val = 0; omega
    | ⟨1, _⟩ => rfl
  have he : ((cfg2.win 4).blk t).view.emb y = ix2 (0 : Fin 1) (⟨(y 1).val, hy1⟩ : Fin 64) := by
    funext a
    apply Fin.ext
    match a with
    | ⟨0, _⟩ => show win2_4.index t 0 * 1 + 1 * (y 0).val = 0; rw [(idx_sum t).1]; omega
    | ⟨1, _⟩ => show win2_4.index t 1 * 64 + 1 * (y 1).val = (y 1).val; rw [(idx_sum t).2]; omega
  rw [hx, he]
  exact hG _

/-- The one point that writes output 4 back is the last, and there the running row is `sumOut`. -/
theorem flushed4 (c : Dev nD) (t : Fin cfg2.N) (hf : (cfg2.win 4).flush t = true) :
    (dat2 V c).flushed 4 t = ((cfg2.win 4).blk t).view.read (Elt Ideal) (sumOut V c) := by
  have hN : t.val < 20 := lt_of_lt_of_eq t.isLt (show cfg2.N = 20 from N_2)
  have h19 : t.val = 19 := by have := (flush2_4 t).mp hf; omega
  exact flushed4_of V c t (sumOut V c) fun j => last_sum V c t.val t.isLt h19 j

/-- An index of output 4 is in point `t`'s block iff each coordinate is in the block's range on its axis. -/
theorem mem_blk4 (t : Fin cfg2.N) (i : S1x64.Idx) :
    i ∈ ((cfg2.win 4).blk t).view.set ↔ ∀ a : Fin 2, win2_4.index t a * S1x64.size a ≤ (i a).val
      ∧ (i a).val < win2_4.index t a * S1x64.size a + S1x64.size a := by
  show i ∈ ((View.whole main_v58_1).slice (win2_4.rect t)).set ↔ _
  rw [View.set_slice_whole, Rect.mem_set_unit]
  exact Iff.rfl

/-- The last point's block is the whole row. -/
theorem cover4 (i : S1x64.Idx) :
    ∃ t : Fin cfg2.N, (cfg2.win 4).flush t = true ∧ i ∈ ((cfg2.win 4).blk t).view.set := by
  have hi0 : (i 0).val < 1 := (i 0).isLt
  have hi1 : (i 1).val < 64 := (i 1).isLt
  have hN : cfg2.N = 20 := N_2
  obtain ⟨t, ht⟩ : ∃ t : Fin cfg2.N, t.val = 19 := ⟨⟨19, by rw [hN]; omega⟩, rfl⟩
  refine ⟨t, (flush2_4 t).mpr (by rw [ht]), ?_⟩
  rw [mem_blk4]
  intro a
  match a with
  | ⟨0, _⟩ =>
    show win2_4.index t 0 * 1 ≤ (i 0).val ∧ (i 0).val < win2_4.index t 0 * 1 + 1
    rw [(idx_sum t).1]; omega
  | ⟨1, _⟩ =>
    show win2_4.index t 1 * 64 ≤ (i 1).val ∧ (i 1).val < win2_4.index t 1 * 64 + 64
    rw [(idx_sum t).2]; omega

/-- So output 4's array ends holding the column sums. -/
theorem arr4_eq (c : Dev nD) : (dat2 V c).arrAt 4 cfg2.N = sumOut V c :=
  (dat2 V c).arrAt_eq_of_cover 4 (sumOut V c) (fun t hf => flushed4 V c t hf) cover4

/-- What point `t` writes back to output 5 is block `t` of any row `G` that agrees, column by column, with what the
    running row holds after point `t` (the row `G` is kept a variable here: the block's place in the array is all that is read). -/
theorem flushed5_of (c : Dev nD) (t : Fin cfg2.N) (G : S1x64.Idx → EReal)
    (hG : ∀ j : Fin 64, (outsAt2 V c t.val t.isLt).2.2 (ix2 (0 : Fin 1) j) = G (ix2 (0 : Fin 1) j)) :
    (dat2 V c).flushed 5 t = ((cfg2.win 5).blk t).view.read (Elt Ideal) G := by
  show (cfg2.win 5).cut (grid2.coords t) ((dat2 V c).after 5 t) = _
  rw [after2_5]
  funext y
  have hy0 : (y 0).val < 1 := (y 0).isLt
  have hy1 : (y 1).val < 64 := (y 1).isLt
  show (outsAt2 V c t.val t.isLt).2.2 ((cfg2.win 5).xinj (grid2.coords t) y)
    = G (((cfg2.win 5).blk t).view.emb y)
  have hx : (cfg2.win 5).xinj (grid2.coords t) y = ix2 (0 : Fin 1) (⟨(y 1).val, hy1⟩ : Fin 64) := by
    funext a
    apply Fin.ext
    match a with
    | ⟨0, _⟩ => show (y 0).val = 0; omega
    | ⟨1, _⟩ => rfl
  have he : ((cfg2.win 5).blk t).view.emb y = ix2 (0 : Fin 1) (⟨(y 1).val, hy1⟩ : Fin 64) := by
    funext a
    apply Fin.ext
    match a with
    | ⟨0, _⟩ => show win2_5.index t 0 * 1 + 1 * (y 0).val = 0; rw [(idx_sq t).1]; omega
    | ⟨1, _⟩ => show win2_5.index t 1 * 64 + 1 * (y 1).val = (y 1).val; rw [(idx_sq t).2]; omega
  rw [hx, he]
  exact hG _

/-- The one point that writes output 5 back is the last, and there the running row is `sqOut`. -/
theorem flushed5 (c : Dev nD) (t : Fin cfg2.N) (hf : (cfg2.win 5).flush t = true) :
    (dat2 V c).flushed 5 t = ((cfg2.win 5).blk t).view.read (Elt Ideal) (sqOut V c) := by
  have hN : t.val < 20 := lt_of_lt_of_eq t.isLt (show cfg2.N = 20 from N_2)
  have h19 : t.val = 19 := by have := (flush2_5 t).mp hf; omega
  exact flushed5_of V c t (sqOut V c) fun j => last_sq V c t.val t.isLt h19 j

/-- An index of output 5 is in point `t`'s block iff each coordinate is in the block's range on its axis. -/
theorem mem_blk5 (t : Fin cfg2.N) (i : S1x64.Idx) :
    i ∈ ((cfg2.win 5).blk t).view.set ↔ ∀ a : Fin 2, win2_5.index t a * S1x64.size a ≤ (i a).val
      ∧ (i a).val < win2_5.index t a * S1x64.size a + S1x64.size a := by
  show i ∈ ((View.whole main_v58_2).slice (win2_5.rect t)).set ↔ _
  rw [View.set_slice_whole, Rect.mem_set_unit]
  exact Iff.rfl

/-- The last point's block is the whole row. -/
theorem cover5 (i : S1x64.Idx) :
    ∃ t : Fin cfg2.N, (cfg2.win 5).flush t = true ∧ i ∈ ((cfg2.win 5).blk t).view.set := by
  have hi0 : (i 0).val < 1 := (i 0).isLt
  have hi1 : (i 1).val < 64 := (i 1).isLt
  have hN : cfg2.N = 20 := N_2
  obtain ⟨t, ht⟩ : ∃ t : Fin cfg2.N, t.val = 19 := ⟨⟨19, by rw [hN]; omega⟩, rfl⟩
  refine ⟨t, (flush2_5 t).mpr (by rw [ht]), ?_⟩
  rw [mem_blk5]
  intro a
  match a with
  | ⟨0, _⟩ =>
    show win2_5.index t 0 * 1 ≤ (i 0).val ∧ (i 0).val < win2_5.index t 0 * 1 + 1
    rw [(idx_sq t).1]; omega
  | ⟨1, _⟩ =>
    show win2_5.index t 1 * 64 ≤ (i 1).val ∧ (i 1).val < win2_5.index t 1 * 64 + 64
    rw [(idx_sq t).2]; omega

/-- So output 5's array ends holding the column sums of squares. -/
theorem arr5_eq (c : Dev nD) : (dat2 V c).arrAt 5 cfg2.N = sqOut V c :=
  (dat2 V c).arrAt_eq_of_cover 5 (sqOut V c) (fun t hf => flushed5 V c t hf) cover5

/-- Entry by entry. -/
theorem arr4 (c : Dev nD) (j : Fin 64) :
    (dat2 V c).arrAt 4 cfg2.N (ix2 (0 : Fin 1) j)
      = Cert.Spec.colSum (Cert.Spec.lin (rowsIn V c) (weights V c) (bias V c)) j :=
  congrFun (arr4_eq V c) (ix2 (0 : Fin 1) j)

theorem arr5 (c : Dev nD) (j : Fin 64) :
    (dat2 V c).arrAt 5 cfg2.N (ix2 (0 : Fin 1) j)
      = ∑ r : Fin 100000, Cert.Spec.lin (rowsIn V c) (weights V c) (bias V c) r j
          * Cert.Spec.lin (rowsIn V c) (weights V c) (bias V c) r j :=
  congrFun (arr5_eq V c) (ix2 (0 : Fin 1) j)

end Cert.KernelIdeal.Reg2

end
-- ==== Proof.Reg3Pieces.lean ====
/-
  Region 3 (the same normalise-scale-shift-clamp map, pooled over the rows): what one grid point leaves in the pooled row.

  The pooled row (1 × 64) stays in its staging buffer across the 20 grid points. The first point stores zeros into it, reads
  them back, and stores the zeros plus the column sums of its 5000 × 64 block of clamped entries; every later point stores what
  the row held plus the column sums of its own block. The block of clamped entries is, term for term, the block region 1's
  body stores, so its entries are read by the same lemma.
-/
import proofs.«133934_j19997367730796_1_alg».proof.Proof.Gen.KernelIdeal.Frame
import Idealize.ShloMosaic.PureOps.Ideal.Laws
import Idealize.ShloMosaic.Lib.ValueLayout
import Idealize.ShloMosaic.Lib.ValueIdx
import Idealize.ShloMosaic.Lib.Pipeline.Value
import Idealize.ShloMosaic.Lib.Tactic

noncomputable section

namespace Cert.KernelIdeal.Reg3

open Cert.KernelIdeal Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

section Pieces
variable {F : FTy → Type} [FloatOps F]

/-- At the first point the body zeroes the pooled row, reads the zeros back, and stores them plus the block's column sums. -/
theorem outA_eq (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : Gen.cond3_0 i)
    (x0 : Vec F S5000x64 .f32) (x1 x2 x3 x4 : Vec F S1x64 .f32) :
    Gen.out3_A_5 c i arg1 harg1 arg2 harg2 arg3 harg3 arg4 harg4 arg5 harg5 arg6 harg6 hc0 x0 x1 x2 x3 x4 = Gen.k3_pay2 x0 x1 x2 x3 x4 (Gen.k3_pay1 (F := F)) := by
  unfold Gen.out3_A_5
  rw [View.read_writes_eq_canon _ _ _ (Gen.cover3_A_5 c i arg1 harg1 arg2 harg2 arg3 harg3 arg4 harg4 arg5 harg5 arg6 harg6 hc0 x0 x1 x2 x3 x4)]
  unfold Gen.kernelRun3_A
  dsimp only
  try sl_unfold_words
  rw [View.canon_cons_unit_zero hz, View.readCov_unit_zero (S := S1x64) _ hz]
  simp only [View.readAt_eq_ld, harg1.read_unread, harg2.read_unread, harg3.read_unread, harg4.read_unread, harg5.read_unread,
    View.ld_unit_zero (S := S5000x64) hz, View.ld_unit_zero (S := S1x64) hz]

/-- At a later point the body stores what the pooled row held plus the block's column sums. -/
theorem outB_eq (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬Gen.cond3_0 i)
    (x0 : Vec F S5000x64 .f32) (x1 x2 x3 x4 xo : Vec F S1x64 .f32) :
    Gen.out3_B_5 c i arg1 harg1 arg2 harg2 arg3 harg3 arg4 harg4 arg5 harg5 arg6 harg6 hc0 x0 x1 x2 x3 x4 xo = Gen.k3_pay2 x0 x1 x2 x3 x4 xo := by
  unfold Gen.out3_B_5
  rw [View.read_writes_eq_canon _ _ _ (Gen.cover3_B_5 c i arg1 harg1 arg2 harg2 arg3 harg3 arg4 harg4 arg5 harg5 arg6 harg6 hc0 x0 x1 x2 x3 x4 xo)]
  unfold Gen.kernelRun3_B
  dsimp only
  try sl_unfold_words
  rw [View.canon_unit_zero hz]
  simp only [View.readAt_eq_ld, harg1.read_unread, harg2.read_unread, harg3.read_unread, harg4.read_unread, harg5.read_unread,
    harg6.read_unread, View.ld_unit_zero (S := S5000x64) hz, View.ld_unit_zero (S := S1x64) hz]

/-- The stored row is the old row plus the column sums of the very block region 1's body stores. -/
theorem pay2_eq (x0 : Vec F S5000x64 .f32) (x1 x2 x3 x4 xo : Vec F S1x64 .f32) :
    Gen.k3_pay2 x0 x1 x2 x3 x4 xo
      = addf (shapeCast S1x64 xo Gen.shapeCasts_S1x64_S1x64)
          (shapeCast S1x64 (multiReduction .add [0] S64 (Gen.k1_pay1 x0 x1 x2 x3 x4) 0x00000000#32 Gen.reduces_S5000x64_S64 (.inl rfl) rfl)
            Gen.shapeCasts_S64_S1x64) := rfl

end Pieces

/-- A sum down the rows of a 5000 × 64 block, at channel `q`. -/
theorem colsum_apply (src : FVec Ideal S5000x64 .f32) (hφ : FKind.Formats FTy.f32)
    (hacc : (0x00000000#32 : BitVec 32) = FKind.add.neutral .f32 hφ) (q : Fin 64) :
    multiReduction .add [0] S64 src 0x00000000#32 Gen.reduces_S5000x64_S64 hφ hacc (ix1 q) = ∑ p : Fin 5000, src (ix2 p q) := by
  refine (Ideal.multiReduction_add_single src _ Gen.reduces_S5000x64_S64 hφ hacc (ix1 q)).trans ?_
  refine Finset.sum_congr rfl fun p _ => congrArg src ?_
  funext a
  match a with
  | ⟨0, _⟩ => rfl
  | ⟨1, _⟩ => rfl

/-- The zero row. -/
theorem pay1_apply (q : Fin 64) : Gen.k3_pay1 (F := Ideal) (ix2 (0 : Fin 1) q) = 0 := by
  unfold Gen.k3_pay1
  show Ideal.ofBits .f32 0x00000000#32 = 0
  exact Ideal.ofBits_zero_f32

/-- The stored row at channel `q`: the old row there plus the sum over the block's rows of the clamped entries. -/
theorem pay2_apply (x0 : Vec Ideal S5000x64 .f32) (x1 x2 x3 x4 xo : Vec Ideal S1x64 .f32) (q : Fin 64) :
    Gen.k3_pay2 x0 x1 x2 x3 x4 xo (ix2 (0 : Fin 1) q)
      = xo (ix2 0 q) + ∑ p : Fin 5000, Gen.k1_pay1 x0 x1 x2 x3 x4 (ix2 p q) := by
  rw [pay2_eq]
  rw [addf_apply, shapeCast_self, shapeCast_a_1a_apply]
  exact congrArg (xo (ix2 0 q) + ·) (colsum_apply _ _ _ q)

end Cert.KernelIdeal.Reg3
end
-- ==== Proof.Reg3Blocks.lean ====
/-
  Region 3: which array entries each grid point's blocks hold.

  At point `t` of the 20, the matrix window's block is rows `5000 t … 5000 t + 4999` of the 100000 × 64 input; the four
  per-channel rows and the pooled output row are 1 × 64 arrays whose only block is the whole array, at every point.
-/
import proofs.«133934_j19997367730796_1_alg».proof.Proof.Gen.KernelIdeal.Frame
import Idealize.ShloMosaic.Lib.ValueIdx
import Idealize.ShloMosaic.Lib.Pipeline.Value

noncomputable section

namespace Cert.KernelIdeal.Reg3

open Cert.KernelIdeal Idealize.ShloMosaic Idealize.ShloMosaic.TcCoe Idealize.SL.Sem Idealize.ShloMosaic.ValueIdx
open Idealize.ShloMosaic.Pipeline (Dat)

/-- The block index maps over the grid: the matrix window is at block row `t`, every 1 × 64 window at block (0, 0). -/
theorem idx_facts : ∀ t : Fin cfg3.N,
    win3_0.index t (0 : Fin 2) = t.val ∧ win3_0.index t (1 : Fin 2) = 0
    ∧ win3_5.index t (0 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable {F : FTy → Type} [FloatOps F]
variable (V : (c : Dev nD) → (b : Ref sig .tc) → Buf (Elt F) ((c : Thread nD τ).loc b))

/-- Row `p` of the matrix block at point `t` is row `5000 t + p` of the matrix. -/
theorem mat_apply (c : Dev nD) (t : Fin cfg3.N) (p : Fin 5000) (q : Fin 64) (hlt : t.val * 5000 + p.val < 100000) :
    Gen.iblk3 V c 0 t (ix2 p q) = V c (Pipeline.arrRef spec3 0) (ix2 (⟨t.val * 5000 + p.val, hlt⟩ : Fin 100000) q) := by
  obtain ⟨e00, e01, e50, e51, e10, e11, e20, e21, e30, e31, e40, e41⟩ := idx_facts t
  show V c (Pipeline.arrRef spec3 0) (((cfg3.win 0).blk t).view.emb (ix2 p q)) = _
  refine congrArg (V c (Pipeline.arrRef spec3 0)) ?_
  funext a; apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega

/-- Window 1's block at any point is the whole 1 × 64 row array. -/
theorem row1_apply (c : Dev nD) (t : Fin cfg3.N) (q : Fin 64) :
    Gen.iblk3 V c 1 t (ix2 (0 : Fin 1) q) = V c (Pipeline.arrRef spec3 1) (ix2 (0 : Fin 1) q) := by
  obtain ⟨e00, e01, e50, e51, e10, e11, e20, e21, e30, e31, e40, e41⟩ := idx_facts t
  have hq : q.val < 64 := q.isLt
  show V c (Pipeline.arrRef spec3 1) (((cfg3.win 1).blk t).view.emb (ix2 (0 : Fin 1) q)) = _
  refine congrArg (V c (Pipeline.arrRef spec3 1)) ?_
  funext a; apply Fin.ext
  match a with
  | ⟨0, _⟩ => show win3_1.index t (0 : Fin 2) * 1 + 1 * (0 : Fin 1).val = (0 : Fin 1).val; omega
  | ⟨1, _⟩ => show win3_1.index t (1 : Fin 2) * 64 + 1 * q.val = q.val; omega

/-- Window 2's block at any point is the whole 1 × 64 row array. -/
theorem row2_apply (c : Dev nD) (t : Fin cfg3.N) (q : Fin 64) :
    Gen.iblk3 V c 2 t (ix2 (0 : Fin 1) q) = V c (Pipeline.arrRef spec3 2) (ix2 (0 : Fin 1) q) := by
  obtain ⟨e00, e01, e50, e51, e10, e11, e20, e21, e30, e31, e40, e41⟩ := idx_facts t
  have hq : q.val < 64 := q.isLt
  show V c (Pipeline.arrRef spec3 2) (((cfg3.win 2).blk t).view.emb (ix2 (0 : Fin 1) q)) = _
  refine congrArg (V c (Pipeline.arrRef spec3 2)) ?_
  funext a; apply Fin.ext
  match a with
  | ⟨0, _⟩ => show win3_2.index t (0 : Fin 2) * 1 + 1 * (0 : Fin 1).val = (0 : Fin 1).val; omega
  | ⟨1, _⟩ => show win3_2.index t (1 : Fin 2) * 64 + 1 * q.val = q.val; omega

/-- Window 3's block at any point is the whole 1 × 64 row array. -/
theorem row3_apply (c : Dev nD) (t : Fin cfg3.N) (q : Fin 64) :
    Gen.iblk3 V c 3 t (ix2 (0 : Fin 1) q) = V c (Pipeline.arrRef spec3 3) (ix2 (0 : Fin 1) q) := by
  obtain ⟨e00, e01, e50, e51, e10, e11, e20, e21, e30, e31, e40, e41⟩ := idx_facts t
  have hq : q.val < 64 := q.isLt
  show V c (Pipeline.arrRef spec3 3) (((cfg3.win 3).blk t).view.emb (ix2 (0 : Fin 1) q)) = _
  refine congrArg (V c (Pipeline.arrRef spec3 3)) ?_
  funext a; apply Fin.ext
  match a with
  | ⟨0, _⟩ => show win3_3.index t (0 : Fin 2) * 1 + 1 * (0 : Fin 1).val = (0 : Fin 1).val; omega
  | ⟨1, _⟩ => show win3_3.index t (1 : Fin 2) * 64 + 1 * q.val = q.val; omega

/-- Window 4's block at any point is the whole 1 × 64 row array. -/
theorem row4_apply (c : Dev nD) (t : Fin cfg3.N) (q : Fin 64) :
    Gen.iblk3 V c 4 t (ix2 (0 : Fin 1) q) = V c (Pipeline.arrRef spec3 4) (ix2 (0 : Fin 1) q) := by
  obtain ⟨e00, e01, e50, e51, e10, e11, e20, e21, e30, e31, e40, e41⟩ := idx_facts t
  have hq : q.val < 64 := q.isLt
  show V c (Pipeline.arrRef spec3 4) (((cfg3.win 4).blk t).view.emb (ix2 (0 : Fin 1) q)) = _
  refine congrArg (V c (Pipeline.arrRef spec3 4)) ?_
  funext a; apply Fin.ext
  match a with
  | ⟨0, _⟩ => show win3_4.index t (0 : Fin 2) * 1 + 1 * (0 : Fin 1).val = (0 : Fin 1).val; omega
  | ⟨1, _⟩ => show win3_4.index t (1 : Fin 2) * 64 + 1 * q.val = q.val; omega

/-- The pooled row's block at any point is the whole 1 × 64 output array. -/
theorem out_emb (t : Fin cfg3.N) (q : Fin 64) :
    ((cfg3.win 5).blk t).view.emb (ix2 (0 : Fin 1) q) = ix2 (0 : Fin 1) q := by
  obtain ⟨e00, e01, e50, e51, e10, e11, e20, e21, e30, e31, e40, e41⟩ := idx_facts t
  have hq : q.val < 64 := q.isLt
  funext a; apply Fin.ext
  match a with
  | ⟨0, _⟩ => show win3_5.index t (0 : Fin 2) * 1 + 1 * (0 : Fin 1).val = (0 : Fin 1).val; omega
  | ⟨1, _⟩ => show win3_5.index t (1 : Fin 2) * 64 + 1 * q.val = q.val; omega

/-- Every index of the pooled output array is in every point's block. -/
theorem mem_blk (t : Fin cfg3.N) (i : S1x64.Idx) : i ∈ ((cfg3.win 5).blk t).view.set := by
  obtain ⟨e00, e01, e50, e51, e10, e11, e20, e21, e30, e31, e40, e41⟩ := idx_facts t
  have hi0 : (i 0).val < 1 := (i 0).isLt
  have hi1 : (i 1).val < 64 := (i 1).isLt
  show i ∈ ((View.whole main_v68).slice (win3_5.rect t)).set
  rw [View.set_slice_whole, Rect.mem_set_unit]
  intro a
  match a with
  | ⟨0, _⟩ => show win3_5.index t (0 : Fin 2) * 1 ≤ (i 0).val ∧ (i 0).val < win3_5.index t (0 : Fin 2) * 1 + 1; omega
  | ⟨1, _⟩ => show win3_5.index t (1 : Fin 2) * 64 ≤ (i 1).val ∧ (i 1).val < win3_5.index t (1 : Fin 2) * 64 + 64; omega

end Cert.KernelIdeal.Reg3
end
-- ==== Proof.Reg3Acc.lean ====
/-
  Region 3's staged pooled row after each grid point, and the 20 block sums regrouped into one sum over the rows.

  After grid point `n` the staged pooled row holds the sum of the column sums of blocks `0 … n` (induction over the points: the
  first point starts from zeros, each later point adds its block's column sums to what the point before left). Block `t`'s
  column sum at channel `q` is the sum over `p < 5000` of the clamped entry at row `5000 t + p`. Regrouping the 20 × 5000 double
  sum into one sum over the 100000 rows (commutativity and associativity only) gives the specification's column sum.
-/
import proofs.«133934_j19997367730796_1_alg».proof.Proof.Reg3Pieces
import proofs.«133934_j19997367730796_1_alg».proof.Proof.Reg3Blocks
import proofs.«133934_j19997367730796_1_alg».proof.Proof.Reg1Blocks
import proofs.«133934_j19997367730796_1_alg».proof.Proof.BlockSum
import proofs.«133934_j19997367730796_1_alg».proof.Proof.Spec

noncomputable section

namespace Cert.KernelIdeal.Reg3

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The clamped entry at row `r` and channel `q` of the region's inputs; zero beyond the matrix's rows. -/
def entry (c : Dev nD) (r : ℕ) (q : Fin 64) : EReal :=
  if h : r < 100000 then
    Cert.Spec.bnRelu (fun r j => V c (Pipeline.arrRef spec3 0) (ix2 r j)) (fun j => V c (Pipeline.arrRef spec3 1) (ix2 (0 : Fin 1) j))
          (fun j => V c (Pipeline.arrRef spec3 2) (ix2 (0 : Fin 1) j)) (fun j => V c (Pipeline.arrRef spec3 3) (ix2 (0 : Fin 1) j))
          (fun j => V c (Pipeline.arrRef spec3 4) (ix2 (0 : Fin 1) j)) ⟨r, h⟩ q
  else 0

/-- The column sum of block `t` of clamped entries, at channel `q`: the entries at rows `5000 t + p`. -/
theorem block_eq (c : Dev nD) (t : Fin cfg3.N) (q : Fin 64) :
    ∑ p : Fin 5000, Gen.k1_pay1 (Gen.iblk3 V c 0 t) (Gen.iblk3 V c 1 t) (Gen.iblk3 V c 2 t) (Gen.iblk3 V c 3 t) (Gen.iblk3 V c 4 t) (ix2 p q)
      = ∑ p : Fin 5000, entry V c (t.val * 5000 + p.val) q := by
  have ht : t.val < 20 := lt_of_lt_of_eq t.isLt Gen.N_3
  refine Finset.sum_congr rfl fun p _ => ?_
  have hp : p.val < 5000 := p.isLt
  have hlt : t.val * 5000 + p.val < 100000 := by omega
  refine (Reg1.pay_apply (Gen.iblk3 V c 0 t) (Gen.iblk3 V c 1 t) (Gen.iblk3 V c 2 t) (Gen.iblk3 V c 3 t) (Gen.iblk3 V c 4 t) p q).trans ?_
  rw [mat_apply V c t p q hlt, row1_apply V c t q, row2_apply V c t q, row3_apply V c t q, row4_apply V c t q]
  unfold entry
  rw [dif_pos hlt]
  rfl

/-- The first point leaves its block's column sums. -/
theorem step_first (c : Dev nD) (t : Fin cfg3.N) (h0 : t.val % 20 = 0) (q : Fin 64) :
    Gen.outsAt3 V c t.val t.isLt (ix2 (0 : Fin 1) q) = ∑ p : Fin 5000, entry V c (t.val * 5000 + p.val) q := by
  rw [Gen.outsAt3_A V c t h0]
  refine (congrFun (outA_eq (F := Ideal) c (grid3.coords t) (Gen.ms3_0 t) (Gen.hs3_0 t) (Gen.ms3_1 t) (Gen.hs3_1 t) (Gen.ms3_2 t) (Gen.hs3_2 t) (Gen.ms3_3 t) (Gen.hs3_3 t) (Gen.ms3_4 t) (Gen.hs3_4 t) (Gen.ms3_5 t) (Gen.hs3_5 t) ((Gen.hcond3_0 t).mpr h0)
    (Gen.iblk3 V c 0 t) (Gen.iblk3 V c 1 t) (Gen.iblk3 V c 2 t) (Gen.iblk3 V c 3 t) (Gen.iblk3 V c 4 t)) (ix2 (0 : Fin 1) q)).trans ?_
  refine (pay2_apply (Gen.iblk3 V c 0 t) (Gen.iblk3 V c 1 t) (Gen.iblk3 V c 2 t) (Gen.iblk3 V c 3 t) (Gen.iblk3 V c 4 t) (Gen.k3_pay1 (F := Ideal)) q).trans ?_
  rw [pay1_apply, zero_add, block_eq V c t q]

/-- A later point adds its block's column sums to what the point before left. -/
theorem step_next (c : Dev nD) (t : Fin cfg3.N) (h0 : ¬t.val % 20 = 0) (q : Fin 64) :
    Gen.outsAt3 V c t.val t.isLt (ix2 (0 : Fin 1) q)
      = Gen.outsAt3 V c (t.val - 1) (Nat.lt_of_le_of_lt (Nat.sub_le _ _) t.isLt) (ix2 (0 : Fin 1) q)
        + ∑ p : Fin 5000, entry V c (t.val * 5000 + p.val) q := by
  rw [Gen.outsAt3_B V c t h0]
  refine (congrFun (outB_eq (F := Ideal) c (grid3.coords t) (Gen.ms3_0 t) (Gen.hs3_0 t) (Gen.ms3_1 t) (Gen.hs3_1 t) (Gen.ms3_2 t) (Gen.hs3_2 t) (Gen.ms3_3 t) (Gen.hs3_3 t) (Gen.ms3_4 t) (Gen.hs3_4 t) (Gen.ms3_5 t) (Gen.hs3_5 t) (fun h => h0 ((Gen.hcond3_0 t).mp h))
    (Gen.iblk3 V c 0 t) (Gen.iblk3 V c 1 t) (Gen.iblk3 V c 2 t) (Gen.iblk3 V c 3 t) (Gen.iblk3 V c 4 t) (Gen.outsAt3 V c (t.val - 1) (Nat.lt_of_le_of_lt (Nat.sub_le _ _) t.isLt))) (ix2 (0 : Fin 1) q)).trans ?_
  refine (pay2_apply (Gen.iblk3 V c 0 t) (Gen.iblk3 V c 1 t) (Gen.iblk3 V c 2 t) (Gen.iblk3 V c 3 t) (Gen.iblk3 V c 4 t) (Gen.outsAt3 V c (t.val - 1) (Nat.lt_of_le_of_lt (Nat.sub_le _ _) t.isLt)) q).trans ?_
  rw [block_eq V c t q]

/-- After point `n` the pooled row holds the column sums of blocks `0 … n`. -/
theorem acc_eq (c : Dev nD) : ∀ (n : ℕ) (hn : n < cfg3.N) (q : Fin 64),
    Gen.outsAt3 V c n hn (ix2 (0 : Fin 1) q) = ∑ s ∈ Finset.range (n + 1), ∑ p : Fin 5000, entry V c (s * 5000 + p.val) q := by
  intro n
  induction n with
  | zero =>
    intro hn q
    refine (step_first V c ⟨0, hn⟩ (Nat.zero_mod 20) q).trans ?_
    rw [Finset.sum_range_succ, Finset.range_zero, Finset.sum_empty, zero_add]
  | succ n ih =>
    intro hn q
    have hn' : n + 1 < 20 := lt_of_lt_of_eq hn Gen.N_3
    have h0 : ¬(n + 1) % 20 = 0 := by omega
    refine (step_next V c ⟨n + 1, hn⟩ h0 q).trans ?_
    rw [Finset.sum_range_succ _ (n + 1)]
    exact congrArg (· + ∑ p : Fin 5000, entry V c ((n + 1) * 5000 + p.val) q) (ih (Nat.lt_of_succ_lt hn) q)

/-- The 20 block sums together are the sum over all rows. -/
theorem total (c : Dev nD) (q : Fin 64) :
    ∑ s ∈ Finset.range 20, ∑ p : Fin 5000, entry V c (s * 5000 + p.val) q
      = Cert.Spec.colSum (Cert.Spec.bnRelu (fun r j => V c (Pipeline.arrRef spec3 0) (ix2 r j)) (fun j => V c (Pipeline.arrRef spec3 1) (ix2 (0 : Fin 1) j))
          (fun j => V c (Pipeline.arrRef spec3 2) (ix2 (0 : Fin 1) j)) (fun j => V c (Pipeline.arrRef spec3 3) (ix2 (0 : Fin 1) j))
          (fun j => V c (Pipeline.arrRef spec3 4) (ix2 (0 : Fin 1) j))) q := by
  rw [Finset.sum_range]
  exact (Cert.BlockSum.sum_blocks (m := 20) (n := 5000) (N := 100000) (by norm_num)
    (fun r => Cert.Spec.bnRelu (fun r j => V c (Pipeline.arrRef spec3 0) (ix2 r j)) (fun j => V c (Pipeline.arrRef spec3 1) (ix2 (0 : Fin 1) j))
          (fun j => V c (Pipeline.arrRef spec3 2) (ix2 (0 : Fin 1) j)) (fun j => V c (Pipeline.arrRef spec3 3) (ix2 (0 : Fin 1) j))
          (fun j => V c (Pipeline.arrRef spec3 4) (ix2 (0 : Fin 1) j)) r q)
    (fun s p => entry V c (s.val * 5000 + p.val) q) (fun s p hlt => dif_pos hlt)).symm

/-- The pooled output array as one function of the region's inputs. -/
def pooled (c : Dev nD) : S1x64.Idx → EReal :=
  fun i => Cert.Spec.colSum (Cert.Spec.bnRelu (fun r j => V c (Pipeline.arrRef spec3 0) (ix2 r j)) (fun j => V c (Pipeline.arrRef spec3 1) (ix2 (0 : Fin 1) j))
          (fun j => V c (Pipeline.arrRef spec3 2) (ix2 (0 : Fin 1) j)) (fun j => V c (Pipeline.arrRef spec3 3) (ix2 (0 : Fin 1) j))
          (fun j => V c (Pipeline.arrRef spec3 4) (ix2 (0 : Fin 1) j))) (i 1)

end Cert.KernelIdeal.Reg3
end
-- ==== Proof.Reg3.lean ====
/-
  Region 3's pooled row after the region: the per-channel sum, over all 100000 rows, of the clamped entries.

  The pooled row is written back once, after the last of the 20 grid points, when it holds the column sums of all 20 blocks;
  its one block is the whole 1 × 64 output array. So the output array after the region is the specification's column sum.
-/
import proofs.«133934_j19997367730796_1_alg».proof.Proof.Reg3Acc

noncomputable section

namespace Cert.KernelIdeal.Reg3

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The pooled array at channel `q` of its one row. -/
theorem pooled_apply (c : Dev nD) (q : Fin 64) :
    pooled V c (ix2 (0 : Fin 1) q) = Cert.Spec.colSum (Cert.Spec.bnRelu (fun r j => V c (Pipeline.arrRef spec3 0) (ix2 r j)) (fun j => V c (Pipeline.arrRef spec3 1) (ix2 (0 : Fin 1) j))
          (fun j => V c (Pipeline.arrRef spec3 2) (ix2 (0 : Fin 1) j)) (fun j => V c (Pipeline.arrRef spec3 3) (ix2 (0 : Fin 1) j))
          (fun j => V c (Pipeline.arrRef spec3 4) (ix2 (0 : Fin 1) j))) q :=
  congrArg (Cert.Spec.colSum (Cert.Spec.bnRelu (fun r j => V c (Pipeline.arrRef spec3 0) (ix2 r j)) (fun j => V c (Pipeline.arrRef spec3 1) (ix2 (0 : Fin 1) j))
          (fun j => V c (Pipeline.arrRef spec3 2) (ix2 (0 : Fin 1) j)) (fun j => V c (Pipeline.arrRef spec3 3) (ix2 (0 : Fin 1) j))
          (fun j => V c (Pipeline.arrRef spec3 4) (ix2 (0 : Fin 1) j))))
    (show (ix2 (0 : Fin 1) q) 1 = q from rfl)

/-- A staged row that agrees, channel by channel, with a function of the output array's index is what the write-back of
    the array's one block writes of that function. -/
theorem read_whole (P : S1x64.Idx → EReal) (X : Vec Ideal S1x64 .f32) (t : Fin cfg3.N)
    (h : ∀ q : Fin 64, X (ix2 (0 : Fin 1) q) = P (ix2 (0 : Fin 1) q)) :
    (cfg3.win 5).cut (grid3.coords t) X = ((cfg3.win 5).blk t).view.read (Elt Ideal) P := by
  funext j
  obtain ⟨u, q, rfl⟩ : ∃ (u : Fin 1) (q : Fin 64), j = ix2 u q := ⟨j 0, j 1, eq_ix2 j⟩
  obtain rfl : u = 0 := Subsingleton.elim _ _
  show X (ix2 (0 : Fin 1) q) = P (((cfg3.win 5).blk t).view.emb (ix2 (0 : Fin 1) q))
  rw [out_emb t q]
  exact h q

/-- The one write-back, after the last point, writes the whole pooled row. -/
theorem flushed_eq (c : Dev nD) (t : Fin cfg3.N) (hf : (cfg3.win 5).flush t = true) :
    (Gen.dat3 V c).flushed 5 t = ((cfg3.win 5).blk t).view.read (Elt Ideal) (pooled V c) := by
  have ht : t.val < 20 := lt_of_lt_of_eq t.isLt Gen.N_3
  have h19 : t.val = 19 := by have := (Gen.flush3_5 t).mp hf; omega
  have hX : ∀ q : Fin 64, Gen.outsAt3 V c t.val t.isLt (ix2 (0 : Fin 1) q) = pooled V c (ix2 (0 : Fin 1) q) := fun q => by
    rw [acc_eq V c t.val t.isLt q, h19]
    exact (total V c q).trans (pooled_apply V c q).symm
  show (cfg3.win 5).cut (grid3.coords t) ((Gen.dat3 V c).after 5 t) = _
  rw [Gen.after3_5]
  exact read_whole (pooled V c) (Gen.outsAt3 V c t.val t.isLt) t hX

/-- The pooled output array after the region. -/
theorem final (c : Dev nD) : (Gen.dat3 V c).arrAt 5 cfg3.N = pooled V c :=
  (Gen.dat3 V c).arrAt_eq_of_cover 5 _ (fun t hf => flushed_eq V c t hf) fun i =>
    ⟨⟨19, lt_of_lt_of_eq (by norm_num) Gen.N_3.symm⟩, (Gen.flush3_5 _).mpr rfl, mem_blk _ i⟩

/-- Region 3's output at channel `j`: the specification's column sum of the clamped, normalised, scaled and shifted input. -/
theorem arr5 (c : Dev nD) : ∀ j : Fin 64,
    (Gen.dat3 V c).arrAt 5 cfg3.N (ix2 (0 : Fin 1) j)
      = Cert.Spec.colSum (Cert.Spec.bnRelu (fun r j => V c (Pipeline.arrRef spec3 0) (ix2 r j)) (fun j => V c (Pipeline.arrRef spec3 1) (ix2 (0 : Fin 1) j))
          (fun j => V c (Pipeline.arrRef spec3 2) (ix2 (0 : Fin 1) j)) (fun j => V c (Pipeline.arrRef spec3 3) (ix2 (0 : Fin 1) j))
          (fun j => V c (Pipeline.arrRef spec3 4) (ix2 (0 : Fin 1) j))) j :=
  fun j => (congrFun (final V c) (ix2 (0 : Fin 1) j)).trans (pooled_apply V c j)

end Cert.KernelIdeal.Reg3
end
-- ==== Proof.KHeadRead.lean ====
/-
  The kernel program's head, read at an index: its [1, 64] × [64, 2] product at (0, class) is the sum over the 64
  features of the operands' products, and its bias row reads the class's entry.
-/
import proofs.«133934_j19997367730796_1_alg».proof.Proof.Gen.KernelIdeal
import proofs.«133934_j19997367730796_1_alg».proof.Proof.Net
import Idealize.ShloMosaic.Lib.ValueIdx
import Idealize.ShloMosaic.Lib.Pipeline.Value
import Idealize.ShloMosaic.PureOps.Ideal.Laws

noncomputable section

open scoped BigOperators

namespace Cert.KernelIdeal.KRead

open Cert.KernelIdeal Cert.KernelIdeal.Gen Idealize.ShloMosaic Idealize.ShloMosaic.ValueIdx

theorem head_lhs0 (i : S1x2.Idx) (q : Cert.KernelIdeal.dot_S1x64_S64x2_S1x2_1_0_0_1_n_n.contr.Idx) :
    (Cert.KernelIdeal.dot_S1x64_S64x2_S1x2_1_0_0_1_n_n.lhsIdx i q 0).val = (i 0).val := by
  unfold DotDims.lhsIdx
  rw [dif_neg (show ¬(0 : Fin S1x64.rank) ∈ Cert.KernelIdeal.dot_S1x64_S64x2_S1x2_1_0_0_1_n_n.lhsBatch by decide),
    dif_pos (show (0 : Fin S1x64.rank) ∈ Cert.KernelIdeal.dot_S1x64_S64x2_S1x2_1_0_0_1_n_n.lhsNonContracting by decide)]
  rfl
theorem head_lhs1 (i : S1x2.Idx) (q : Cert.KernelIdeal.dot_S1x64_S64x2_S1x2_1_0_0_1_n_n.contr.Idx) :
    (Cert.KernelIdeal.dot_S1x64_S64x2_S1x2_1_0_0_1_n_n.lhsIdx i q 1).val = (q ⟨0, by decide⟩).val :=
  Cert.KernelIdeal.dot_S1x64_S64x2_S1x2_1_0_0_1_n_n.lhsIdx_val_of_single rfl i q
theorem head_rhs0 (i : S1x2.Idx) (q : Cert.KernelIdeal.dot_S1x64_S64x2_S1x2_1_0_0_1_n_n.contr.Idx) :
    (Cert.KernelIdeal.dot_S1x64_S64x2_S1x2_1_0_0_1_n_n.rhsIdx i q 0).val = (q ⟨0, by decide⟩).val :=
  Cert.KernelIdeal.dot_S1x64_S64x2_S1x2_1_0_0_1_n_n.rhsIdx_val_of_single rfl i q
theorem head_rhs1 (i : S1x2.Idx) (q : Cert.KernelIdeal.dot_S1x64_S64x2_S1x2_1_0_0_1_n_n.contr.Idx) :
    (Cert.KernelIdeal.dot_S1x64_S64x2_S1x2_1_0_0_1_n_n.rhsIdx i q 1).val = (i 1).val := by
  unfold DotDims.rhsIdx
  rw [dif_neg (show ¬(1 : Fin S64x2.rank) ∈ Cert.KernelIdeal.dot_S1x64_S64x2_S1x2_1_0_0_1_n_n.rhsBatch by decide),
    dif_pos (show (1 : Fin S64x2.rank) ∈ Cert.KernelIdeal.dot_S1x64_S64x2_S1x2_1_0_0_1_n_n.rhsNonContracting by decide)]
  rfl

/-- The [1, 64] × [64, 2] product at (0, class): the contraction index is its one coordinate, the left operand is read
    at (0, k) and the right at (k, class). -/
theorem headDot_apply (l : FVec Ideal S1x64 .f32) (R : FVec Ideal S64x2 .f32) (j : Fin 2) :
    Host.dotGeneral (F := Ideal) Cert.KernelIdeal.dot_S1x64_S64x2_S1x2_1_0_0_1_n_n none l R (ix2 (0 : Fin 1) j)
      = ∑ k : Fin 64, l (ix2 (0 : Fin 1) k) * R (ix2 k j) := by
  simp only [Host.dotGeneral]
  rw [Ideal.dotGeneral_apply, ← Equiv.sum_comp (ValueIdx.contrEquiv1 Cert.KernelIdeal.dot_S1x64_S64x2_S1x2_1_0_0_1_n_n 64 rfl rfl).symm]
  refine Finset.sum_congr rfl fun k _ => ?_
  have hk := ValueIdx.contrEquiv1_symm_val Cert.KernelIdeal.dot_S1x64_S64x2_S1x2_1_0_0_1_n_n 64 rfl rfl k
  have el : Cert.KernelIdeal.dot_S1x64_S64x2_S1x2_1_0_0_1_n_n.lhsIdx (ix2 (0 : Fin 1) j) ((ValueIdx.contrEquiv1 Cert.KernelIdeal.dot_S1x64_S64x2_S1x2_1_0_0_1_n_n 64 rfl rfl).symm k) = ix2 (0 : Fin 1) k :=
    funext fun a => Fin.ext (by
      match a with
      | ⟨0, _⟩ => exact head_lhs0 _ _
      | ⟨1, _⟩ => exact (head_lhs1 _ _).trans hk)
  have er : Cert.KernelIdeal.dot_S1x64_S64x2_S1x2_1_0_0_1_n_n.rhsIdx (ix2 (0 : Fin 1) j) ((ValueIdx.contrEquiv1 Cert.KernelIdeal.dot_S1x64_S64x2_S1x2_1_0_0_1_n_n 64 rfl rfl).symm k) = ix2 k j :=
    funext fun a => Fin.ext (by
      match a with
      | ⟨0, _⟩ => exact (head_rhs0 _ _).trans hk
      | ⟨1, _⟩ => exact head_rhs1 _ _)
  rw [el, er]

/-- The bias spread to a [1, 2] row reads, at (0, class), the class's entry (whatever the witness of the shape fact). -/
theorem bcast2_apply (hb : S2.BroadcastsInDim S1x2 (![1] : Fin 1 → Fin S1x2.rank)) (bc : FVec Ideal S2 .f32) (j : Fin 2) :
    broadcastInDim Cert.KernelIdeal.S1x2 ![1] hb bc (ix2 (0 : Fin 1) j) = bc (ix1 j) :=
  broadcastInDim_apply _ _ _ _ (ix1 j) (fun a => by match a with | ⟨0, _⟩ => rfl)

end Cert.KernelIdeal.KRead

end
-- ==== Proof.KIndex.lean ====
/-
  The idealized kernel's buffers at the segment boundaries, read index by index into the specification: after the first launch
  the linear map of the aggregated features and its column statistics; after the host operations the channel means and
  reciprocal standard deviations (the variance as mean of squares minus squared mean); after the second launch the normalised,
  clamped features; the same again for the second layer; the pooled row; the readout.
-/
import proofs.«133934_j19997367730796_1_alg».proof.Proof.KChase
import proofs.«133934_j19997367730796_1_alg».proof.Proof.Net
import proofs.«133934_j19997367730796_1_alg».proof.Proof.SpecApply
import proofs.«133934_j19997367730796_1_alg».proof.Proof.Reg0Arr45
import proofs.«133934_j19997367730796_1_alg».proof.Proof.Reg1
import proofs.«133934_j19997367730796_1_alg».proof.Proof.Reg2Arr45
import proofs.«133934_j19997367730796_1_alg».proof.Proof.Reg3
import proofs.«133934_j19997367730796_1_alg».proof.Proof.KHeadRead

set_option maxRecDepth 16384

noncomputable section

namespace Cert.KernelIdeal.KIndex

open Idealize.ShloMosaic Idealize.ShloMosaic.TcCoe Idealize.ShloMosaic.ValueIdx Idealize.SL.Sem
open Cert.KernelIdeal Cert.KernelIdeal.Gen Cert.KernelIdeal.KChase
open Cert.Spec

/-- The aggregation, by its definition. -/
theorem aggK_def (src dst : IVec S1600000 32) (h : FVec Ideal S100000x64 .f32) :
    aggK src dst h = aggCore h (degCol src) (degCol dst) src dst := rfl

attribute [local irreducible] Cert.KernelIdeal.KChase.aggK

variable (m : (ℓ : Loc nD τ sig) → Buf (Elt Ideal) ℓ) (ρ : Dev nD → PrngReg) (c : Dev nD)

/-- The launch contents of the argument arrays, as arrays of extended reals. -/
abbrev a0 : Arr2 100000 64 := m ((c : Thread nD τ).loc main_arg0)
abbrev a1 : IVec S1600000 32 := m ((c : Thread nD τ).loc main_arg1)
abbrev a2 : IVec S1600000 32 := m ((c : Thread nD τ).loc main_arg2)
abbrev a3 : Arr2 64 64 := m ((c : Thread nD τ).loc main_arg3)
abbrev a4 : Arr1 64 := m ((c : Thread nD τ).loc main_arg4)
abbrev a5 : Arr1 64 := m ((c : Thread nD τ).loc main_arg5)
abbrev a6 : Arr1 64 := m ((c : Thread nD τ).loc main_arg6)
abbrev a7 : Arr2 64 64 := m ((c : Thread nD τ).loc main_arg7)
abbrev a8 : Arr1 64 := m ((c : Thread nD τ).loc main_arg8)
abbrev a9 : Arr1 64 := m ((c : Thread nD τ).loc main_arg9)
abbrev a10 : Arr1 64 := m ((c : Thread nD τ).loc main_arg10)
abbrev a11 : Arr2 64 2 := m ((c : Thread nD τ).loc main_arg11)
abbrev a12 : Arr1 2 := m ((c : Thread nD τ).loc main_arg12)

/-- The first layer: the linear map of the aggregated input features, and its normalised, clamped output. -/
def Y1 : Mat := lin (toMat (aggK (a1 m c) (a2 m c) (a0 m c))) (toMat (a3 m c)) (toRow (a4 m c))
def H1 : Mat := bnRelu (Y1 m c) (mean (Y1 m c)) (invStd (varSq (Y1 m c))) (toRow (a5 m c)) (toRow (a6 m c))
/-- The second layer. -/
def Y2 : Mat := lin (toMat (aggK (a1 m c) (a2 m c) (ofMat (H1 m c)))) (toMat (a7 m c)) (toRow (a8 m c))
def H2 : Mat := bnRelu (Y2 m c) (mean (Y2 m c)) (invStd (varSq (Y2 m c))) (toRow (a9 m c)) (toRow (a10 m c))

theorem H2_def : H2 m c = bnRelu (Y2 m c) (mean (Y2 m c)) (invStd (varSq (Y2 m c))) (toRow (a9 m c)) (toRow (a10 m c)) := rfl

/-! ## Each launch's operand arrays are the boundary's buffers -/

theorem eV5_0 : V5 m ρ c (Pipeline.arrRef spec0 0) = W5 m ρ c (Proc.devRef .tc main_v32) := rfl
theorem eV5_1 : V5 m ρ c (Pipeline.arrRef spec0 1) = W5 m ρ c (Proc.devRef .tc main_arg3) := rfl
theorem eV5_2 : V5 m ρ c (Pipeline.arrRef spec0 2) = W5 m ρ c (Proc.devRef .tc main_v13) := rfl
theorem eV7_0 : V7 m ρ c (Pipeline.arrRef spec1 0) = W7 m ρ c (Proc.devRef .tc main_v33_0) := rfl
theorem eV7_1 : V7 m ρ c (Pipeline.arrRef spec1 1) = W7 m ρ c (Proc.devRef .tc main_v35) := rfl
theorem eV7_2 : V7 m ρ c (Pipeline.arrRef spec1 2) = W7 m ρ c (Proc.devRef .tc main_v42) := rfl
theorem eV7_3 : V7 m ρ c (Pipeline.arrRef spec1 3) = W7 m ρ c (Proc.devRef .tc main_v14) := rfl
theorem eV7_4 : V7 m ρ c (Pipeline.arrRef spec1 4) = W7 m ρ c (Proc.devRef .tc main_v15) := rfl
theorem eV9_0 : V9 m ρ c (Pipeline.arrRef spec2 0) = W9 m ρ c (Proc.devRef .tc main_v57) := rfl
theorem eV9_1 : V9 m ρ c (Pipeline.arrRef spec2 1) = W9 m ρ c (Proc.devRef .tc main_arg7) := rfl
theorem eV9_2 : V9 m ρ c (Pipeline.arrRef spec2 2) = W9 m ρ c (Proc.devRef .tc main_v16) := rfl
theorem eV11_0 : V11 m ρ c (Pipeline.arrRef spec3 0) = W11 m ρ c (Proc.devRef .tc main_v58_0) := rfl
theorem eV11_1 : V11 m ρ c (Pipeline.arrRef spec3 1) = W11 m ρ c (Proc.devRef .tc main_v60) := rfl
theorem eV11_2 : V11 m ρ c (Pipeline.arrRef spec3 2) = W11 m ρ c (Proc.devRef .tc main_v67) := rfl
theorem eV11_3 : V11 m ρ c (Pipeline.arrRef spec3 3) = W11 m ρ c (Proc.devRef .tc main_v17) := rfl
theorem eV11_4 : V11 m ρ c (Pipeline.arrRef spec3 4) = W11 m ρ c (Proc.devRef .tc main_v18) := rfl

/-! ## The first layer -/

theorem rows0 : Reg0.rowsIn (V5 m ρ) c = toMat (aggK (a1 m c) (a2 m c) (a0 m c)) :=
  funext fun r => funext fun k => (congrFun ((eV5_0 m ρ c).trans (W5_v32 m ρ c)) (ix2 r k)).trans (toMat_apply _ r k).symm
theorem weights0 : Reg0.weights (V5 m ρ) c = toMat (a3 m c) :=
  funext fun k => funext fun j => (congrFun ((eV5_1 m ρ c).trans (W5_arg3 m ρ c)) (ix2 k j)).trans (toMat_apply _ k j).symm
theorem bias0 : Reg0.bias (V5 m ρ) c = toRow (a4 m c) :=
  funext fun j => (congrFun ((eV5_2 m ρ c).trans (W5_v13 m ρ c)) (ix2 (0 : Fin 1) j)).trans ((shapeCast_a_1a_apply _ _ 0 j).trans (toRow_apply _ j).symm)

theorem lin0 : lin (Reg0.rowsIn (V5 m ρ) c) (Reg0.weights (V5 m ρ) c) (Reg0.bias (V5 m ρ) c) = Y1 m c :=
  lin_congr (rows0 m ρ c) (weights0 m ρ c) (bias0 m ρ c)

/-- The first launch's feature output is the first layer's linear map. -/
theorem y1_at (r : Fin 100000) (j : Fin 64) :
    (W6 m ρ c (Proc.devRef .tc main_v33_0) : S100000x64.Idx → EReal) (ix2 r j) = Y1 m c r j :=
  (congrFun (W6_arr m ρ c 3) (ix2 r j)).trans ((Reg0.arr3 (V5 m ρ) c r j).trans (congrFun (congrFun (lin0 m ρ c) r) j))
/-- Its second output is the column sums, -/
theorem sum1_at (j : Fin 64) :
    (W6 m ρ c (Proc.devRef .tc main_v33_1) : S1x64.Idx → EReal) (ix2 (0 : Fin 1) j) = colSum (Y1 m c) j :=
  (congrFun (W6_arr m ρ c 4) (ix2 (0 : Fin 1) j)).trans ((Reg0.arr4 (V5 m ρ) c j).trans (congrArg (fun Y : Mat => colSum Y j) (lin0 m ρ c)))
/-- and its third the column sums of squares. -/
theorem sq1_at (j : Fin 64) :
    (W6 m ρ c (Proc.devRef .tc main_v33_2) : S1x64.Idx → EReal) (ix2 (0 : Fin 1) j) = ∑ r : Fin 100000, Y1 m c r j * Y1 m c r j :=
  (congrFun (W6_arr m ρ c 5) (ix2 (0 : Fin 1) j)).trans ((Reg0.arr5 (V5 m ρ) c j).trans
    (congrArg (fun Y : Mat => ∑ r : Fin 100000, Y r j * Y r j) (lin0 m ρ c)))

theorem mu1_at (j : Fin 64) :
    (W7 m ρ c (Proc.devRef .tc main_v35) : S1x64.Idx → EReal) (ix2 (0 : Fin 1) j) = mean (Y1 m c) j :=
  (congrFun (W7_v35 m ρ c) (ix2 (0 : Fin 1) j)).trans ((congrArg (fun x : EReal => Ideal.div x nE) (sum1_at m ρ c j)).trans (mean_apply _ j).symm)
theorem inv1_at (j : Fin 64) :
    (W7 m ρ c (Proc.devRef .tc main_v42) : S1x64.Idx → EReal) (ix2 (0 : Fin 1) j) = invStd (varSq (Y1 m c)) j :=
  (congrFun (W7_v42 m ρ c) (ix2 (0 : Fin 1) j)).trans <|
    ((congrArg (fun x : EReal => Ideal.rsqrt ((Ideal.div x nE
        - Ideal.div ((W6 m ρ c (Proc.devRef .tc main_v33_1) : S1x64.Idx → EReal) (ix2 (0 : Fin 1) j)) nE
          * Ideal.div ((W6 m ρ c (Proc.devRef .tc main_v33_1) : S1x64.Idx → EReal) (ix2 (0 : Fin 1) j)) nE) + epsE)) (sq1_at m ρ c j)).trans
     (congrArg (fun x : EReal => Ideal.rsqrt ((Ideal.div (∑ r : Fin 100000, Y1 m c r j * Y1 m c r j) nE
        - Ideal.div x nE * Ideal.div x nE) + epsE)) (sum1_at m ρ c j))).trans (invStd_varSq_apply _ j).symm
theorem g1_at (j : Fin 64) :
    (W7 m ρ c (Proc.devRef .tc main_v14) : S1x64.Idx → EReal) (ix2 (0 : Fin 1) j) = toRow (a5 m c) j :=
  (congrFun ((carry7_main_v14 m ρ c).trans (W5_v14 m ρ c)) (ix2 (0 : Fin 1) j)).trans ((shapeCast_a_1a_apply _ _ 0 j).trans (toRow_apply _ j).symm)
theorem be1_at (j : Fin 64) :
    (W7 m ρ c (Proc.devRef .tc main_v15) : S1x64.Idx → EReal) (ix2 (0 : Fin 1) j) = toRow (a6 m c) j :=
  (congrFun ((carry7_main_v15 m ρ c).trans (W5_v15 m ρ c)) (ix2 (0 : Fin 1) j)).trans ((shapeCast_a_1a_apply _ _ 0 j).trans (toRow_apply _ j).symm)

/-- The second launch's output is the first layer's normalised, clamped features. -/
theorem h1_at (r : Fin 100000) (j : Fin 64) :
    (W8 m ρ c (Proc.devRef .tc main_v43) : S100000x64.Idx → EReal) (ix2 r j) = H1 m c r j :=
  (congrFun (W8_arr m ρ c 5) (ix2 r j)).trans ((Reg1.arr5 (V7 m ρ) c r j).trans (congrFun (congrFun (bnRelu_congr
    (funext fun r => funext fun j => (congrFun ((eV7_0 m ρ c).trans (W7_v33_0 m ρ c)) (ix2 r j)).trans (y1_at m ρ c r j))
    (funext fun j => (congrFun (eV7_1 m ρ c) (ix2 (0 : Fin 1) j)).trans (mu1_at m ρ c j))
    (funext fun j => (congrFun (eV7_2 m ρ c) (ix2 (0 : Fin 1) j)).trans (inv1_at m ρ c j))
    (funext fun j => (congrFun (eV7_3 m ρ c) (ix2 (0 : Fin 1) j)).trans (g1_at m ρ c j))
    (funext fun j => (congrFun (eV7_4 m ρ c) (ix2 (0 : Fin 1) j)).trans (be1_at m ρ c j))) r) j))

theorem h1_eq : (W8 m ρ c (Proc.devRef .tc main_v43) : Arr2 100000 64) = ofMat (H1 m c) :=
  arr2_ext fun r k => (h1_at m ρ c r k).trans (ofMat_apply _ r k).symm

/-! ## The second layer -/

theorem aggCore_congr {h h' : FVec Ideal S100000x64 .f32} {ro ro' ri ri' : FVec Ideal S100000x1 .f32} {src src' dst dst' : IVec S1600000 32}
    (hh : h = h') (hro : ro = ro') (hri : ri = ri') (hs : src = src') (hd : dst = dst') :
    aggCore h ro ri src dst = aggCore h' ro' ri' src' dst' := by subst hh hro hri hs hd; rfl

/-- The third launch's row operand is the aggregation of the first layer's output. -/
theorem w9_v57 : (W9 m ρ c (Proc.devRef .tc main_v57) : S100000x64.Idx → EReal) = aggK (a1 m c) (a2 m c) (ofMat (H1 m c)) :=
  (W9_v57 m ρ c).trans ((aggCore_congr (h1_eq m ρ c) ((carry8_main_v10 m ρ c).trans (W5_v10 m ρ c)) ((carry8_main_v12 m ρ c).trans (W5_v12 m ρ c))
    ((carry8_main_arg1 m ρ c).trans (W5_arg1 m ρ c)) ((carry8_main_arg2 m ρ c).trans (W5_arg2 m ρ c))).trans (aggK_def _ _ _).symm)

theorem rows2 : Reg2.rowsIn (V9 m ρ) c = toMat (aggK (a1 m c) (a2 m c) (ofMat (H1 m c))) :=
  funext fun r => funext fun k => (congrFun ((eV9_0 m ρ c).trans (w9_v57 m ρ c)) (ix2 r k)).trans (toMat_apply _ r k).symm
theorem weights2 : Reg2.weights (V9 m ρ) c = toMat (a7 m c) :=
  funext fun k => funext fun j => (congrFun ((eV9_1 m ρ c).trans ((carry9_main_arg7 m ρ c).trans (W5_arg7 m ρ c))) (ix2 k j)).trans (toMat_apply _ k j).symm
theorem bias2 : Reg2.bias (V9 m ρ) c = toRow (a8 m c) :=
  funext fun j => (congrFun ((eV9_2 m ρ c).trans ((carry9_main_v16 m ρ c).trans (W5_v16 m ρ c))) (ix2 (0 : Fin 1) j)).trans
    ((shapeCast_a_1a_apply _ _ 0 j).trans (toRow_apply _ j).symm)

theorem lin2 : lin (Reg2.rowsIn (V9 m ρ) c) (Reg2.weights (V9 m ρ) c) (Reg2.bias (V9 m ρ) c) = Y2 m c :=
  lin_congr (rows2 m ρ c) (weights2 m ρ c) (bias2 m ρ c)

theorem y2_at (r : Fin 100000) (j : Fin 64) :
    (W10 m ρ c (Proc.devRef .tc main_v58_0) : S100000x64.Idx → EReal) (ix2 r j) = Y2 m c r j :=
  (congrFun (W10_arr m ρ c 3) (ix2 r j)).trans ((Reg2.arr3 (V9 m ρ) c r j).trans (congrFun (congrFun (lin2 m ρ c) r) j))
theorem sum2_at (j : Fin 64) :
    (W10 m ρ c (Proc.devRef .tc main_v58_1) : S1x64.Idx → EReal) (ix2 (0 : Fin 1) j) = colSum (Y2 m c) j :=
  (congrFun (W10_arr m ρ c 4) (ix2 (0 : Fin 1) j)).trans ((Reg2.arr4 (V9 m ρ) c j).trans (congrArg (fun Y : Mat => colSum Y j) (lin2 m ρ c)))
theorem sq2_at (j : Fin 64) :
    (W10 m ρ c (Proc.devRef .tc main_v58_2) : S1x64.Idx → EReal) (ix2 (0 : Fin 1) j) = ∑ r : Fin 100000, Y2 m c r j * Y2 m c r j :=
  (congrFun (W10_arr m ρ c 5) (ix2 (0 : Fin 1) j)).trans ((Reg2.arr5 (V9 m ρ) c j).trans
    (congrArg (fun Y : Mat => ∑ r : Fin 100000, Y r j * Y r j) (lin2 m ρ c)))

theorem mu2_at (j : Fin 64) :
    (W11 m ρ c (Proc.devRef .tc main_v60) : S1x64.Idx → EReal) (ix2 (0 : Fin 1) j) = mean (Y2 m c) j :=
  (congrFun (W11_v60 m ρ c) (ix2 (0 : Fin 1) j)).trans ((congrArg (fun x : EReal => Ideal.div x nE) (sum2_at m ρ c j)).trans (mean_apply _ j).symm)
theorem inv2_at (j : Fin 64) :
    (W11 m ρ c (Proc.devRef .tc main_v67) : S1x64.Idx → EReal) (ix2 (0 : Fin 1) j) = invStd (varSq (Y2 m c)) j :=
  (congrFun (W11_v67 m ρ c) (ix2 (0 : Fin 1) j)).trans <|
    ((congrArg (fun x : EReal => Ideal.rsqrt ((Ideal.div x nE
        - Ideal.div ((W10 m ρ c (Proc.devRef .tc main_v58_1) : S1x64.Idx → EReal) (ix2 (0 : Fin 1) j)) nE
          * Ideal.div ((W10 m ρ c (Proc.devRef .tc main_v58_1) : S1x64.Idx → EReal) (ix2 (0 : Fin 1) j)) nE) + epsE)) (sq2_at m ρ c j)).trans
     (congrArg (fun x : EReal => Ideal.rsqrt ((Ideal.div (∑ r : Fin 100000, Y2 m c r j * Y2 m c r j) nE
        - Ideal.div x nE * Ideal.div x nE) + epsE)) (sum2_at m ρ c j))).trans (invStd_varSq_apply _ j).symm
theorem g2_at (j : Fin 64) :
    (W11 m ρ c (Proc.devRef .tc main_v17) : S1x64.Idx → EReal) (ix2 (0 : Fin 1) j) = toRow (a9 m c) j :=
  (congrFun ((carry11_main_v17 m ρ c).trans (W5_v17 m ρ c)) (ix2 (0 : Fin 1) j)).trans ((shapeCast_a_1a_apply _ _ 0 j).trans (toRow_apply _ j).symm)
theorem be2_at (j : Fin 64) :
    (W11 m ρ c (Proc.devRef .tc main_v18) : S1x64.Idx → EReal) (ix2 (0 : Fin 1) j) = toRow (a10 m c) j :=
  (congrFun ((carry11_main_v18 m ρ c).trans (W5_v18 m ρ c)) (ix2 (0 : Fin 1) j)).trans ((shapeCast_a_1a_apply _ _ 0 j).trans (toRow_apply _ j).symm)

/-- The fourth launch's output is the pooled row of the second layer's normalised, clamped features. -/
theorem pool_at (j : Fin 64) :
    (W12 m ρ c (Proc.devRef .tc main_v68) : S1x64.Idx → EReal) (ix2 (0 : Fin 1) j) = colSum (H2 m c) j :=
  (congrFun (W12_arr m ρ c 5) (ix2 (0 : Fin 1) j)).trans ((Reg3.arr5 (V11 m ρ) c j).trans ((congrArg (fun H : Mat => colSum H j) (bnRelu_congr
    (funext fun r => funext fun j => (congrFun ((eV11_0 m ρ c).trans (W11_v58_0 m ρ c)) (ix2 r j)).trans (y2_at m ρ c r j))
    (funext fun j => (congrFun (eV11_1 m ρ c) (ix2 (0 : Fin 1) j)).trans (mu2_at m ρ c j))
    (funext fun j => (congrFun (eV11_2 m ρ c) (ix2 (0 : Fin 1) j)).trans (inv2_at m ρ c j))
    (funext fun j => (congrFun (eV11_3 m ρ c) (ix2 (0 : Fin 1) j)).trans (g2_at m ρ c j))
    (funext fun j => (congrFun (eV11_4 m ρ c) (ix2 (0 : Fin 1) j)).trans (be2_at m ρ c j)))).trans
    (congrArg (fun H : Mat => colSum H j) (H2_def m c).symm)))

/-! ## The readout -/

theorem out_at (j : Fin 2) :
    (W13 m ρ c (Proc.devRef .tc main_v73) : S1x2.Idx → EReal) (ix2 (0 : Fin 1) j)
      = head (colSum (H2 m c)) (toMat (a11 m c)) (toRow (a12 m c)) j := by
  refine (congrFun (W13_v73 m ρ c) (ix2 (0 : Fin 1) j)).trans ?_
  refine (congrArg₂ (fun x y : EReal => x + y) (KRead.headDot_apply _ _ j) (KRead.bcast2_apply _ _ j)).trans ?_
  refine ((head_apply _ _ _ j).trans ?_).symm
  refine congrArg₂ (fun x y : EReal => x + y) (Finset.sum_congr rfl fun k _ => congrArg₂ (fun x y : EReal => x * y) ?_ ?_) ?_
  · exact (congrArg (fun x : EReal => Ideal.div x nE) (pool_at m ρ c k)).symm
  · exact ((toMat_apply _ k j).trans (congrFun ((carry12_main_arg11 m ρ c).trans (W5_arg11 m ρ c)) (ix2 k j)).symm)
  · exact ((toRow_apply _ j).trans (congrFun ((carry12_main_arg12 m ρ c).trans (W5_arg12 m ρ c)) (ix1 j)).symm)

/-- The whole network, by its definition, is the readout of the second layer's pooled features. -/
theorem net_unfold :
    net (aggK (a1 m c) (a2 m c)) varSq (a0 m c) (a3 m c) (a4 m c) (a5 m c) (a6 m c) (a7 m c) (a8 m c) (a9 m c) (a10 m c) (a11 m c) (a12 m c)
      = head (colSum (H2 m c)) (toMat (a11 m c)) (toRow (a12 m c)) := rfl

/-- THE KERNEL'S VALUE: the result buffer at the last boundary, entry by entry, is the network with the variance taken as mean of
    squares minus squared mean. -/
theorem kernel_out (j : Fin 2) :
    (W13 m ρ c (Proc.devRef .tc main_v73) : S1x2.Idx → EReal) (ix2 (0 : Fin 1) j)
      = net (aggK (m ((c : Thread nD τ).loc main_arg1)) (m ((c : Thread nD τ).loc main_arg2))) varSq
          (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) j :=
  (out_at m ρ c j).trans (congrFun (net_unfold m c).symm j)

end Cert.KernelIdeal.KIndex

end
-- ==== Proof.lean ====
/-
  The certificate: the idealized kernel and the idealized reference compute the same graph-network readout from finite inputs.

  Both programs are two layers of: aggregate the node features along the edges (rows scaled by the reciprocal square root of the
  clamped out-degree, gathered at the edges' sources, summed at their destinations, scaled by the reciprocal square root of the
  clamped in-degree), a linear map with bias, batch normalisation over the nodes, clamp at zero; then the mean over the nodes and a
  linear classifier. At the ideal instance every step is the same function of the arguments except the batch variance: the kernel
  accumulates the column sums and the column sums of squares over its twenty row blocks and takes mean of squares minus squared
  mean; the reference takes the mean of the squared deviations from the mean. On finite data the two agree, and finiteness is carried
  from the precondition through the aggregation (finite sums of finite terms; the clamped degrees are at least one), the linear map
  and the normalisation (the variance is a nonnegative real, so its stabilised reciprocal square root is a real).

  The kernel's result is read off its run segment by segment (host operations, then each launch's arrays at what its write-backs
  leave), each launch's arrays index by index from the body's arithmetic and the grid's accumulation; the reference's result is its
  operations' composed term. Both are the specification's network at their own variance; the variance law joins them.
  The three frames are the generated frame theorems and the reference's run with its result dropped; the kernel's idealization
  rewrote nothing, so there is nothing to preserve beyond the text.
-/
import proofs.«133934_j19997367730796_1_alg».proof.Defs
import proofs.«133934_j19997367730796_1_alg».proof.Proof.Gen.Kernel
import proofs.«133934_j19997367730796_1_alg».proof.Proof.Gen.Kernel.Skeleton
import proofs.«133934_j19997367730796_1_alg».proof.Proof.Gen.Kernel.Launch
import proofs.«133934_j19997367730796_1_alg».proof.Proof.Gen.Kernel.Points
import proofs.«133934_j19997367730796_1_alg».proof.Proof.Gen.Kernel.Frame
import proofs.«133934_j19997367730796_1_alg».proof.Proof.Gen.KernelIdeal
import proofs.«133934_j19997367730796_1_alg».proof.Proof.Gen.KernelIdeal.Skeleton
import proofs.«133934_j19997367730796_1_alg».proof.Proof.Gen.KernelIdeal.Launch
import proofs.«133934_j19997367730796_1_alg».proof.Proof.Gen.KernelIdeal.Points
import proofs.«133934_j19997367730796_1_alg».proof.Proof.Gen.KernelIdeal.Frame
import proofs.«133934_j19997367730796_1_alg».proof.Proof.Gen.ReferenceIdeal
import proofs.«133934_j19997367730796_1_alg».proof.Proof.Gen.Pre_finite_inputs
import proofs.«133934_j19997367730796_1_alg».proof.Proof.KRun
import proofs.«133934_j19997367730796_1_alg».proof.Proof.KAgg
import proofs.«133934_j19997367730796_1_alg».proof.Proof.RefRun
import proofs.«133934_j19997367730796_1_alg».proof.Proof.PreFinite
import proofs.«133934_j19997367730796_1_alg».proof.Proof.Net
import proofs.«133934_j19997367730796_1_alg».proof.Proof.Bridge
import proofs.«133934_j19997367730796_1_alg».proof.Proof.KIndex
import Idealize.ShloMosaic.Lib.ValueIdx
import Idealize.ShloMosaic.Adequacy
import Idealize.ShloMosaic.Init

noncomputable section

namespace Cert.Proof

open Idealize.ShloMosaic Idealize.SL.Sem Idealize.ShloMosaic.ValueIdx

theorem frame_Kernel : Cert.frame_Kernel (hKernel := Cert.Kernel.Gen.facts) (hPre_finite_inputs := Cert.Pre_finite_inputs.Gen.facts) :=
  fun m ρ _ => Cert.Kernel.Gen.frame m ρ

theorem frame_KernelIdeal :
    Cert.frame_KernelIdeal (hKernelIdeal := Cert.KernelIdeal.Gen.facts) (hPre_finite_inputs := Cert.Pre_finite_inputs.Gen.facts) :=
  fun m ρ _ => Cert.KernelIdeal.Gen.frame m ρ

theorem frame_ReferenceIdeal :
    Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.RefValue.run (F := Ideal) m ρ)

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' hpre hagree
  refine ⟨fun c => Cert.KernelIdeal.Gen.W13 m g c (Proc.devRef .tc Cert.KernelIdeal.main_v73),
    Cert.KernelIdeal.KRun.run_value (F := Ideal) m g, ?_⟩
  refine (θ_run (Cert.ReferenceIdeal.defs (F := Ideal)) _ _).mono (fun _ h c => ?_)
    (Cert.ReferenceIdeal.RefValue.run (F := Ideal) m' g')
  refine ⟨(h c).1.trans ?_, (h c).2⟩
  obtain ⟨e0, e1, e2, e3, e4, e5, e6, e7, e8, e9, e10, e11, e12⟩ := hagree c
  rw [e0, e1, e2, e3, e4, e5, e6, e7, e8, e9, e10, e11, e12]
  obtain ⟨f0, f3, f4, f5, f6, f7, f8, f9, f10, -, -⟩ :=
    Cert.PreFinite.finite_args _ _ _ _ _ _ _ _ _ _ _ _ _ (hpre c)
  refine funext fun i => ?_
  obtain ⟨j, rfl⟩ : ∃ j : Fin 2, i = ix2 (0 : Fin 1) j :=
    ⟨i 1, (eq_ix2 i).trans (congrArg (fun a : Fin 1 => ix2 a (i 1)) (Subsingleton.elim _ _))⟩
  exact ((Cert.KernelIdeal.KIndex.kernel_out m g c j).trans
    (Cert.Bridge.net_eq_refOut _ _ _ _ _ _ _ _ _ _ _ _ _ f0 f3 f4 f5 f6 f7 f8 f9 f10 j)).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
